-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x6 : Shape := ⟨2, ![200000, 6]⟩
abbrev S2x6400000 : Shape := ⟨2, ![2, 6400000]⟩
abbrev S6x16 : Shape := ⟨2, ![6, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S200000x6 : S_.BroadcastsInDim S200000x6 (![] : Fin 0 → Fin S200000x6.rank)
  reducesTo_S200000x6_S_d0_1 : S200000x6.ReducesTo [0, 1] S_
  h_S_ : 0 < S_.numel
  bcast_S_S6x16 : S_.BroadcastsInDim S6x16 (![] : Fin 0 → Fin S6x16.rank)
  reducesTo_S6x16_S_d0_1 : S6x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S8 .f32) (main_arg6 : FVec F S8x1 .f32) (main_arg7 : FVec F S1 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1 .f32 := Host.absf main_arg6
  let main_cst_8 : FVec F S_ .f32 := constant S_ .f32 0x7F800000#32
  let main_v25 : FVec F S8x1 .f32 := broadcastInDim S8x1 ![] bcast_S_S8x1 main_cst_8
  let main_v26 : IVec S8x1 1 := cmpf .olt main_v24 main_v25
  let main_c_9 : IVec S_ 1 := constantI S_ 1 1#1
  let main_v27 : IVec S_ 1 := (fun x v => Host.reduce IntOp.andi x v reducesTo_S8x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S200000x6 .f32) (main_arg1 : IVec S2x6400000 32) (main_arg2 : FVec F S6x16 .f32) (main_arg3 : FVec F S16 .f32) (main_arg4 : FVec F S16x8 .f32) (main_arg5 : FVec F S8 .f32) (main_arg6 : FVec F S8x1 .f32) (main_arg7 : FVec F S1 .f32) : IVec S_ 1 :=
  let main_v0 : FVec F S200000x6 .f32 := Host.absf main_arg0
  let main_cst : FVec F S_ .f32 := constant S_ .f32 0x7F800000#32
  let main_v1 : FVec F S200000x6 .f32 := broadcastInDim S200000x6 ![] bcast_S_S200000x6 main_cst
  let main_v2 : IVec S200000x6 1 := cmpf .olt main_v0 main_v1
  let main_c : IVec S_ 1 := constantI S_ 1 1#1
  let main_v3 : IVec S_ 1 := (fun x v => Host.reduce IntOp.andi x v reducesTo_S200000x6_S_d0_1 h_S_) main_v2 main_c
  let main_v4 : FVec F S6x16 .f32 := Host.absf main_arg2
  let main_cst_0 : FVec F S_ .f32 := constant S_ .f32 0x7F800000#32
  let main_v5 : FVec F S6x16 .f32 := broadcastInDim S6x16 ![] bcast_S_S6x16 main_cst_0
  let main_v6 : IVec S6x16 1 := cmpf .olt main_v4 main_v5
  let main_c_1 : IVec S_ 1 := constantI S_ 1 1#1
  let main_v7 : IVec S_ 1 := (fun x v => Host.reduce IntOp.andi x v reducesTo_S6x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg5 main_arg6 main_arg7 main_v13 main_v16
-- ==== Kernel.lean ====
abbrev S200000x6 : Shape := ⟨2, ![200000, 6]⟩
abbrev S2x6400000 : Shape := ⟨2, ![2, 6400000]⟩
abbrev S6x16 : Shape := ⟨2, ![6, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S200000x1 : Shape := ⟨2, ![200000, 1]⟩
abbrev S200000x16 : Shape := ⟨2, ![200000, 16]⟩
abbrev S4000x6 : Shape := ⟨2, ![4000, 6]⟩
abbrev S4000x1 : Shape := ⟨2, ![4000, 1]⟩
abbrev S4000x16 : Shape := ⟨2, ![4000, 16]⟩
abbrev S6400000x16 : Shape := ⟨2, ![6400000, 16]⟩
abbrev S1x16 : Shape := ⟨2, ![1, 16]⟩
abbrev S200000x8 : Shape := ⟨2, ![200000, 8]⟩
abbrev S4000x8 : Shape := ⟨2, ![4000, 8]⟩
abbrev S6400000x8 : Shape := ⟨2, ![6400000, 8]⟩
abbrev S1x8 : Shape := ⟨2, ![1, 8]⟩
abbrev S1x1 : Shape := ⟨2, ![1, 1]⟩

abbrev nBuf : Space → Nat
  | .hbm => 55
  | .vmem => 28
  | .smem => 0
  | _ => 0

abbrev bufTy : (tb : Table) → Fin (tcTables nBuf tb) → BufTy
  | .hbm, ⟨0, _⟩ => ⟨S200000x6, .f32⟩
  | .hbm, ⟨1, _⟩ => ⟨S2x6400000, .i32⟩
  | .hbm, ⟨2, _⟩ => ⟨S6x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S8x1, .f32⟩
  | .hbm, ⟨7, _⟩ => ⟨S1, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S_, .f32⟩
  | .hbm, ⟨13, _⟩ => ⟨S6400000, .f32⟩
  | .hbm, ⟨14, _⟩ => ⟨S_, .f32⟩
  | .hbm, ⟨15, _⟩ => ⟨S200000, .f32⟩
  | .hbm, ⟨16, _⟩ => ⟨S6400000x1, .i32⟩
  | .hbm, ⟨17, _⟩ => ⟨S200000, .f32⟩
  | .hbm, ⟨18, _⟩ => ⟨S_, .f32⟩
  | .hbm, ⟨19, _⟩ => ⟨S200000, .f32⟩
  | .hbm, ⟨20, _⟩ => ⟨S200000, .f32⟩
  | .hbm, ⟨21, _⟩ => ⟨S200000, .f32⟩
  | .hbm, ⟨22, _⟩ => ⟨S200000x1, .f32⟩
  | .hbm, ⟨23, _⟩ => ⟨S200000x16, .f32⟩
  | .hbm, ⟨24, _⟩ => ⟨S_, .i32⟩
  | .hbm, ⟨25, _⟩ => ⟨S6400000, .i32⟩
  | .hbm, ⟨26, _⟩ => ⟨S6400000, .i1⟩
  | .hbm, ⟨27, _⟩ => ⟨S_, .i32⟩
  | .hbm, ⟨28, _⟩ => ⟨S6400000, .i32⟩
  | .hbm, ⟨29, _⟩ => ⟨S6400000, .i32⟩
  | .hbm, ⟨30, _⟩ => ⟨S6400000, .i32⟩
  | .hbm, ⟨31, _⟩ => ⟨S6400000x1, .i32⟩
  | .hbm, ⟨32, _⟩ => ⟨S6400000x16, .f32⟩
  | .hbm, ⟨33, _⟩ => ⟨S_, .f32⟩
  | .hbm, ⟨34, _⟩ => ⟨S200000x16, .f32⟩
  | .hbm, ⟨35, _⟩ => ⟨S6400000x1, .i32⟩
  | .hbm, ⟨36, _⟩ => ⟨S200000x16, .f32⟩
  | .hbm, ⟨37, _⟩ => ⟨S1x16, .f32⟩
  | .hbm, ⟨38, _⟩ => ⟨S200000x8, .f32⟩
  | .hbm, ⟨39, _⟩ => ⟨S_, .i32⟩
  | .hbm, ⟨40, _⟩ => ⟨S6400000, .i32⟩
  | .hbm, ⟨41, _⟩ => ⟨S6400000, .i1⟩
  | .hbm, ⟨42, _⟩ => ⟨S_, .i32⟩
  | .hbm, ⟨43, _⟩ => ⟨S6400000, .i32⟩
  | .hbm, ⟨44, _⟩ => ⟨S6400000, .i32⟩
  | .hbm, ⟨45, _⟩ => ⟨S6400000, .i32⟩
  | .hbm, ⟨46, _⟩ => ⟨S6400000x1, .i32⟩
  | .hbm, ⟨47, _⟩ => ⟨S6400000x8, .f32⟩
  | .hbm, ⟨48, _⟩ => ⟨S_, .f32⟩
  | .hbm, ⟨49, _⟩ => ⟨S200000x8, .f32⟩
  | .hbm, ⟨50, _⟩ => ⟨S6400000x1, .i32⟩
  | .hbm, ⟨51, _⟩ => ⟨S200000x8, .f32⟩
  | .hbm, ⟨52, _⟩ => ⟨S1x8, .f32⟩
  | .hbm, ⟨53, _⟩ => ⟨S1x1, .f32⟩
  | .hbm, ⟨54, _⟩ => ⟨S200000x1, .f32⟩
  | .local _ .vmem, ⟨0, _⟩ => ⟨S4000x6, .f32⟩
  | .local _ .vmem, ⟨1, _⟩ => ⟨S4000x6, .f32⟩
  | .local _ .vmem, ⟨2, _⟩ => ⟨S6x16, .f32⟩
  | .local _ .vmem, ⟨3, _⟩ => ⟨S4000x1, .f32⟩
  | .local _ .vmem, ⟨4, _⟩ => ⟨S4000x1, .f32⟩
  | .local _ .vmem, ⟨5, _⟩ => ⟨S4000x16, .f32⟩
  | .local _ .vmem, ⟨6, _⟩ => ⟨S4000x16, .f32⟩
  | .local _ .vmem, ⟨7, _⟩ => ⟨S4000x16, .f32⟩
  | .local _ .vmem, ⟨8, _⟩ => ⟨S4000x16, .f32⟩
  | .local _ .vmem, ⟨9, _⟩ => ⟨S4000x16, .f32⟩
  | .local _ .vmem, ⟨10, _⟩ => ⟨S4000x16, .f32⟩
  | .local _ .vmem, ⟨11, _⟩ => ⟨S4000x1, .f32⟩
  | .local _ .vmem, ⟨12, _⟩ => ⟨S4000x1, .f32⟩
  | .local _ .vmem, ⟨13, _⟩ => ⟨S1x16, .f32⟩
  | .local _ .vmem, ⟨14, _⟩ => ⟨S16x8, .f32⟩
  | .local _ .vmem, ⟨15, _⟩ => ⟨S4000x8, .f32⟩
  | .local _ .vmem, ⟨16, _⟩ => ⟨S4000x8, .f32⟩
  | .local _ .vmem, ⟨17, _⟩ => ⟨S4000x8, .f32⟩
  | .local _ .vmem, ⟨18, _⟩ => ⟨S4000x8, .f32⟩
  | .local _ .vmem, ⟨19, _⟩ => ⟨S4000x8, .f32⟩
  | .local _ .vmem, ⟨20, _⟩ => ⟨S4000x8, .f32⟩
  | .local _ .vmem, ⟨21, _⟩ => ⟨S4000x1, .f32⟩
  | .local _ .vmem, ⟨22, _⟩ => ⟨S4000x1, .f32⟩
  | .local _ .vmem, ⟨23, _⟩ => ⟨S1x8, .f32⟩
  | .local _ .vmem, ⟨24, _⟩ => ⟨S8x1, .f32⟩
  | .local _ .vmem, ⟨25, _⟩ => ⟨S1x1, .f32⟩
  | .local _ .vmem, ⟨26, _⟩ => ⟨S4000x1, .f32⟩
  | .local _ .vmem, ⟨27, _⟩ => ⟨S4000x1, .f32⟩
  | _, _ => ⟨S200000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  shapeCasts_S200000_S200000x1 : S200000.ShapeCasts S200000x1
  inb_S4000x6_S4000x6_0_0 : ∀ a, (![0, 0] : Fin 2 → Nat) a + S4000x6.size a ≤ S4000x6.size a
  h_S4000x6 : 0 < S4000x6.numel
  bitsLt_bf16_f32 : FTy.bits .bf16 < FTy.bits .f32
  inb_S6x16_S6x16_0_0 : ∀ a, (![0, 0] : Fin 2 → Nat) a + S6x16.size a ≤ S6x16.size a
  h_S6x16 : 0 < S6x16.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  inb_S4000x16_S4000x16_0_0 : ∀ a, (![0, 0] : Fin 2 → Nat) a + S4000x16.size a ≤ S4000x16.size a
  h_S4000x16 : 0 < S4000x16.numel
  bcast_S_S200000x16 : S_.BroadcastsInDim S200000x16 (![] : Fin 0 → Fin S200000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x8_S16x8_0_0 : ∀ a, (![0, 0] : Fin 2 → Nat) a + S16x8.size a ≤ S16x8.size a
  h_S16x8 : 0 < S16x8.numel
  broadcasts_S4000x1_S4000x8 : S4000x1.Broadcasts S4000x8
  inb_S4000x8_S4000x8_0_0 : ∀ a, (![0, 0] : Fin 2 → Nat) a + S4000x8.size a ≤ S4000x8.size a
  h_S4000x8 : 0 < S4000x8.numel
  bcast_S_S200000x8 : S_.BroadcastsInDim S200000x8 (![] : Fin 0 → Fin S200000x8.rank)
  shapeCasts_S8_S1x8 : S8.ShapeCasts S1x8
  shapeCasts_S1_S1x1 : S1.ShapeCasts S1x1
  shapeCasts_S4000x8_S4000x8 : S4000x8.ShapeCasts S4000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4000x8 : S1x8.Broadcasts S4000x8
  inb_S8x1_S8x1_0_0 : ∀ a, (![0, 0] : Fin 2 → Nat) a + S8x1.size a ≤ S8x1.size a
  h_S8x1 : 0 < S8x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S200000_S6400000x1_S6400000_n_0_0_1_wf : ScatterDims.WF S200000 S6400000x1 S6400000 [] [0] [0] 1
  dot_S4000x6_S6x16_S4000x16_1_0_0_1_n_n_wf : DotDims.WF S4000x6 S6x16 S4000x16 [1] [0] [0] [1] [] []
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S4000x16_S16x8_S4000x8_1_0_0_1_n_n_wf : DotDims.WF S4000x16 S16x8 S4000x8 [1] [0] [0] [1] [] []
  gather_S200000x8_S6400000x1_S6400000x8_1_0_n_n_0_1_18_wf : GatherDims.WF S200000x8 S6400000x1 S6400000x8 [1] [0] [] [0] [] 1 ![1, 8]
  scatter_S200000x8_S6400000x1_S6400000x8_1_0_0_1_wf : ScatterDims.WF S200000x8 S6400000x1 S6400000x8 [1] [0] [0] 1
  dot_S4000x8_S8x1_S4000x1_1_0_0_1_n_n_wf : DotDims.WF S4000x8 S8x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x6.size a ≤ S200000x6.size a
  hwx0_0 : ∀ i : grid0.Coords, EltTy.bits .f32 = 32 ∨ (Rect.block (s := S200000x6) S4000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x16.size a ≤ S6x16.size a
  hwx0_1 : ∀ i : grid0.Coords, EltTy.bits .f32 = 32 ∨ (Rect.block (s := S6x16) S6x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S200000x1.size a
  hwx0_2 : ∀ i : grid0.Coords, EltTy.bits .f32 = 32 ∨ (Rect.block (s := S200000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x16.size a ≤ S200000x16.size a
  hwx0_3 : ∀ i : grid0.Coords, EltTy.bits .f32 = 32 ∨ (Rect.block (s := S200000x16) S4000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S200000x16.size a
  hwx1_0 : ∀ i : grid1.Coords, EltTy.bits .f32 = 32 ∨ (Rect.block (s := S200000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x16.size a ≤ S200000x16.size a
  hwx1_1 : ∀ i : grid1.Coords, EltTy.bits .f32 = 32 ∨ (Rect.block (s := S200000x16) S4000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S200000x1.size a
  hwx1_2 : ∀ i : grid1.Coords, EltTy.bits .f32 = 32 ∨ (Rect.block (s := S200000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x8.size a ≤ S16x8.size a
  hwx1_4 : ∀ i : grid1.Coords, EltTy.bits .f32 = 32 ∨ (Rect.block (s := S16x8) S16x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x8.size a ≤ S200000x8.size a
  hwx1_5 : ∀ i : grid1.Coords, EltTy.bits .f32 = 32 ∨ (Rect.block (s := S200000x8) S4000x8.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x8.size a ≤ S200000x8.size a
  hwx2_0 : ∀ i : grid2.Coords, EltTy.bits .f32 = 32 ∨ (Rect.block (s := S200000x8) S4000x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x8.size a ≤ S200000x8.size a
  hwx2_1 : ∀ i : grid2.Coords, EltTy.bits .f32 = 32 ∨ (Rect.block (s := S200000x8) S4000x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S200000x1.size a
  hwx2_2 : ∀ i : grid2.Coords, EltTy.bits .f32 = 32 ∨ (Rect.block (s := S200000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8.size a ≤ S1x8.size a
  hwx2_3 : ∀ i : grid2.Coords, EltTy.bits .f32 = 32 ∨ (Rect.block (s := S1x8) S1x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S8x1.size a ≤ S8x1.size a
  hwx2_4 : ∀ i : grid2.Coords, EltTy.bits .f32 = 32 ∨ (Rect.block (s := S8x1) S8x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x1.size a ≤ S200000x1.size a
  hwx2_6 : ∀ i : grid2.Coords, EltTy.bits .f32 = 32 ∨ (Rect.block (s := S200000x1) S4000x1.size (cc2_transform_6 i) (hinb2_6 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def dot_S4000x6_S6x16_S4000x16_1_0_0_1_n_n : DotDims S4000x6 S6x16 S4000x16 where
  lhsContracting := [1]
  rhsContracting := [0]
  lhsNonContracting := [0]
  rhsNonContracting := [1]
  lhsBatch := []
  rhsBatch := []
  wf := dot_S4000x6_S6x16_S4000x16_1_0_0_1_n_n_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S4000x16_S16x8_S4000x8_1_0_0_1_n_n : DotDims S4000x16 S16x8 S4000x8 where
  lhsContracting := [1]
  rhsContracting := [0]
  lhsNonContracting := [0]
  rhsNonContracting := [1]
  lhsBatch := []
  rhsBatch := []
  wf := dot_S4000x16_S16x8_S4000x8_1_0_0_1_n_n_wf
def gather_S200000x8_S6400000x1_S6400000x8_1_0_n_n_0_1_18 : GatherDims S200000x8 S6400000x1 S6400000x8 where
  offsetDims := [1]
  collapsedSliceDims := [0]
  operandBatchingDims := []
  startIndicesBatchingDims := []
  startIndexMap := [0]
  indexVectorDim := 1
  sliceSizes := ![1, 8]
  wf := gather_S200000x8_S6400000x1_S6400000x8_1_0_n_n_0_1_18_wf
def scatter_S200000x8_S6400000x1_S6400000x8_1_0_0_1 : ScatterDims S200000x8 S6400000x1 S6400000x8 where
  updateWindowDims := [1]
  insertedWindowDims := [0]
  scatterDimsToOperandDims := [0]
  indexVectorDim := 1
  wf := scatter_S200000x8_S6400000x1_S6400000x8_1_0_0_1_wf
def dot_S4000x8_S8x1_S4000x1_1_0_0_1_n_n : DotDims S4000x8 S8x1 S4000x1 where
  lhsContracting := [1]
  rhsContracting := [0]
  lhsNonContracting := [0]
  rhsNonContracting := [1]
  lhsBatch := []
  rhsBatch := []
  wf := dot_S4000x8_S8x1_S4000x1_1_0_0_1_n_n_wf

abbrev win0_0 : Pipeline.Window sig grid0 :=
  Pipeline.Window.ofSpec (Memref.whole main_arg0) S4000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S16x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S4000x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S4000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S4000x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S8x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S4000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S200000x6 : Shape := ⟨2, ![200000, 6]⟩
abbrev S2x6400000 : Shape := ⟨2, ![2, 6400000]⟩
abbrev S6x16 : Shape := ⟨2, ![6, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S1x6400000 : Shape := ⟨2, ![1, 6400000]⟩
abbrev S6400000 : Shape := ⟨1, ![6400000]⟩
abbrev S200000x16 : Shape := ⟨2, ![200000, 16]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S6600000x16 : Shape := ⟨2, ![6600000, 16]⟩
abbrev S1x16 : Shape := ⟨2, ![1, 16]⟩
abbrev S200000x8 : Shape := ⟨2, ![200000, 8]⟩
abbrev S6600000x8 : Shape := ⟨2, ![6600000, 8]⟩
abbrev S1x8 : Shape := ⟨2, ![1, 8]⟩
abbrev S200000x1 : Shape := ⟨2, ![200000, 1]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S200000x6, .f32⟩
  | 1 => ⟨S2x6400000, .i32⟩
  | 2 => ⟨S6x16, .f32⟩
  | 3 => ⟨S16, .f32⟩
  | 4 => ⟨S16x8, .f32⟩
  | 5 => ⟨S8, .f32⟩
  | 6 => ⟨S8x1, .f32⟩
  | 7 => ⟨S1, .f32⟩
  | 8 => ⟨S1x6400000, .i32⟩
  | 9 => ⟨S6400000, .i32⟩
  | 10 => ⟨S1x6400000, .i32⟩
  | 11 => ⟨S6400000, .i32⟩
  | 12 => ⟨S200000x16, .f32⟩
  | 13 => ⟨S200000, .i32⟩
  | 14 => ⟨S6600000, .i32⟩
  | 15 => ⟨S6600000, .i32⟩
  | 16 => ⟨S_, .f32⟩
  | 17 => ⟨S6600000, .f32⟩
  | 18 => ⟨S_, .f32⟩
  | 19 => ⟨S200000, .f32⟩
  | 20 => ⟨S6600000x1, .i32⟩
  | 21 => ⟨S200000, .f32⟩
  | 22 => ⟨S_, .f32⟩
  | 23 => ⟨S200000, .f32⟩
  | 24 => ⟨S200000, .i1⟩
  | 25 => ⟨S200000, .f32⟩
  | 26 => ⟨S_, .f32⟩
  | 27 => ⟨S_, .f32⟩
  | 28 => ⟨S200000, .f32⟩
  | 29 => ⟨S200000, .f32⟩
  | 30 => ⟨S_, .i32⟩
  | 31 => ⟨S6600000, .i32⟩
  | 32 => ⟨S6600000, .i1⟩
  | 33 => ⟨S_, .i32⟩
  | 34 => ⟨S6600000, .i32⟩
  | 35 => ⟨S6600000, .i32⟩
  | 36 => ⟨S6600000, .i32⟩
  | 37 => ⟨S6600000x1, .i32⟩
  | 38 => ⟨S6600000, .f32⟩
  | 39 => ⟨S_, .i32⟩
  | 40 => ⟨S6600000, .i32⟩
  | 41 => ⟨S6600000, .i1⟩
  | 42 => ⟨S_, .i32⟩
  | 43 => ⟨S6600000, .i32⟩
  | 44 => ⟨S6600000, .i32⟩
  | 45 => ⟨S6600000, .i32⟩
  | 46 => ⟨S6600000x1, .i32⟩
  | 47 => ⟨S6600000, .f32⟩
  | 48 => ⟨S6600000, .f32⟩
  | 49 => ⟨S_, .i32⟩
  | 50 => ⟨S6600000, .i32⟩
  | 51 => ⟨S6600000, .i1⟩
  | 52 => ⟨S_, .i32⟩
  | 53 => ⟨S6600000, .i32⟩
  | 54 => ⟨S6600000, .i32⟩
  | 55 => ⟨S6600000, .i32⟩
  | 56 => ⟨S6600000x1, .i32⟩
  | 57 => ⟨S6600000x16, .f32⟩
  | 58 => ⟨S6600000x1, .f32⟩
  | 59 => ⟨S6600000x16, .f32⟩
  | 60 => ⟨S6600000x16, .f32⟩
  | 61 => ⟨S_, .f32⟩
  | 62 => ⟨S200000x16, .f32⟩
  | 63 => ⟨S6600000x1, .i32⟩
  | 64 => ⟨S200000x16, .f32⟩
  | 65 => ⟨S1x16, .f32⟩
  | 66 => ⟨S200000x16, .f32⟩
  | 67 => ⟨S200000x16, .f32⟩
  | 68 => ⟨S_, .f32⟩
  | 69 => ⟨S200000x16, .f32⟩
  | 70 => ⟨S200000x16, .f32⟩
  | 71 => ⟨S200000x8, .f32⟩
  | 72 => ⟨S200000, .i32⟩
  | 73 => ⟨S6600000, .i32⟩
  | 74 => ⟨S6600000, .i32⟩
  | 75 => ⟨S_, .f32⟩
  | 76 => ⟨S6600000, .f32⟩
  | 77 => ⟨S_, .f32⟩
  | 78 => ⟨S200000, .f32⟩
  | 79 => ⟨S6600000x1, .i32⟩
  | 80 => ⟨S200000, .f32⟩
  | 81 => ⟨S_, .f32⟩
  | 82 => ⟨S200000, .f32⟩
  | 83 => ⟨S200000, .i1⟩
  | 84 => ⟨S200000, .f32⟩
  | 85 => ⟨S_, .f32⟩
  | 86 => ⟨S_, .f32⟩
  | 87 => ⟨S200000, .f32⟩
  | 88 => ⟨S200000, .f32⟩
  | 89 => ⟨S_, .i32⟩
  | 90 => ⟨S6600000, .i32⟩
  | 91 => ⟨S6600000, .i1⟩
  | 92 => ⟨S_, .i32⟩
  | 93 => ⟨S6600000, .i32⟩
  | 94 => ⟨S6600000, .i32⟩
  | 95 => ⟨S6600000, .i32⟩
  | 96 => ⟨S6600000x1, .i32⟩
  | 97 => ⟨S6600000, .f32⟩
  | 98 => ⟨S_, .i32⟩
  | 99 => ⟨S6600000, .i32⟩
  | 100 => ⟨S6600000, .i1⟩
  | 101 => ⟨S_, .i32⟩
  | 102 => ⟨S6600000, .i32⟩
  | 103 => ⟨S6600000, .i32⟩
  | 104 => ⟨S6600000, .i32⟩
  | 105 => ⟨S6600000x1, .i32⟩
  | 106 => ⟨S6600000, .f32⟩
  | 107 => ⟨S6600000, .f32⟩
  | 108 => ⟨S_, .i32⟩
  | 109 => ⟨S6600000, .i32⟩
  | 110 => ⟨S6600000, .i1⟩
  | 111 => ⟨S_, .i32⟩
  | 112 => ⟨S6600000, .i32⟩
  | 113 => ⟨S6600000, .i32⟩
  | 114 => ⟨S6600000, .i32⟩
  | 115 => ⟨S6600000x1, .i32⟩
  | 116 => ⟨S6600000x8, .f32⟩
  | 117 => ⟨S6600000x1, .f32⟩
  | 118 => ⟨S6600000x8, .f32⟩
  | 119 => ⟨S6600000x8, .f32⟩
  | 120 => ⟨S_, .f32⟩
  | 121 => ⟨S200000x8, .f32⟩
  | 122 => ⟨S6600000x1, .i32⟩
  | 123 => ⟨S200000x8, .f32⟩
  | 124 => ⟨S1x8, .f32⟩
  | 125 => ⟨S200000x8, .f32⟩
  | 126 => ⟨S200000x8, .f32⟩
  | 127 => ⟨S_, .f32⟩
  | _ => ⟨S200000x6, .f32⟩

abbrev hbmTy0_1 (i : Nat) : BufTy := match i % 128 with
  | 0 => ⟨S200000x8, .f32⟩
  | 1 => ⟨S200000x8, .f32⟩
  | 2 => ⟨S200000x1, .f32⟩
  | 3 => ⟨S1x1, .f32⟩
  | 4 => ⟨S200000x1, .f32⟩
  | 5 => ⟨S200000x1, .f32⟩
  | 6 => ⟨S200000x1, .f32⟩
  | 7 => ⟨S200000x1, .f32⟩
  | 8 => ⟨S_, .f32⟩
  | 9 => ⟨S200000x1, .f32⟩
  | 10 => ⟨S200000x1, .f32⟩
  | 11 => ⟨S_, .f32⟩
  | 12 => ⟨S200000x1, .f32⟩
  | 13 => ⟨S200000x1, .f32⟩
  | _ => ⟨S200000x6, .f32⟩

abbrev hbmTy (i : Nat) : BufTy := match i / 128 with
  | 0 => hbmTy0_0 i
  | 1 => hbmTy0_1 i
  | _ => ⟨S200000x6, .f32⟩

abbrev bufTy : (tb : Table) → Fin (tcTables nBuf tb) → BufTy
  | .hbm, ⟨i, _⟩ => hbmTy i
  | _, _ => ⟨S200000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_cst_21 : Ref sig .tc := ⟨.hbm, 139, rfl⟩
abbrev main_v100 : Ref sig .tc := ⟨.hbm, 140, rfl⟩
abbrev main_v101 : Ref sig .tc := ⟨.hbm, 141, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x8_0_1 : S6600000x1.BroadcastsInDim S6600000x8 (![0, 1] : Fin 2 → Fin S6600000x8.rank)
  bcast_S_S200000x8 : S_.BroadcastsInDim S200000x8 (![] : Fin 0 → Fin S200000x8.rank)
  bcast_S8_S1x8_1 : S8.BroadcastsInDim S1x8 (![1] : Fin 1 → Fin S1x8.rank)
  bcast_S1x8_S200000x8_0_1 : S1x8.BroadcastsInDim S200000x8 (![0, 1] : Fin 2 → Fin S200000x8.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  dot_S200000x6_S6x16_S200000x16_1_0_0_1_n_n_wf : DotDims.WF S200000x6 S6x16 S200000x16 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x8_S200000x8_1_0_0_1_n_n_wf : DotDims.WF S200000x16 S16x8 S200000x8 [1] [0] [0] [1] [] []
  gather_S200000x8_S6600000x1_S6600000x8_1_0_n_n_0_1_18_wf : GatherDims.WF S200000x8 S6600000x1 S6600000x8 [1] [0] [] [0] [] 1 ![1, 8]
  scatter_S200000x8_S6600000x1_S6600000x8_1_0_0_1_wf : ScatterDims.WF S200000x8 S6600000x1 S6600000x8 [1] [0] [0] 1
  dot_S200000x8_S8x1_S200000x1_1_0_0_1_n_n_wf : DotDims.WF S200000x8 S8x1 S200000x1 [1] [0] [0] [1] [] []

variable [Facts₀]

def dot_S200000x6_S6x16_S200000x16_1_0_0_1_n_n : DotDims S200000x6 S6x16 S200000x16 where
  lhsContracting := [1]
  rhsContracting := [0]
  lhsNonContracting := [0]
  rhsNonContracting := [1]
  lhsBatch := []
  rhsBatch := []
  wf := dot_S200000x6_S6x16_S200000x16_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x8_S200000x8_1_0_0_1_n_n : DotDims S200000x16 S16x8 S200000x8 where
  lhsContracting := [1]
  rhsContracting := [0]
  lhsNonContracting := [0]
  rhsNonContracting := [1]
  lhsBatch := []
  rhsBatch := []
  wf := dot_S200000x16_S16x8_S200000x8_1_0_0_1_n_n_wf
def gather_S200000x8_S6600000x1_S6600000x8_1_0_n_n_0_1_18 : GatherDims S200000x8 S6600000x1 S6600000x8 where
  offsetDims := [1]
  collapsedSliceDims := [0]
  operandBatchingDims := []
  startIndicesBatchingDims := []
  startIndexMap := [0]
  indexVectorDim := 1
  sliceSizes := ![1, 8]
  wf := gather_S200000x8_S6600000x1_S6600000x8_1_0_n_n_0_1_18_wf
def scatter_S200000x8_S6600000x1_S6600000x8_1_0_0_1 : ScatterDims S200000x8 S6600000x1 S6600000x8 where
  updateWindowDims := [1]
  insertedWindowDims := [0]
  scatterDimsToOperandDims := [0]
  indexVectorDim := 1
  wf := scatter_S200000x8_S6600000x1_S6600000x8_1_0_0_1_wf
def dot_S200000x8_S8x1_S200000x1_1_0_0_1_n_n : DotDims S200000x8 S8x1 S200000x1 where
  lhsContracting := [1]
  rhsContracting := [0]
  lhsNonContracting := [0]
  rhsNonContracting := [1]
  lhsBatch := []
  rhsBatch := []
  wf := dot_S200000x8_S8x1_S200000x1_1_0_0_1_n_n_wf

class Facts : Prop extends Facts₀ where

variable [Facts]
-- ==== Proof.RefSpec.lean ====
/-
  The reference program's result as a composition of named whole-array functions.

  The reference computes a two-layer graph convolution. Its edge list is the graph's E = 6400000 edges followed by one
  loop per node (N = 200000): sources catS, targets catD, each of length 6600000. A layer gathers the rows of H along
  the wrapped sources, multiplies each by norm = dinv (source) * dinv (target), sums them into the targets and adds a
  bias row; dinv = where (deg > 0, 1 / sqrt (deg), 0) with deg the number of list entries per target. After each layer a
  maximum with 0; at the end a product with a weight column, a bias, and the logistic function spelt 1 / (1 + exp (- z)).
-/
import proofs.«127821_j22179211117042_2_alg».proof.Proof.RefRun
import Idealize.ShloMosaic.PureOps.Ideal
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem

/-- The edges' source words: row 0 of the edge array. -/
def srcV (x1 : IVec S2x6400000 32) : IVec S6400000 32 :=
  shapeCast _ (extractStridedSlice S1x6400000 ![0, 0] x1 slices_S2x6400000_S1x6400000_0_0) shapeCasts_S1x6400000_S6400000
/-- The edges' target words: row 1 of the edge array. -/
def dstV (x1 : IVec S2x6400000 32) : IVec S6400000 32 :=
  shapeCast _ (extractStridedSlice S1x6400000 ![1, 0] x1 slices_S2x6400000_S1x6400000_1_0) shapeCasts_S1x6400000_S6400000
/-- The long list's sources: the edges' sources, then node k for the loop of node k. -/
def catS (x1 : IVec S2x6400000 32) : IVec S6600000 32 :=
  concatenate S6600000 0 [⟨S6400000, srcV x1⟩, ⟨S200000, iotaInDim S200000 32 0⟩] concatenates_S6400000_S200000_S6600000_d0
/-- The long list's targets. -/
def catD (x1 : IVec S2x6400000 32) : IVec S6600000 32 :=
  concatenate S6600000 0 [⟨S6400000, dstV x1⟩, ⟨S200000, iotaInDim S200000 32 0⟩] concatenates_S6400000_S200000_S6600000_d0
/-- Negative index words wrapped by + 200000. -/
def wrapT (v : IVec S6600000 32) : IVec S6600000 32 :=
  select (cmpi .slt v (broadcastInDim S6600000 ![] bcast_S_S6600000 (constantI S_ 32 0#32)))
    (addi v (broadcastInDim S6600000 ![] bcast_S_S6600000 (constantI S_ 32 200000#32))) v
/-- An index vector as an index column. -/
def colT (v : IVec S6600000 32) : IVec S6600000x1 32 := broadcastInDim S6600000x1 ![0] bcast_S6600000_S6600000x1_0 v

/-- The number of list entries per target node. -/
def degR (x1 : IVec S2x6400000 32) : FVec Ideal S200000 .f32 :=
  Host.scatterAdd scatter_S200000_S6600000x1_S6600000_n_0_0_1
    (broadcastInDim S200000 ![] bcast_S_S200000 (constant S_ .f32 0x00000000#32)) (colT (catD x1))
    (broadcastInDim S6600000 ![] bcast_S_S6600000 (constant S_ .f32 0x3F800000#32))
/-- where (deg > 0, 1 / sqrt (deg), 0). -/
def dinvR (x1 : IVec S2x6400000 32) : FVec Ideal S200000 .f32 :=
  select (cmpf (F := Ideal) .ogt (degR x1) (broadcastInDim S200000 ![] bcast_S_S200000 (constant S_ .f32 0x00000000#32)))
    (Host.rsqrt (degR x1)) (broadcastInDim S200000 ![] bcast_S_S200000 (id (constant S_ .f32 0x00000000#32)))
/-- The factor of each list entry: dinv (source) * dinv (target). -/
def normR (x1 : IVec S2x6400000 32) : FVec Ideal S6600000 .f32 :=
  mulf (Host.gather gather_S200000_S6600000x1_S6600000_n_0_n_n_0_1_1 (dinvR x1) (colT (wrapT (catS x1))))
    (Host.gather gather_S200000_S6600000x1_S6600000_n_0_n_n_0_1_1 (dinvR x1) (colT (wrapT (catD x1))))

/-- A layer on rows of 16. -/
def layerR16 (H : FVec Ideal S200000x16 .f32) (x1 : IVec S2x6400000 32) (b : FVec Ideal S16 .f32) : FVec Ideal S200000x16 .f32 :=
  addf (Host.scatterAdd scatter_S200000x16_S6600000x1_S6600000x16_1_0_0_1
      (broadcastInDim S200000x16 ![] bcast_S_S200000x16 (constant S_ .f32 0x00000000#32)) (colT (catD x1))
      (mulf (Host.gather gather_S200000x16_S6600000x1_S6600000x16_1_0_n_n_0_1_116 H (colT (wrapT (catS x1))))
        (broadcastInDim S6600000x16 ![0, 1] bcast_S6600000x1_S6600000x16_0_1
          (broadcastInDim S6600000x1 ![0] bcast_S6600000_S6600000x1_0 (normR x1)))))
    (broadcastInDim S200000x16 ![0, 1] bcast_S1x16_S200000x16_0_1 (broadcastInDim S1x16 ![1] bcast_S16_S1x16_1 b))
/-- A layer on rows of 8. -/
def layerR8 (H : FVec Ideal S200000x8 .f32) (x1 : IVec S2x6400000 32) (b : FVec Ideal S8 .f32) : FVec Ideal S200000x8 .f32 :=
  addf (Host.scatterAdd scatter_S200000x8_S6600000x1_S6600000x8_1_0_0_1
      (broadcastInDim S200000x8 ![] bcast_S_S200000x8 (constant S_ .f32 0x00000000#32)) (colT (catD x1))
      (mulf (Host.gather gather_S200000x8_S6600000x1_S6600000x8_1_0_n_n_0_1_18 H (colT (wrapT (catS x1))))
        (broadcastInDim S6600000x8 ![0, 1] bcast_S6600000x1_S6600000x8_0_1
          (broadcastInDim S6600000x1 ![0] bcast_S6600000_S6600000x1_0 (normR x1)))))
    (broadcastInDim S200000x8 ![0, 1] bcast_S1x8_S200000x8_0_1 (broadcastInDim S1x8 ![1] bcast_S8_S1x8_1 b))

/-- The rectified first layer's rows times the second weights. -/
def hidden2 (C1 : FVec Ideal S200000x16 .f32) (x4 : FVec Ideal S16x8 .f32) : FVec Ideal S200000x8 .f32 :=
  Host.dotGeneral dot_S200000x16_S16x8_S200000x8_1_0_0_1_n_n none
    (maximumf C1 (broadcastInDim S200000x16 ![] bcast_S_S200000x16 (constant S_ .f32 0x00000000#32))) x4
/-- The head: rectify, weight column, bias, logistic. -/
def headR (C2 : FVec Ideal S200000x8 .f32) (x6 : FVec Ideal S8x1 .f32) (x7 : FVec Ideal S1 .f32) : FVec Ideal S200000x1 .f32 :=
  Host.divf (broadcastInDim S200000x1 ![] bcast_S_S200000x1 (constant S_ .f32 0x3F800000#32))
    (addf (broadcastInDim S200000x1 ![] bcast_S_S200000x1 (constant S_ .f32 0x3F800000#32))
      (Host.exp (Host.negf (addf
        (Host.dotGeneral dot_S200000x8_S8x1_S200000x1_1_0_0_1_n_n none
          (maximumf C2 (broadcastInDim S200000x8 ![] bcast_S_S200000x8 (constant S_ .f32 0x00000000#32))) x6)
        (broadcastInDim S200000x1 ![0, 1] bcast_S1x1_S200000x1_0_1 (broadcastInDim S1x1 ![1] bcast_S1_S1x1_1 x7))))))

/-- The whole reference. -/
def refTotal (x0 : FVec Ideal S200000x6 .f32) (x1 : IVec S2x6400000 32) (x2 : FVec Ideal S6x16 .f32) (x3 : FVec Ideal S16 .f32)
    (x4 : FVec Ideal S16x8 .f32) (x5 : FVec Ideal S8 .f32) (x6 : FVec Ideal S8x1 .f32) (x7 : FVec Ideal S1 .f32) : FVec Ideal S200000x1 .f32 :=
  headR (layerR8 (hidden2 (layerR16 (Host.dotGeneral dot_S200000x6_S6x16_S200000x16_1_0_0_1_n_n none x0 x2) x1 x3) x4) x1 x5) x6 x7

attribute [local irreducible] Host.gather Host.scatterAdd in
/-- The run's composed term is that composition. -/
theorem res_eq (m : (ℓ : Loc nD τ sig) → Buf (Elt Ideal) ℓ) (c : Dev nD) :
    ValueP.res_main_v101 (F := Ideal) m c
      = refTotal (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold ValueP.res_main_v101 refTotal headR layerR8 hidden2 layerR16 normR dinvR degR colT wrapT catS catD srcV dstV
  rfl

end Cert.ReferenceIdeal.RefValue

end
-- ==== Proof.RunValue.lean ====
/- The run of @main with the result buffer named.

   The run theorem over the program's segments yields, for every final state, that EVERY unscoped buffer of a core
   holds the last boundary's contents `Gen.W6`.  The frame theorem reads that fact at the eight argument buffers only;
   here it is read at the result buffer `main_v37` as well, so the final state's result is `Gen.W6 … main_v37`, which
   is what the last region's write-backs leave in its output array.  The three region outputs are then named as the
   write-back folds of their regions' proof data. -/
import proofs.«127821_j22179211117042_2_alg».proof.Proof.Gen.KernelIdeal.Frame

set_option maxRecDepth 16384

noncomputable section

namespace Cert.KernelIdeal.HostValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run theorem's implicit arguments are found by unifying its conclusion with this one, which takes unfolding
-- plain definitions in a metavariable's type
set_option backward.isDefEq.respectTransparency.types false in
/-- From any memory with zero counters, every weakly fair execution of @main on the TensorCores terminates without a
    fault, and in every final state the result buffer holds the last boundary's contents and the argument arrays are
    as launched. -/
theorem run_value : θ_run defs (onTc (τ := τ) (main (F := F))) ⟨m, fun _ => 0, ρ⟩ (fun r => ∀ c : Dev nD,
      r.2.mem ((c.tc : Thread nD τ).loc main_v37) = Gen.W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

/-- The result buffer at the last boundary is what the last region's write-backs leave in its output array. -/
theorem W6_result (c : Dev nD) :
    Gen.W6 m ρ c (Proc.devRef .tc main_v37) = (Gen.dat2 (Gen.V5 m ρ) c).arrAt 6 cfg2.N :=
  Gen.W6_arr m ρ c 6

/-- The middle region's output array at its exit is what its write-backs leave. -/
theorem V4_v24 (c : Dev nD) :
    Gen.V4 m ρ c main_v24 = (Gen.dat1 (Gen.V3 m ρ) c).arrAt 5 cfg1.N :=
  Gen.W4_arr m ρ c 5

/-- The first region's output array at its exit is what its write-backs leave. -/
theorem V2_v12 (c : Dev nD) :
    Gen.V2 m ρ c main_v12 = (Gen.dat0 (Gen.V1 m ρ) c).arrAt 3 cfg0.N :=
  Gen.W2_arr m ρ c 3

end Cert.KernelIdeal.HostValue

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«127821_j22179211117042_2_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibBlockOfWhole.lean ====
/-
  Row blocks of whole-array computations, at the ideal values.

  An [N, C] array is cut into blocks of R consecutive rows; the block that starts at row o holds rows o … o + R − 1.
  Every operation of a dense network acts on each row by itself, so computing on a block gives the block of the
  whole-array result: the product of a row block with a weight matrix is the row block of the product; a bias
  vector stretched down R rows is the row block of the vector stretched down N rows; a column stretched across the
  columns, a constant, a sum, a product, a maximum and the logistic function all commute with taking the block.
  The 0/1 mask of "this row's task is t", computed on a block by comparing the block's task column with t, is the
  block of column t of the one-hot array of all tasks.  The logistic function is the quotient 1 / (1 + exp (−z)) by
  definition, and the bit pattern of 1.0 denotes 1.
-/
import Idealize.ShloMosaic.PureOps.Ideal.Laws
import Idealize.ShloMosaic.Lib.ValueIdx
import Idealize.ShloMosaic.Lib.Pipeline.Value
import Idealize.ShloMosaic.Lib.KernelVsHost
import proofs.«127821_j22179211117042_2_alg».proof.Proof.LibRowBlocks

noncomputable section

namespace Cert.Blocks

open Idealize.ShloMosaic Idealize.ShloMosaic.ValueIdx Cert.Lib.PlainDot Cert.Bridge
open scoped BigOperators

variable {R N K C : Nat}

/-- Entry (p, c) of the block that starts at row o sits at entry (o + p, c) of the array. -/
def shiftRow (o : Nat) (h : o + R ≤ N) (y : (⟨2, ![R, C]⟩ : Shape).Idx) : (⟨2, ![N, C]⟩ : Shape).Idx := fun a => match a with
  | ⟨0, _⟩ => ⟨o + (y 0).val, Nat.lt_of_lt_of_le (Nat.add_lt_add_left (y 0).isLt o) h⟩
  | ⟨1, _⟩ => ⟨(y 1).val, (y 1).isLt⟩

/-- The block of R rows of an array that starts at row o. -/
def rowBlk {α : Type} (o : Nat) (h : o + R ≤ N) (A : (⟨2, ![N, C]⟩ : Shape).Idx → α) : (⟨2, ![R, C]⟩ : Shape).Idx → α :=
  fun y => A (shiftRow o h y)

theorem rowBlk_apply {α : Type} (o : Nat) (h : o + R ≤ N) (A : (⟨2, ![N, C]⟩ : Shape).Idx → α)
    (y : (⟨2, ![R, C]⟩ : Shape).Idx) : rowBlk o h A y = A (shiftRow o h y) := rfl

theorem shiftRow_rowIdx (o : Nat) (h : o + R ≤ N) (y : (⟨2, ![R, C]⟩ : Shape).Idx) (k : Fin K) :
    shiftRow o h (rowIdx y k) = rowIdx (shiftRow o h y) k :=
  funext fun a => Fin.ext (by match a with | ⟨0, _⟩ => rfl | ⟨1, _⟩ => rfl)

theorem shiftRow_colIdx (o : Nat) (h : o + R ≤ N) (y : (⟨2, ![R, C]⟩ : Shape).Idx) (k : Fin K) :
    (colIdx y k : (⟨2, ![K, C]⟩ : Shape).Idx) = colIdx (shiftRow o h y) k :=
  funext fun a => Fin.ext (by match a with | ⟨0, _⟩ => rfl | ⟨1, _⟩ => rfl)

theorem shiftRow_rowZero (o : Nat) (h : o + R ≤ N) (y : (⟨2, ![R, C]⟩ : Shape).Idx) :
    (rowZero y : (⟨2, ![1, C]⟩ : Shape).Idx) = rowZero (shiftRow o h y) :=
  funext fun a => Fin.ext (by match a with | ⟨0, _⟩ => rfl | ⟨1, _⟩ => rfl)

/-! ## Pointwise operations -/

/-- A change of float format is the identity on the extended reals. -/
theorem truncf_ideal {s : Shape} {φ ψ : FTy} (hψ : ψ.bits < φ.bits) (v : FVec Ideal s φ) :
    (truncf ψ v hψ : FVec Ideal s ψ) = v := rfl

theorem addf_rowBlk {φ : FTy} (o : Nat) (h : o + R ≤ N) (A B : FVec Ideal ⟨2, ![N, C]⟩ φ) :
    addf (rowBlk o h A) (rowBlk o h B) = rowBlk o h (addf A B) := rfl

theorem mulf_rowBlk {φ : FTy} (o : Nat) (h : o + R ≤ N) (A B : FVec Ideal ⟨2, ![N, C]⟩ φ) :
    mulf (rowBlk o h A) (rowBlk o h B) = rowBlk o h (mulf A B) := rfl

theorem maximumf_rowBlk {φ : FTy} (o : Nat) (h : o + R ≤ N) (A B : FVec Ideal ⟨2, ![N, C]⟩ φ) :
    maximumf (rowBlk o h A) (rowBlk o h B) = rowBlk o h (maximumf A B) := rfl

/-- A constant array is the block of the constant array. -/
theorem splat_rowBlk (o : Nat) (h : o + R ≤ N) (z : BitVec 32)
    (hZ : (⟨0, ![]⟩ : Shape).BroadcastsInDim ⟨2, ![N, C]⟩ ![]) :
    (broadcast ⟨2, ![R, C]⟩ (Scalar.ofBits (F := Ideal) .f32 z) : FVec Ideal ⟨2, ![R, C]⟩ .f32)
      = rowBlk o h (broadcastInDim ⟨2, ![N, C]⟩ ![] hZ (constant (F := Ideal) ⟨0, ![]⟩ .f32 z)) := by
  funext y
  rw [rowBlk_apply, hostSplat_apply]
  rfl

/-! ## The dense layer's pieces -/

/-- The product of a row block with a weight matrix is the row block of the product. -/
theorem matmul_rowBlk {φ₁ φ₂ : FTy} (o : Nat) (h : o + R ≤ N)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (X : FVec Ideal ⟨2, ![N, K]⟩ φ₁) (W : FVec Ideal ⟨2, ![K, C]⟩ φ₂) :
    matmul d none (rowBlk o h X) W (constant ⟨2, ![R, C]⟩ .f32 0x00000000#32) = rowBlk o h (Host.dotGeneral D none X W) :=
  funext fun y => dot_block d hd D hD none none X W (rowBlk o h X) W (shiftRow o h) id (shiftRow o h)
    (fun _ => rfl) (fun _ => rfl) (fun y k => shiftRow_rowIdx o h y k) (fun y k => shiftRow_colIdx o h y k) y

/-- A bias vector laid out as one row and stretched down R rows is the row block of the vector broadcast along a new
    leading axis and then down N rows. -/
theorem biasRow_rowBlk {φ : FTy} (o : Nat) (h : o + R ≤ N) (v : FVec Ideal ⟨1, ![C]⟩ φ)
    (h2 : (⟨1, ![C]⟩ : Shape).ShapeCasts ⟨2, ![1, C]⟩) (hb : (⟨2, ![1, C]⟩ : Shape).Broadcasts ⟨2, ![R, C]⟩)
    (hb' : (⟨1, ![C]⟩ : Shape).BroadcastsInDim ⟨2, ![1, C]⟩ ![1])
    (hB : (⟨2, ![1, C]⟩ : Shape).BroadcastsInDim ⟨2, ![N, C]⟩ ![0, 1]) :
    broadcastTo ⟨2, ![R, C]⟩ (shapeCast ⟨2, ![1, C]⟩ v h2) hb
      = rowBlk o h (broadcastInDim ⟨2, ![N, C]⟩ ![0, 1] hB (broadcastInDim ⟨2, ![1, C]⟩ ![1] hb' v)) := by
  funext y
  rw [rowBlk_apply, stretchRow_apply, hostStretchRow_apply, reshapeRow_eq v h2 hb', shiftRow_rowZero o h y]

/-- Entry (p, 0) of a one-column matrix, for the row p of the entry `j`. -/
abbrev colZero {A : Nat} (j : (⟨2, ![A, C]⟩ : Shape).Idx) : (⟨2, ![A, 1]⟩ : Shape).Idx := fun a => match a with
  | ⟨0, _⟩ => ⟨(j 0).val, (j 0).isLt⟩
  | ⟨1, _⟩ => ⟨0, Nat.one_pos⟩

/-- A column stretched across C columns, on a block, is the block of the column stretched across C columns. -/
theorem colStretch_rowBlk {α : Type} (o : Nat) (h : o + R ≤ N) (M : (⟨2, ![N, 1]⟩ : Shape).Idx → α)
    (hb : (⟨2, ![R, 1]⟩ : Shape).Broadcasts ⟨2, ![R, C]⟩)
    (hB : (⟨2, ![N, 1]⟩ : Shape).BroadcastsInDim ⟨2, ![N, C]⟩ ![0, 1]) :
    broadcastTo ⟨2, ![R, C]⟩ (rowBlk (C := 1) o h M) hb = rowBlk o h (broadcastInDim ⟨2, ![N, C]⟩ ![0, 1] hB M) := by
  funext y
  have e1 : broadcastTo ⟨2, ![R, C]⟩ (rowBlk (C := 1) o h M) hb y = rowBlk (C := 1) o h M (colZero y) :=
    broadcastTo_apply _ hb y (colZero y) (fun a => by
      match a with
      | ⟨0, _⟩ =>
        show (y 0).val = if R = 1 then 0 else (y 0).val
        have hlt : (y 0).val < R := (y 0).isLt
        split_ifs with hR
        · omega
        · rfl
      | ⟨1, _⟩ => exact (if_pos rfl).symm)
  have e2 : broadcastInDim ⟨2, ![N, C]⟩ ![0, 1] hB M (shiftRow o h y) = M (colZero (shiftRow o h y)) :=
    broadcastInDim_apply ![0, 1] hB M (shiftRow o h y) (colZero (shiftRow o h y)) (fun a => by
      match a with
      | ⟨0, _⟩ =>
        show o + (y 0).val = if N = 1 then 0 else o + (y 0).val
        have hlt : (y 0).val < R := (y 0).isLt
        split_ifs with hN
        · omega
        · rfl
      | ⟨1, _⟩ => exact (if_pos rfl).symm)
  rw [e1, rowBlk_apply, rowBlk_apply, e2]
  exact congrArg M (funext fun a => Fin.ext (by match a with | ⟨0, _⟩ => rfl | ⟨1, _⟩ => rfl))

/-! ## The task mask -/

/-- The block's 0/1 flag "the row's task word is t" is the block of column t of the one-hot array of the tasks:
    a one-bit comparison widened to 32 bits and read as a signed number is the bit read as an unsigned number,
    and column t of the counting row 0, 1, 2, 3 stretched down the rows holds the word t. -/
theorem mask_rowBlk (o : Nat) (h : o + R ≤ N) (BT : IVec ⟨1, ![N]⟩ 32) (t : Nat) (ht : t < 4) (w : BitVec 32)
    (hw : w = BitVec.ofNat 32 t) (hlt : 1 < 32)
    (hs : (⟨1, ![N]⟩ : Shape).ShapeCasts ⟨2, ![N, 1]⟩)
    (h1 : (⟨1, ![N]⟩ : Shape).BroadcastsInDim ⟨2, ![N, 1]⟩ ![0])
    (h2 : (⟨2, ![N, 1]⟩ : Shape).BroadcastsInDim ⟨2, ![N, 4]⟩ ![0, 1])
    (h3 : (⟨2, ![1, 4]⟩ : Shape).BroadcastsInDim ⟨2, ![N, 4]⟩ ![0, 1])
    (hsl : (⟨2, ![N, 4]⟩ : Shape).Slices ![0, t] ⟨2, ![N, 1]⟩) :
    (sitofp .f32 (extui 32 (cmpi .eq (rowBlk (C := 1) o h (shapeCast ⟨2, ![N, 1]⟩ BT hs)) (broadcast ⟨2, ![R, 1]⟩ w)) hlt)
        : FVec Ideal ⟨2, ![R, 1]⟩ .f32)
      = rowBlk (C := 1) o h (extractStridedSlice ⟨2, ![N, 1]⟩ ![0, t]
          (uitofp (F := Ideal) .f32 (cmpi .eq (broadcastInDim ⟨2, ![N, 4]⟩ ![0, 1] h2 (broadcastInDim ⟨2, ![N, 1]⟩ ![0] h1 BT))
            (broadcastInDim ⟨2, ![N, 4]⟩ ![0, 1] h3 (iotaInDim ⟨2, ![1, 4]⟩ 32 1)))) hsl) := by
  rw [sitofp_extui_eq_uitofp]
  funext y
  rw [rowBlk_apply]
  have hlt : (y 0).val < R := (y 0).isLt
  have hy1 : (y 1).val < 1 := (y 1).isLt
  have hi : o + (y 0).val < N := by omega
  have eL : shapeCast ⟨2, ![N, 1]⟩ BT hs (shiftRow o h y) = BT (ix1 (⟨o + (y 0).val, hi⟩ : Fin N)) :=
    shapeCast_apply BT hs _ (ix1 (⟨o + (y 0).val, hi⟩ : Fin N)) (by
      rw [Shape.rowMajor_val_one, Shape.rowMajor_val_two]
      show o + (y 0).val = (o + (y 0).val) * 1 + (y 1).val
      omega)
  have eS : ∀ G : (⟨2, ![N, 4]⟩ : Shape).Idx → EReal,
      extractStridedSlice ⟨2, ![N, 1]⟩ ![0, t] G hsl (shiftRow o h y)
        = G (ix2 (⟨o + (y 0).val, hi⟩ : Fin N) (⟨t, ht⟩ : Fin 4)) := fun G =>
    extractStridedSlice_apply _ G hsl _ (ix2 (⟨o + (y 0).val, hi⟩ : Fin N) (⟨t, ht⟩ : Fin 4)) (fun a => by
      match a with
      | ⟨0, _⟩ => exact (Nat.zero_add _).symm
      | ⟨1, _⟩ =>
        show t = t + (y 1).val
        omega)
  have eP : broadcastInDim ⟨2, ![N, 4]⟩ ![0, 1] h2 (broadcastInDim ⟨2, ![N, 1]⟩ ![0] h1 BT)
      (ix2 (⟨o + (y 0).val, hi⟩ : Fin N) (⟨t, ht⟩ : Fin 4)) = BT (ix1 (⟨o + (y 0).val, hi⟩ : Fin N)) := by
    rw [broadcastInDim_apply ![0, 1] h2 _ _ (ix2 (⟨o + (y 0).val, hi⟩ : Fin N) (0 : Fin 1)) (fun a => by
        match a with
        | ⟨0, _⟩ =>
          show o + (y 0).val = if N = 1 then 0 else o + (y 0).val
          split_ifs with hN
          · omega
          · rfl
        | ⟨1, _⟩ => exact (if_pos rfl).symm),
      broadcastInDim_apply ![0] h1 BT _ (ix1 (⟨o + (y 0).val, hi⟩ : Fin N)) (fun a => by
        match a with
        | ⟨0, _⟩ =>
          show o + (y 0).val = if N = 1 then 0 else o + (y 0).val
          split_ifs with hN
          · omega
          · rfl)]
  have eQ : broadcastInDim ⟨2, ![N, 4]⟩ ![0, 1] h3 (iotaInDim ⟨2, ![1, 4]⟩ 32 1)
      (ix2 (⟨o + (y 0).val, hi⟩ : Fin N) (⟨t, ht⟩ : Fin 4)) = BitVec.ofNat 32 t := by
    rw [broadcastInDim_apply ![0, 1] h3 _ _ (ix2 (0 : Fin 1) (⟨t, ht⟩ : Fin 4)) (fun a => by
        match a with
        | ⟨0, _⟩ => exact (if_pos rfl).symm
        | ⟨1, _⟩ =>
          show t = if (4 : Nat) = 1 then 0 else t
          rw [if_neg (by decide)])]
    rfl
  rw [eS]
  show FloatOps.uitofp .f32 (IntOp.cmpi .eq (shapeCast ⟨2, ![N, 1]⟩ BT hs (shiftRow o h y)) w)
    = FloatOps.uitofp .f32 (IntOp.cmpi .eq
        (broadcastInDim ⟨2, ![N, 4]⟩ ![0, 1] h2 (broadcastInDim ⟨2, ![N, 1]⟩ ![0] h1 BT)
          (ix2 (⟨o + (y 0).val, hi⟩ : Fin N) (⟨t, ht⟩ : Fin 4)))
        (broadcastInDim ⟨2, ![N, 4]⟩ ![0, 1] h3 (iotaInDim ⟨2, ![1, 4]⟩ 32 1)
          (ix2 (⟨o + (y 0).val, hi⟩ : Fin N) (⟨t, ht⟩ : Fin 4))))
  rw [eL, eP, eQ, hw]

/-! ## The logistic function -/

/-- The bit pattern of 1.0 denotes the real number 1. -/
theorem ofBits_one_f32 : Ideal.ofBits .f32 0x3F800000#32 = 1 := by
  simp [Ideal.ofBits, Ideal.ieee, -EReal.coe_mul]; norm_num

/-- The logistic function of a block is the block of the quotient 1 / (1 + exp (−z)). -/
theorem logistic_rowBlk (o : Nat) (h : o + R ≤ N) (Z : FVec Ideal ⟨2, ![N, C]⟩ .f32)
    (h1 : (⟨0, ![]⟩ : Shape).BroadcastsInDim ⟨2, ![N, C]⟩ ![]) :
    logistic (rowBlk o h Z)
      = rowBlk o h (Host.divf (broadcastInDim ⟨2, ![N, C]⟩ ![] h1 (constant (F := Ideal) ⟨0, ![]⟩ .f32 0x3F800000#32))
          (addf (broadcastInDim ⟨2, ![N, C]⟩ ![] h1 (constant (F := Ideal) ⟨0, ![]⟩ .f32 0x3F800000#32)) (Host.exp (Host.negf Z)))) := by
  funext y
  rw [rowBlk_apply]
  have hsplat : ∀ i, broadcastInDim ⟨2, ![N, C]⟩ ![] h1 (constant (F := Ideal) ⟨0, ![]⟩ .f32 0x3F800000#32) i = 1 :=
    fun i => (hostSplat_apply _ h1 i).trans ofBits_one_f32
  show Ideal.logistic (Z (shiftRow o h y))
    = Ideal.div (broadcastInDim ⟨2, ![N, C]⟩ ![] h1 (constant (F := Ideal) ⟨0, ![]⟩ .f32 0x3F800000#32) (shiftRow o h y))
        (broadcastInDim ⟨2, ![N, C]⟩ ![] h1 (constant (F := Ideal) ⟨0, ![]⟩ .f32 0x3F800000#32) (shiftRow o h y)
          + Ideal.exp (-(Z (shiftRow o h y))))
  rw [hsplat]
  rfl

end Cert.Blocks

end
-- ==== Proof.RegionCommon.lean ====
/-
  Facts shared by the three row-blocked regions of the two-layer graph convolution.

  Every region walks an [N, C] array in blocks of R consecutive rows.  Besides the block lemmas for products,
  stretched columns, constants and pointwise operations, the regions need the stretch of a ONE-ROW matrix [1, C]
  down the rows: stretched down the R rows of a block it is the row block of the row stretched down all N rows,
  because every row of either stretch is the one row itself.
-/
import Idealize.ShloMosaic.Lib.Pipeline.Value
import proofs.«127821_j22179211117042_2_alg».proof.Proof.LibBlockOfWhole

noncomputable section

namespace Cert.KernelIdeal.RegionValue

open Idealize.ShloMosaic Cert.Blocks Cert.Bridge

/-- The pair of zero offsets, as the constant function. -/
theorem zero_offsets : (![0, 0] : Fin 2 → Nat) = fun _ => 0 := funext fun a => by fin_cases a <;> rfl

variable {R N C : Nat}

/-- A one-row matrix stretched down the R rows of a block is the row block of the row stretched down N rows. -/
theorem rowStretch_rowBlk {φ : FTy} (o : Nat) (h : o + R ≤ N) (v : FVec Ideal ⟨2, ![1, C]⟩ φ)
    (hb : (⟨2, ![1, C]⟩ : Shape).Broadcasts ⟨2, ![R, C]⟩)
    (hB : (⟨2, ![1, C]⟩ : Shape).BroadcastsInDim ⟨2, ![N, C]⟩ ![0, 1]) :
    broadcastTo ⟨2, ![R, C]⟩ v hb = rowBlk o h (broadcastInDim ⟨2, ![N, C]⟩ ![0, 1] hB v) := by
  funext y
  rw [rowBlk_apply, stretchRow_apply, hostStretchRow_apply, shiftRow_rowZero o h y]

/-- Row i of an array cut into blocks of R rows lies in block i / R: the block starts at or before it and ends after it. -/
theorem row_in_block (R i : Nat) (hR : 0 < R) : i / R * R ≤ i ∧ i < i / R * R + R := by
  constructor
  · exact Nat.div_mul_le_self i R
  · have := Nat.lt_div_mul_add (a := i) hR
    omega

end Cert.KernelIdeal.RegionValue

end
-- ==== Proof.Region0.lean ====
/-
  The first region of the two-layer graph convolution, as ONE whole-array expression.

  The region walks the 200000 rows in 50 blocks of 4000.  At block t it multiplies rows 4000 t … 4000 t + 3999 of
  the features x [200000, 6] by the weights W [6, 16] and scales row i of the product by the i-th entry of the
  column d [200000, 1].  Each of these acts on every row by itself, so block t of the result is block t of
  (x · W) ⊙ d, with d stretched across the 16 columns; the 50 blocks tile the rows, so the result array is that
  expression.
-/
import proofs.«127821_j22179211117042_2_alg».proof.Proof.Gen.KernelIdeal.Frame
import proofs.«127821_j22179211117042_2_alg».proof.Proof.RegionCommon

noncomputable section

namespace Cert.KernelIdeal.RegionValue

open Cert.KernelIdeal Idealize.ShloMosaic Idealize.ShloMosaic.TcCoe Idealize.SL.Sem Cert.Blocks
open Idealize.ShloMosaic.Pipeline (Dat)

variable (V : (c : Dev nD) → (b : Ref sig .tc) → Buf (Elt Ideal) ((c : Thread nD τ).loc b))

/-- The grid of the first region has 50 points. -/
theorem point_lt0 (t : Fin cfg0.N) : t.val < 50 := lt_of_lt_of_eq t.isLt Gen.N_0

/-- Block t ends inside the array. -/
theorem block_inb0 (t : Fin cfg0.N) : 4000 * t.val + 4000 ≤ 200000 := by
  have := point_lt0 t; omega

/-- The index maps over the grid: the row-blocked windows sit at block (t, 0), the weights at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The blocks the region reads -/

/-- Block t of the features is their row block from row 4000 t. -/
theorem feat_block0 (c : Dev nD) (t : Fin cfg0.N) :
    (Gen.iblk0 V c 0 t : Vec Ideal S4000x6 .f32) = rowBlk (4000 * t.val) (block_inb0 t) (V c main_arg0 : FVec Ideal S200000x6 .f32) := by
  funext y
  show V c main_arg0 (((cfg0.win 0).blk t).view.emb y) = V c main_arg0 (shiftRow (4000 * t.val) (block_inb0 t) y)
  refine congrArg _ ?_
  obtain ⟨e0, e1, -⟩ := idx_facts0 t
  funext a; apply Fin.ext
  match a with
  | ⟨0, _⟩ => show win0_0.index t (0 : Fin 2) * 4000 + 1 * (y 0).val = 4000 * t.val + (y 0).val; rw [e0]; omega
  | ⟨1, _⟩ => show win0_0.index t (1 : Fin 2) * 6 + 1 * (y 1).val = (y 1).val; rw [e1]; omega

/-- The weights are read whole at every point. -/
theorem weight_block0 (c : Dev nD) (t : Fin cfg0.N) :
    (Gen.iblk0 V c 1 t : Vec Ideal S6x16 .f32) = (V c main_arg2 : FVec Ideal S6x16 .f32) := by
  funext y
  show V c main_arg2 (((cfg0.win 1).blk t).view.emb y) = V c main_arg2 y
  refine congrArg _ ?_
  obtain ⟨-, -, e0, e1, -⟩ := idx_facts0 t
  funext a; apply Fin.ext
  match a with
  | ⟨0, _⟩ => show win0_1.index t (0 : Fin 2) * 6 + 1 * (y 0).val = (y 0).val; rw [e0]; omega
  | ⟨1, _⟩ => show win0_1.index t (1 : Fin 2) * 16 + 1 * (y 1).val = (y 1).val; rw [e1]; omega

/-- Block t of the scaling column is its row block from row 4000 t. -/
theorem col_block0 (c : Dev nD) (t : Fin cfg0.N) :
    (Gen.iblk0 V c 2 t : Vec Ideal S4000x1 .f32) = rowBlk (C := 1) (4000 * t.val) (block_inb0 t) (V c main_v11 : FVec Ideal S200000x1 .f32) := by
  funext y
  show V c main_v11 (((cfg0.win 2).blk t).view.emb y) = V c main_v11 (shiftRow (4000 * t.val) (block_inb0 t) y)
  refine congrArg _ ?_
  obtain ⟨-, -, -, -, e0, e1, -⟩ := idx_facts0 t
  funext a; apply Fin.ext
  match a with
  | ⟨0, _⟩ => show win0_2.index t (0 : Fin 2) * 4000 + 1 * (y 0).val = 4000 * t.val + (y 0).val; rw [e0]; omega
  | ⟨1, _⟩ => show win0_2.index t (1 : Fin 2) * 1 + 1 * (y 1).val = (y 1).val; rw [e1]; omega

/-- Block t of any [200000, 16] array, read through the result window, is its row block from row 4000 t. -/
theorem out_block0 (G : FVec Ideal S200000x16 .f32) (t : Fin cfg0.N) :
    (((cfg0.win 3).blk t).view.read (Elt Ideal) G : Vec Ideal S4000x16 .f32) = rowBlk (4000 * t.val) (block_inb0 t) G := by
  funext y
  show G (((cfg0.win 3).blk t).view.emb y) = G (shiftRow (4000 * t.val) (block_inb0 t) y)
  refine congrArg _ ?_
  obtain ⟨-, -, -, -, -, -, e0, e1⟩ := idx_facts0 t
  funext a; apply Fin.ext
  match a with
  | ⟨0, _⟩ => show win0_3.index t (0 : Fin 2) * 4000 + 1 * (y 0).val = 4000 * t.val + (y 0).val; rw [e0]; omega
  | ⟨1, _⟩ => show win0_3.index t (1 : Fin 2) * 16 + 1 * (y 1).val = (y 1).val; rw [e1]; omega

/-! ## The body on row blocks -/

/-- A column [200000, 1] stretches across 16 columns. -/
theorem stretch_col16 : S200000x1.BroadcastsInDim S200000x16 ![0, 1] := by decide

/-- The body's value on row blocks is the row block of (X · W) ⊙ D. -/
theorem pay0_rowBlk (o : Nat) (h : o + 4000 ≤ 200000) (X : FVec Ideal S200000x6 .f32) (W : FVec Ideal S6x16 .f32)
    (D : FVec Ideal S200000x1 .f32) :
    Gen.k0_pay1 (F := Ideal) (rowBlk o h X) W (rowBlk (C := 1) o h D)
      = rowBlk o h (mulf (Host.dotGeneral (DotDims.plain 200000 6 16) none X W)
          (broadcastInDim S200000x16 ![0, 1] stretch_col16 D)) := by
  unfold Gen.k0_pay1
  dsimp only
  rw [shapeCast_self, truncf_ideal, truncf_ideal,
    matmul_rowBlk o h dot_S4000x6_S6x16_S4000x16_1_0_0_1_n_n rfl (DotDims.plain 200000 6 16) rfl,
    colStretch_rowBlk o h D _ stretch_col16, mulf_rowBlk]
  rfl

/-! ## What each point writes back, the cover, and the result array -/

/-- (x · W) ⊙ d of the arrays the region finds. -/
abbrev whole0 (c : Dev nD) : FVec Ideal S200000x16 .f32 :=
  mulf (Host.dotGeneral (φ₁ := .f32) (φ₂ := .f32) (DotDims.plain 200000 6 16) none (V c main_arg0) (V c main_arg2))
    (broadcastInDim (α := Ideal .f32) S200000x16 ![0, 1] stretch_col16 (V c main_v11))

/-- Point t writes back block t of (x · W) ⊙ d of the arrays the region finds. -/
theorem flushed0_eq (c : Dev nD) (t : Fin cfg0.N) :
    (Gen.dat0 V c).flushed 3 t = ((cfg0.win 3).blk t).view.read (Elt Ideal) (whole0 V c) := by
  show (cfg0.win 3).cut (grid0.coords t) ((Gen.dat0 V c).after 3 t) = _
  rw [Gen.after0_3]
  unfold Gen.out0_3
  rw [View.canon_unit_zero zero_offsets]
  simp only [View.ld_unit_zero (S := S4000x6) zero_offsets, View.ld_unit_zero (S := S6x16) zero_offsets,
    View.ld_unit_zero (S := S4000x1) zero_offsets]
  rw [feat_block0, weight_block0, col_block0, pay0_rowBlk, out_block0]
  rfl

/-- An index of the result array is in point t's block iff each coordinate is in the block's range on its axis. -/
theorem mem_blk0 (t : Fin cfg0.N) (i : S200000x16.Idx) :
    i ∈ ((cfg0.win 3).blk t).view.set ↔ ∀ a : Fin 2, win0_3.index t a * S4000x16.size a ≤ (i a).val
      ∧ (i a).val < win0_3.index t a * S4000x16.size a + S4000x16.size a := by
  show i ∈ ((View.whole main_v12).slice (win0_3.rect t)).set ↔ _
  rw [View.set_slice_whole, Rect.mem_set_unit]
  exact Iff.rfl

/-- Row i of the result lies in the block of point i / 4000. -/
theorem cover0 (i : S200000x16.Idx) :
    ∃ t : Fin cfg0.N, (cfg0.win 3).flush t = true ∧ i ∈ ((cfg0.win 3).blk t).view.set := by
  have hi0 : (i 0).val < 200000 := (i 0).isLt
  have hi1 : (i 1).val < 16 := (i 1).isLt
  have hlt : (i 0).val / 4000 < cfg0.N := by rw [show cfg0.N = 50 from Gen.N_0]; omega
  refine ⟨⟨(i 0).val / 4000, hlt⟩, Gen.flush0_3 _, ?_⟩
  rw [mem_blk0]
  obtain ⟨-, -, -, -, -, -, e0, e1⟩ := idx_facts0 ⟨(i 0).val / 4000, hlt⟩
  obtain ⟨b0, b1⟩ := row_in_block 4000 (i 0).val (by decide)
  intro a
  match a with
  | ⟨0, _⟩ =>
    show win0_3.index ⟨(i 0).val / 4000, hlt⟩ (0 : Fin 2) * 4000 ≤ (i 0).val
      ∧ (i 0).val < win0_3.index ⟨(i 0).val / 4000, hlt⟩ (0 : Fin 2) * 4000 + 4000
    rw [e0]; exact ⟨b0, b1⟩
  | ⟨1, _⟩ =>
    show win0_3.index ⟨(i 0).val / 4000, hlt⟩ (1 : Fin 2) * 16 ≤ (i 1).val
      ∧ (i 1).val < win0_3.index ⟨(i 0).val / 4000, hlt⟩ (1 : Fin 2) * 16 + 16
    rw [e1]; omega

/-- THE FIRST REGION'S RESULT: the array it leaves is (x · W) ⊙ d of the arrays it finds, whatever they hold. -/
theorem region0_value (c : Dev nD) :
    (Gen.dat0 V c).arrAt 3 cfg0.N
      = (mulf (Host.dotGeneral (φ₁ := .f32) (φ₂ := .f32) (DotDims.plain 200000 6 16) none (V c main_arg0) (V c main_arg2))
          (broadcastInDim (α := Ideal .f32) S200000x16 ![0, 1] stretch_col16 (V c main_v11)) : FVec Ideal S200000x16 .f32) :=
  (Gen.dat0 V c).arrAt_eq_of_cover 3 (whole0 V c) (fun t _ => flushed0_eq V c t) cover0

end Cert.KernelIdeal.RegionValue

end
-- ==== Proof.Region1.lean ====
/-
  The second region of the two-layer graph convolution, as ONE whole-array expression.

  The region walks the 200000 rows in 50 blocks of 4000.  At block t it adds the aggregated neighbours' rows a and
  the rows h of the first layer, scales row i of the sum by the i-th entry of the column d, adds the bias row b to
  every row, takes the maximum with 0, multiplies by the weights W [16, 8] and scales row i again by d.  Each step
  acts on every row by itself, so block t of the result is block t of
  (max (d ⊙ (a + h) + b, 0) · W) ⊙ d, with d stretched across the columns and b down the rows; the 50 blocks tile
  the rows, so the result array is that expression.
-/
import proofs.«127821_j22179211117042_2_alg».proof.Proof.Gen.KernelIdeal.Frame
import proofs.«127821_j22179211117042_2_alg».proof.Proof.RegionCommon
import proofs.«127821_j22179211117042_2_alg».proof.Proof.Region0

noncomputable section

namespace Cert.KernelIdeal.RegionValue

open Cert.KernelIdeal Idealize.ShloMosaic Idealize.ShloMosaic.TcCoe Idealize.SL.Sem Cert.Blocks
open Idealize.ShloMosaic.Pipeline (Dat)

variable (V : (c : Dev nD) → (b : Ref sig .tc) → Buf (Elt Ideal) ((c : Thread nD τ).loc b))

/-- The grid of the region has 50 points. -/
theorem point_lt1 (t : Fin cfg1.N) : t.val < 50 := lt_of_lt_of_eq t.isLt Gen.N_1

/-- Block t ends inside the array. -/
theorem block_inb1 (t : Fin cfg1.N) : 4000 * t.val + 4000 ≤ 200000 := by
  have := point_lt1 t; omega

/-- The index maps over the grid: the row-blocked windows sit at block (t, 0), the bias row and the weights at
    block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The blocks the region reads -/

/-- Block t of the aggregated rows is their row block from row 4000 t. -/
theorem agg_block1 (c : Dev nD) (t : Fin cfg1.N) :
    (Gen.iblk1 V c 0 t : Vec Ideal S4000x16 .f32) = rowBlk (4000 * t.val) (block_inb1 t) (V c main_v22 : FVec Ideal S200000x16 .f32) := by
  funext y
  show V c main_v22 (((cfg1.win 0).blk t).view.emb y) = V c main_v22 (shiftRow (4000 * t.val) (block_inb1 t) y)
  refine congrArg _ ?_
  obtain ⟨e0, e1, -⟩ := idx_facts1 t
  funext a; apply Fin.ext
  match a with
  | ⟨0, _⟩ => show win1_0.index t (0 : Fin 2) * 4000 + 1 * (y 0).val = 4000 * t.val + (y 0).val; rw [e0]; omega
  | ⟨1, _⟩ => show win1_0.index t (1 : Fin 2) * 16 + 1 * (y 1).val = (y 1).val; rw [e1]; omega

/-- Block t of the first layer's rows is their row block from row 4000 t. -/
theorem hid_block1 (c : Dev nD) (t : Fin cfg1.N) :
    (Gen.iblk1 V c 1 t : Vec Ideal S4000x16 .f32) = rowBlk (4000 * t.val) (block_inb1 t) (V c main_v12 : FVec Ideal S200000x16 .f32) := by
  funext y
  show V c main_v12 (((cfg1.win 1).blk t).view.emb y) = V c main_v12 (shiftRow (4000 * t.val) (block_inb1 t) y)
  refine congrArg _ ?_
  obtain ⟨-, -, e0, e1, -⟩ := idx_facts1 t
  funext a; apply Fin.ext
  match a with
  | ⟨0, _⟩ => show win1_1.index t (0 : Fin 2) * 4000 + 1 * (y 0).val = 4000 * t.val + (y 0).val; rw [e0]; omega
  | ⟨1, _⟩ => show win1_1.index t (1 : Fin 2) * 16 + 1 * (y 1).val = (y 1).val; rw [e1]; omega

/-- Block t of the scaling column is its row block from row 4000 t. -/
theorem col_block1 (c : Dev nD) (t : Fin cfg1.N) :
    (Gen.iblk1 V c 2 t : Vec Ideal S4000x1 .f32) = rowBlk (C := 1) (4000 * t.val) (block_inb1 t) (V c main_v11 : FVec Ideal S200000x1 .f32) := by
  funext y
  show V c main_v11 (((cfg1.win 2).blk t).view.emb y) = V c main_v11 (shiftRow (4000 * t.val) (block_inb1 t) y)
  refine congrArg _ ?_
  obtain ⟨-, -, -, -, e0, e1, -⟩ := idx_facts1 t
  funext a; apply Fin.ext
  match a with
  | ⟨0, _⟩ => show win1_2.index t (0 : Fin 2) * 4000 + 1 * (y 0).val = 4000 * t.val + (y 0).val; rw [e0]; omega
  | ⟨1, _⟩ => show win1_2.index t (1 : Fin 2) * 1 + 1 * (y 1).val = (y 1).val; rw [e1]; omega

/-- The bias row is read whole at every point. -/
theorem bias_block1 (c : Dev nD) (t : Fin cfg1.N) :
    (Gen.iblk1 V c 3 t : Vec Ideal S1x16 .f32) = (V c main_v23 : FVec Ideal S1x16 .f32) := by
  funext y
  show V c main_v23 (((cfg1.win 3).blk t).view.emb y) = V c main_v23 y
  refine congrArg _ ?_
  obtain ⟨-, -, -, -, -, -, e0, e1, -⟩ := idx_facts1 t
  funext a; apply Fin.ext
  match a with
  | ⟨0, _⟩ => show win1_3.index t (0 : Fin 2) * 1 + 1 * (y 0).val = (y 0).val; rw [e0]; omega
  | ⟨1, _⟩ => show win1_3.index t (1 : Fin 2) * 16 + 1 * (y 1).val = (y 1).val; rw [e1]; omega

/-- The weights are read whole at every point. -/
theorem weight_block1 (c : Dev nD) (t : Fin cfg1.N) :
    (Gen.iblk1 V c 4 t : Vec Ideal S16x8 .f32) = (V c main_arg4 : FVec Ideal S16x8 .f32) := by
  funext y
  show V c main_arg4 (((cfg1.win 4).blk t).view.emb y) = V c main_arg4 y
  refine congrArg _ ?_
  obtain ⟨-, -, -, -, -, -, -, -, e0, e1, -⟩ := idx_facts1 t
  funext a; apply Fin.ext
  match a with
  | ⟨0, _⟩ => show win1_4.index t (0 : Fin 2) * 16 + 1 * (y 0).val = (y 0).val; rw [e0]; omega
  | ⟨1, _⟩ => show win1_4.index t (1 : Fin 2) * 8 + 1 * (y 1).val = (y 1).val; rw [e1]; omega

/-- Block t of any [200000, 8] array, read through the result window, is its row block from row 4000 t. -/
theorem out_block1 (G : FVec Ideal S200000x8 .f32) (t : Fin cfg1.N) :
    (((cfg1.win 5).blk t).view.read (Elt Ideal) G : Vec Ideal S4000x8 .f32) = rowBlk (4000 * t.val) (block_inb1 t) G := by
  funext y
  show G (((cfg1.win 5).blk t).view.emb y) = G (shiftRow (4000 * t.val) (block_inb1 t) y)
  refine congrArg _ ?_
  obtain ⟨-, -, -, -, -, -, -, -, -, -, e0, e1⟩ := idx_facts1 t
  funext a; apply Fin.ext
  match a with
  | ⟨0, _⟩ => show win1_5.index t (0 : Fin 2) * 4000 + 1 * (y 0).val = 4000 * t.val + (y 0).val; rw [e0]; omega
  | ⟨1, _⟩ => show win1_5.index t (1 : Fin 2) * 8 + 1 * (y 1).val = (y 1).val; rw [e1]; omega

/-! ## The body on row blocks -/

/-- A row [1, 16] stretches down 200000 rows. -/
theorem stretch_row16 : S1x16.BroadcastsInDim S200000x16 ![0, 1] := by decide

/-- A scalar fills a [200000, 16] array. -/
theorem splat16 : S_.BroadcastsInDim S200000x16 ![] := by decide

/-- A column [200000, 1] stretches across 8 columns. -/
theorem stretch_col8 : S200000x1.BroadcastsInDim S200000x8 ![0, 1] := by decide

/-- The body's value on row blocks is the row block of (max (D ⊙ (A + H) + B, 0) · W) ⊙ D. -/
theorem pay1_rowBlk (o : Nat) (h : o + 4000 ≤ 200000) (A H : FVec Ideal S200000x16 .f32) (D : FVec Ideal S200000x1 .f32)
    (B : FVec Ideal S1x16 .f32) (W : FVec Ideal S16x8 .f32) :
    Gen.k1_pay1 (F := Ideal) (rowBlk (C := 1) o h D) (rowBlk o h A) (rowBlk o h H) B W (rowBlk (C := 1) o h D)
      = rowBlk o h (mulf (Host.dotGeneral (DotDims.plain 200000 16 8) none
          (maximumf (addf (mulf (broadcastInDim S200000x16 ![0, 1] stretch_col16 D) (addf A H))
              (broadcastInDim S200000x16 ![0, 1] stretch_row16 B))
            (broadcastInDim S200000x16 ![] splat16 (constant (F := Ideal) S_ .f32 0x00000000#32))) W)
          (broadcastInDim S200000x8 ![0, 1] stretch_col8 D)) := by
  unfold Gen.k1_pay1
  dsimp only
  simp only [shapeCast_self]
  rw [truncf_ideal, truncf_ideal, addf_rowBlk,
    colStretch_rowBlk o h D _ stretch_col16, mulf_rowBlk,
    rowStretch_rowBlk o h B _ stretch_row16, addf_rowBlk,
    splat_rowBlk o h _ splat16, maximumf_rowBlk,
    matmul_rowBlk o h dot_S4000x16_S16x8_S4000x8_1_0_0_1_n_n rfl (DotDims.plain 200000 16 8) rfl,
    colStretch_rowBlk o h D _ stretch_col8, mulf_rowBlk]
  rfl

/-! ## What each point writes back, the cover, and the result array -/

/-- (max (d ⊙ (a + h) + b, 0) · W) ⊙ d of the arrays the region finds. -/
abbrev whole1 (c : Dev nD) : FVec Ideal S200000x8 .f32 :=
  mulf (Host.dotGeneral (φ₁ := .f32) (φ₂ := .f32) (DotDims.plain 200000 16 8) none
      (maximumf (addf (mulf (broadcastInDim (α := Ideal .f32) S200000x16 ![0, 1] stretch_col16 (V c main_v11))
            (addf (V c main_v22 : FVec Ideal S200000x16 .f32) (V c main_v12)))
          (broadcastInDim (α := Ideal .f32) S200000x16 ![0, 1] stretch_row16 (V c main_v23)))
        (broadcastInDim S200000x16 ![] splat16 (constant (F := Ideal) S_ .f32 0x00000000#32)))
      (V c main_arg4))
    (broadcastInDim (α := Ideal .f32) S200000x8 ![0, 1] stretch_col8 (V c main_v11))

/-- Point t writes back block t of that expression. -/
theorem flushed1_eq (c : Dev nD) (t : Fin cfg1.N) :
    (Gen.dat1 V c).flushed 5 t = ((cfg1.win 5).blk t).view.read (Elt Ideal) (whole1 V c) := by
  show (cfg1.win 5).cut (grid1.coords t) ((Gen.dat1 V c).after 5 t) = _
  rw [Gen.after1_5]
  unfold Gen.out1_5
  rw [View.canon_unit_zero zero_offsets]
  simp only [View.ld_unit_zero (S := S4000x16) zero_offsets, View.ld_unit_zero (S := S4000x1) zero_offsets,
    View.ld_unit_zero (S := S1x16) zero_offsets, View.ld_unit_zero (S := S16x8) zero_offsets]
  rw [agg_block1, hid_block1, col_block1, bias_block1, weight_block1, pay1_rowBlk, out_block1]
  rfl

/-- An index of the result array is in point t's block iff each coordinate is in the block's range on its axis. -/
theorem mem_blk1 (t : Fin cfg1.N) (i : S200000x8.Idx) :
    i ∈ ((cfg1.win 5).blk t).view.set ↔ ∀ a : Fin 2, win1_5.index t a * S4000x8.size a ≤ (i a).val
      ∧ (i a).val < win1_5.index t a * S4000x8.size a + S4000x8.size a := by
  show i ∈ ((View.whole main_v24).slice (win1_5.rect t)).set ↔ _
  rw [View.set_slice_whole, Rect.mem_set_unit]
  exact Iff.rfl

/-- Row i of the result lies in the block of point i / 4000. -/
theorem cover1 (i : S200000x8.Idx) :
    ∃ t : Fin cfg1.N, (cfg1.win 5).flush t = true ∧ i ∈ ((cfg1.win 5).blk t).view.set := by
  have hi0 : (i 0).val < 200000 := (i 0).isLt
  have hi1 : (i 1).val < 8 := (i 1).isLt
  have hlt : (i 0).val / 4000 < cfg1.N := by rw [show cfg1.N = 50 from Gen.N_1]; omega
  refine ⟨⟨(i 0).val / 4000, hlt⟩, Gen.flush1_5 _, ?_⟩
  rw [mem_blk1]
  obtain ⟨-, -, -, -, -, -, -, -, -, -, e0, e1⟩ := idx_facts1 ⟨(i 0).val / 4000, hlt⟩
  obtain ⟨b0, b1⟩ := row_in_block 4000 (i 0).val (by decide)
  intro a
  match a with
  | ⟨0, _⟩ =>
    show win1_5.index ⟨(i 0).val / 4000, hlt⟩ (0 : Fin 2) * 4000 ≤ (i 0).val
      ∧ (i 0).val < win1_5.index ⟨(i 0).val / 4000, hlt⟩ (0 : Fin 2) * 4000 + 4000
    rw [e0]; exact ⟨b0, b1⟩
  | ⟨1, _⟩ =>
    show win1_5.index ⟨(i 0).val / 4000, hlt⟩ (1 : Fin 2) * 8 ≤ (i 1).val
      ∧ (i 1).val < win1_5.index ⟨(i 0).val / 4000, hlt⟩ (1 : Fin 2) * 8 + 8
    rw [e1]; omega

/-- THE SECOND REGION'S RESULT: the array it leaves is (max (d ⊙ (a + h) + b, 0) · W) ⊙ d of the arrays it finds,
    whatever they hold. -/
theorem region1_value (c : Dev nD) :
    (Gen.dat1 V c).arrAt 5 cfg1.N
      = (mulf (Host.dotGeneral (φ₁ := .f32) (φ₂ := .f32) (DotDims.plain 200000 16 8) none
            (maximumf (addf (mulf (broadcastInDim (α := Ideal .f32) S200000x16 ![0, 1] stretch_col16 (V c main_v11))
                  (addf (V c main_v22 : FVec Ideal S200000x16 .f32) (V c main_v12)))
                (broadcastInDim (α := Ideal .f32) S200000x16 ![0, 1] stretch_row16 (V c main_v23)))
              (broadcastInDim S200000x16 ![] splat16 (constant (F := Ideal) S_ .f32 0x00000000#32)))
            (V c main_arg4))
          (broadcastInDim (α := Ideal .f32) S200000x8 ![0, 1] stretch_col8 (V c main_v11)) : FVec Ideal S200000x8 .f32) :=
  (Gen.dat1 V c).arrAt_eq_of_cover 5 (whole1 V c) (fun t _ => flushed1_eq V c t) cover1

end Cert.KernelIdeal.RegionValue

end
-- ==== Proof.Region2.lean ====
/-
  The third region of the two-layer graph convolution, as ONE whole-array expression.

  The region walks the 200000 rows in 50 blocks of 4000.  At block t it adds the aggregated neighbours' rows a and
  the rows h of the second layer, scales row i of the sum by the i-th entry of the column d, adds the bias row b to
  every row, takes the maximum with 0, multiplies by the weights w [8, 1], adds the one-entry bias b' to every row
  and applies the logistic function 1 / (1 + exp (−z)).  Each step acts on every row by itself, so block t of the
  result is block t of the whole-array expression; the 50 blocks tile the rows, so the result array is that
  expression.
-/
import proofs.«127821_j22179211117042_2_alg».proof.Proof.Gen.KernelIdeal.Frame
import proofs.«127821_j22179211117042_2_alg».proof.Proof.RegionCommon
import proofs.«127821_j22179211117042_2_alg».proof.Proof.Region1

noncomputable section

namespace Cert.KernelIdeal.RegionValue

open Cert.KernelIdeal Idealize.ShloMosaic Idealize.ShloMosaic.TcCoe Idealize.SL.Sem Cert.Blocks
open Idealize.ShloMosaic.Pipeline (Dat)

variable (V : (c : Dev nD) → (b : Ref sig .tc) → Buf (Elt Ideal) ((c : Thread nD τ).loc b))

/-- The grid of the region has 50 points. -/
theorem point_lt2 (t : Fin cfg2.N) : t.val < 50 := lt_of_lt_of_eq t.isLt Gen.N_2

/-- Block t ends inside the array. -/
theorem block_inb2 (t : Fin cfg2.N) : 4000 * t.val + 4000 ≤ 200000 := by
  have := point_lt2 t; omega

/-- The index maps over the grid: the row-blocked windows sit at block (t, 0), the bias row, the weights and the
    one-entry bias at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! ## The blocks the region reads -/

/-- Block t of the aggregated rows is their row block from row 4000 t. -/
theorem agg_block2 (c : Dev nD) (t : Fin cfg2.N) :
    (Gen.iblk2 V c 0 t : Vec Ideal S4000x8 .f32) = rowBlk (4000 * t.val) (block_inb2 t) (V c main_v34 : FVec Ideal S200000x8 .f32) := by
  funext y
  show V c main_v34 (((cfg2.win 0).blk t).view.emb y) = V c main_v34 (shiftRow (4000 * t.val) (block_inb2 t) y)
  refine congrArg _ ?_
  obtain ⟨e0, e1, -⟩ := idx_facts2 t
  funext a; apply Fin.ext
  match a with
  | ⟨0, _⟩ => show win2_0.index t (0 : Fin 2) * 4000 + 1 * (y 0).val = 4000 * t.val + (y 0).val; rw [e0]; omega
  | ⟨1, _⟩ => show win2_0.index t (1 : Fin 2) * 8 + 1 * (y 1).val = (y 1).val; rw [e1]; omega

/-- Block t of the second layer's rows is their row block from row 4000 t. -/
theorem hid_block2 (c : Dev nD) (t : Fin cfg2.N) :
    (Gen.iblk2 V c 1 t : Vec Ideal S4000x8 .f32) = rowBlk (4000 * t.val) (block_inb2 t) (V c main_v24 : FVec Ideal S200000x8 .f32) := by
  funext y
  show V c main_v24 (((cfg2.win 1).blk t).view.emb y) = V c main_v24 (shiftRow (4000 * t.val) (block_inb2 t) y)
  refine congrArg _ ?_
  obtain ⟨-, -, e0, e1, -⟩ := idx_facts2 t
  funext a; apply Fin.ext
  match a with
  | ⟨0, _⟩ => show win2_1.index t (0 : Fin 2) * 4000 + 1 * (y 0).val = 4000 * t.val + (y 0).val; rw [e0]; omega
  | ⟨1, _⟩ => show win2_1.index t (1 : Fin 2) * 8 + 1 * (y 1).val = (y 1).val; rw [e1]; omega

/-- Block t of the scaling column is its row block from row 4000 t. -/
theorem col_block2 (c : Dev nD) (t : Fin cfg2.N) :
    (Gen.iblk2 V c 2 t : Vec Ideal S4000x1 .f32) = rowBlk (C := 1) (4000 * t.val) (block_inb2 t) (V c main_v11 : FVec Ideal S200000x1 .f32) := by
  funext y
  show V c main_v11 (((cfg2.win 2).blk t).view.emb y) = V c main_v11 (shiftRow (4000 * t.val) (block_inb2 t) y)
  refine congrArg _ ?_
  obtain ⟨-, -, -, -, e0, e1, -⟩ := idx_facts2 t
  funext a; apply Fin.ext
  match a with
  | ⟨0, _⟩ => show win2_2.index t (0 : Fin 2) * 4000 + 1 * (y 0).val = 4000 * t.val + (y 0).val; rw [e0]; omega
  | ⟨1, _⟩ => show win2_2.index t (1 : Fin 2) * 1 + 1 * (y 1).val = (y 1).val; rw [e1]; omega

/-- The bias row is read whole at every point. -/
theorem bias_block2 (c : Dev nD) (t : Fin cfg2.N) :
    (Gen.iblk2 V c 3 t : Vec Ideal S1x8 .f32) = (V c main_v35 : FVec Ideal S1x8 .f32) := by
  funext y
  show V c main_v35 (((cfg2.win 3).blk t).view.emb y) = V c main_v35 y
  refine congrArg _ ?_
  obtain ⟨-, -, -, -, -, -, e0, e1, -⟩ := idx_facts2 t
  funext a; apply Fin.ext
  match a with
  | ⟨0, _⟩ => show win2_3.index t (0 : Fin 2) * 1 + 1 * (y 0).val = (y 0).val; rw [e0]; omega
  | ⟨1, _⟩ => show win2_3.index t (1 : Fin 2) * 8 + 1 * (y 1).val = (y 1).val; rw [e1]; omega

/-- The weights are read whole at every point. -/
theorem weight_block2 (c : Dev nD) (t : Fin cfg2.N) :
    (Gen.iblk2 V c 4 t : Vec Ideal S8x1 .f32) = (V c main_arg6 : FVec Ideal S8x1 .f32) := by
  funext y
  show V c main_arg6 (((cfg2.win 4).blk t).view.emb y) = V c main_arg6 y
  refine congrArg _ ?_
  obtain ⟨-, -, -, -, -, -, -, -, e0, e1, -⟩ := idx_facts2 t
  funext a; apply Fin.ext
  match a with
  | ⟨0, _⟩ => show win2_4.index t (0 : Fin 2) * 8 + 1 * (y 0).val = (y 0).val; rw [e0]; omega
  | ⟨1, _⟩ => show win2_4.index t (1 : Fin 2) * 1 + 1 * (y 1).val = (y 1).val; rw [e1]; omega

/-- The one-entry bias is read whole at every point. -/
theorem bias1_block2 (c : Dev nD) (t : Fin cfg2.N) :
    (Gen.iblk2 V c 5 t : Vec Ideal S1x1 .f32) = (V c main_v36 : FVec Ideal S1x1 .f32) := by
  funext y
  show V c main_v36 (((cfg2.win 5).blk t).view.emb y) = V c main_v36 y
  refine congrArg _ ?_
  obtain ⟨-, -, -, -, -, -, -, -, -, -, e0, e1, -⟩ := idx_facts2 t
  funext a; apply Fin.ext
  match a with
  | ⟨0, _⟩ => show win2_5.index t (0 : Fin 2) * 1 + 1 * (y 0).val = (y 0).val; rw [e0]; omega
  | ⟨1, _⟩ => show win2_5.index t (1 : Fin 2) * 1 + 1 * (y 1).val = (y 1).val; rw [e1]; omega

/-- Block t of any [200000, 1] array, read through the result window, is its row block from row 4000 t. -/
theorem out_block2 (G : FVec Ideal S200000x1 .f32) (t : Fin cfg2.N) :
    (((cfg2.win 6).blk t).view.read (Elt Ideal) G : Vec Ideal S4000x1 .f32) = rowBlk (C := 1) (4000 * t.val) (block_inb2 t) G := by
  funext y
  show G (((cfg2.win 6).blk t).view.emb y) = G (shiftRow (4000 * t.val) (block_inb2 t) y)
  refine congrArg _ ?_
  obtain ⟨-, -, -, -, -, -, -, -, -, -, -, -, e0, e1⟩ := idx_facts2 t
  funext a; apply Fin.ext
  match a with
  | ⟨0, _⟩ => show win2_6.index t (0 : Fin 2) * 4000 + 1 * (y 0).val = 4000 * t.val + (y 0).val; rw [e0]; omega
  | ⟨1, _⟩ => show win2_6.index t (1 : Fin 2) * 1 + 1 * (y 1).val = (y 1).val; rw [e1]; omega

/-! ## The body on row blocks -/

/-- A row [1, 8] stretches down 200000 rows. -/
theorem stretch_row8 : S1x8.BroadcastsInDim S200000x8 ![0, 1] := by decide

/-- A scalar fills a [200000, 8] array. -/
theorem splat8 : S_.BroadcastsInDim S200000x8 ![] := by decide

/-- A one-entry row [1, 1] stretches down 200000 rows. -/
theorem stretch_row1 : S1x1.BroadcastsInDim S200000x1 ![0, 1] := by decide

/-- A scalar fills a [200000, 1] array. -/
theorem splat1 : S_.BroadcastsInDim S200000x1 ![] := by decide

/-- The body's value on row blocks is the row block of logistic (max (D ⊙ (A + H) + B, 0) · W + B'), the logistic
    function written as the quotient 1 / (1 + exp (−z)). -/
theorem pay2_rowBlk (o : Nat) (h : o + 4000 ≤ 200000) (A H : FVec Ideal S200000x8 .f32) (D : FVec Ideal S200000x1 .f32)
    (B : FVec Ideal S1x8 .f32) (W : FVec Ideal S8x1 .f32) (B' : FVec Ideal S1x1 .f32) :
    Gen.k2_pay1 (F := Ideal) (rowBlk (C := 1) o h D) (rowBlk o h A) (rowBlk o h H) B W B'
      = rowBlk (C := 1) o h (Host.divf (broadcastInDim S200000x1 ![] splat1 (constant (F := Ideal) S_ .f32 0x3F800000#32))
          (addf (broadcastInDim S200000x1 ![] splat1 (constant (F := Ideal) S_ .f32 0x3F800000#32))
            (Host.exp (Host.negf (addf (Host.dotGeneral (DotDims.plain 200000 8 1) none
                (maximumf (addf (mulf (broadcastInDim S200000x8 ![0, 1] stretch_col8 D) (addf A H))
                    (broadcastInDim S200000x8 ![0, 1] stretch_row8 B))
                  (broadcastInDim S200000x8 ![] splat8 (constant (F := Ideal) S_ .f32 0x00000000#32))) W)
              (broadcastInDim S200000x1 ![0, 1] stretch_row1 B')))))) := by
  unfold Gen.k2_pay1
  dsimp only
  simp only [shapeCast_self]
  rw [truncf_ideal, truncf_ideal, addf_rowBlk,
    colStretch_rowBlk o h D _ stretch_col8, mulf_rowBlk,
    rowStretch_rowBlk o h B _ stretch_row8, addf_rowBlk,
    splat_rowBlk o h _ splat8, maximumf_rowBlk,
    matmul_rowBlk o h dot_S4000x8_S8x1_S4000x1_1_0_0_1_n_n rfl (DotDims.plain 200000 8 1) rfl,
    rowStretch_rowBlk (C := 1) o h B' _ stretch_row1, addf_rowBlk,
    logistic_rowBlk (C := 1) o h _ splat1]
  rfl

/-! ## What each point writes back, the cover, and the result array -/

/-- The all-ones [200000, 1] array. -/
abbrev ones1 : FVec Ideal S200000x1 .f32 :=
  broadcastInDim S200000x1 ![] splat1 (constant (F := Ideal) S_ .f32 0x3F800000#32)

/-- logistic (max (d ⊙ (a + h) + b, 0) · w + b') of the arrays the region finds. -/
abbrev whole2 (c : Dev nD) : FVec Ideal S200000x1 .f32 :=
  Host.divf ones1 (addf ones1 (Host.exp (Host.negf (addf
    (Host.dotGeneral (φ₁ := .f32) (φ₂ := .f32) (DotDims.plain 200000 8 1) none
      (maximumf (addf (mulf (broadcastInDim (α := Ideal .f32) S200000x8 ![0, 1] stretch_col8 (V c main_v11))
            (addf (V c main_v34 : FVec Ideal S200000x8 .f32) (V c main_v24)))
          (broadcastInDim (α := Ideal .f32) S200000x8 ![0, 1] stretch_row8 (V c main_v35)))
        (broadcastInDim S200000x8 ![] splat8 (constant (F := Ideal) S_ .f32 0x00000000#32)))
      (V c main_arg6))
    (broadcastInDim (α := Ideal .f32) S200000x1 ![0, 1] stretch_row1 (V c main_v36))))))

/-- Point t writes back block t of that expression. -/
theorem flushed2_eq (c : Dev nD) (t : Fin cfg2.N) :
    (Gen.dat2 V c).flushed 6 t = ((cfg2.win 6).blk t).view.read (Elt Ideal) (whole2 V c) := by
  show (cfg2.win 6).cut (grid2.coords t) ((Gen.dat2 V c).after 6 t) = _
  rw [Gen.after2_6]
  unfold Gen.out2_6
  rw [View.canon_unit_zero zero_offsets]
  simp only [View.ld_unit_zero (S := S4000x8) zero_offsets, View.ld_unit_zero (S := S4000x1) zero_offsets,
    View.ld_unit_zero (S := S1x8) zero_offsets, View.ld_unit_zero (S := S8x1) zero_offsets,
    View.ld_unit_zero (S := S1x1) zero_offsets]
  rw [agg_block2, hid_block2, col_block2, bias_block2, weight_block2, bias1_block2, pay2_rowBlk, out_block2]
  rfl

/-- An index of the result array is in point t's block iff each coordinate is in the block's range on its axis. -/
theorem mem_blk2 (t : Fin cfg2.N) (i : S200000x1.Idx) :
    i ∈ ((cfg2.win 6).blk t).view.set ↔ ∀ a : Fin 2, win2_6.index t a * S4000x1.size a ≤ (i a).val
      ∧ (i a).val < win2_6.index t a * S4000x1.size a + S4000x1.size a := by
  show i ∈ ((View.whole main_v37).slice (win2_6.rect t)).set ↔ _
  rw [View.set_slice_whole, Rect.mem_set_unit]
  exact Iff.rfl

/-- Row i of the result lies in the block of point i / 4000. -/
theorem cover2 (i : S200000x1.Idx) :
    ∃ t : Fin cfg2.N, (cfg2.win 6).flush t = true ∧ i ∈ ((cfg2.win 6).blk t).view.set := by
  have hi0 : (i 0).val < 200000 := (i 0).isLt
  have hi1 : (i 1).val < 1 := (i 1).isLt
  have hlt : (i 0).val / 4000 < cfg2.N := by rw [show cfg2.N = 50 from Gen.N_2]; omega
  refine ⟨⟨(i 0).val / 4000, hlt⟩, Gen.flush2_6 _, ?_⟩
  rw [mem_blk2]
  obtain ⟨-, -, -, -, -, -, -, -, -, -, -, -, e0, e1⟩ := idx_facts2 ⟨(i 0).val / 4000, hlt⟩
  obtain ⟨b0, b1⟩ := row_in_block 4000 (i 0).val (by decide)
  intro a
  match a with
  | ⟨0, _⟩ =>
    show win2_6.index ⟨(i 0).val / 4000, hlt⟩ (0 : Fin 2) * 4000 ≤ (i 0).val
      ∧ (i 0).val < win2_6.index ⟨(i 0).val / 4000, hlt⟩ (0 : Fin 2) * 4000 + 4000
    rw [e0]; exact ⟨b0, b1⟩
  | ⟨1, _⟩ =>
    show win2_6.index ⟨(i 0).val / 4000, hlt⟩ (1 : Fin 2) * 1 ≤ (i 1).val
      ∧ (i 1).val < win2_6.index ⟨(i 0).val / 4000, hlt⟩ (1 : Fin 2) * 1 + 1
    rw [e1]; omega

/-- THE THIRD REGION'S RESULT: the array it leaves is logistic (max (d ⊙ (a + h) + b, 0) · w + b') of the arrays it
    finds, whatever they hold. -/
theorem region2_value (c : Dev nD) :
    (Gen.dat2 V c).arrAt 6 cfg2.N
      = (Host.divf (broadcastInDim S200000x1 ![] splat1 (constant (F := Ideal) S_ .f32 0x3F800000#32))
          (addf (broadcastInDim S200000x1 ![] splat1 (constant (F := Ideal) S_ .f32 0x3F800000#32)) (Host.exp (Host.negf (addf
          (Host.dotGeneral (φ₁ := .f32) (φ₂ := .f32) (DotDims.plain 200000 8 1) none
            (maximumf (addf (mulf (broadcastInDim (α := Ideal .f32) S200000x8 ![0, 1] stretch_col8 (V c main_v11))
                  (addf (V c main_v34 : FVec Ideal S200000x8 .f32) (V c main_v24)))
                (broadcastInDim (α := Ideal .f32) S200000x8 ![0, 1] stretch_row8 (V c main_v35)))
              (broadcastInDim S200000x8 ![] splat8 (constant (F := Ideal) S_ .f32 0x00000000#32)))
            (V c main_arg6))
          (broadcastInDim (α := Ideal .f32) S200000x1 ![0, 1] stretch_row1 (V c main_v36)))))) : FVec Ideal S200000x1 .f32) :=
  (Gen.dat2 V c).arrAt_eq_of_cover 6 (whole2 V c) (fun t _ => flushed2_eq V c t) cover2

end Cert.KernelIdeal.RegionValue

end
-- ==== Proof.EdgeIndex.lean ====
/- The edge list as index vectors.

   The graph's edges arrive as one integer array of two rows: row 0 holds every edge's source node, row 1 its
   destination node.  `srcV` and `dstV` are the two rows as vectors; `srcC` is the index column the neighbour
   gather reads along (the source nodes, a negative word wrapped around by adding the node count) and `dstC` the
   index column the scatter adds along (the destination nodes). -/
import proofs.«127821_j22179211117042_2_alg».proof.KernelIdeal
import proofs.«127821_j22179211117042_2_alg».proof.Proof.Gen.KernelIdeal

noncomputable section

namespace Cert.KernelIdeal.HostValue

open Idealize.ShloMosaic
open Cert.KernelIdeal.Gen

/-- The edge list's first row as a vector: the source node of every edge. -/
def srcV (x1 : IVec S2x6400000 32) : IVec S6400000 32 :=
  shapeCast _ (extractStridedSlice S1x6400000 ![0, 0] x1 slices_S2x6400000_S1x6400000_0_0) shapeCasts_S1x6400000_S6400000

/-- The edge list's second row as a vector: the destination node of every edge. -/
def dstV (x1 : IVec S2x6400000 32) : IVec S6400000 32 :=
  shapeCast _ (extractStridedSlice S1x6400000 ![1, 0] x1 slices_S2x6400000_S1x6400000_1_0) shapeCasts_S1x6400000_S6400000

/-- The gather's index column: the source nodes, a negative word wrapped around by adding the node count. -/
def srcC (x1 : IVec S2x6400000 32) : IVec S6400000x1 32 :=
  broadcastInDim S6400000x1 ![0] bcast_S6400000_S6400000x1_0
    (select (cmpi .slt (srcV x1) (broadcastInDim S6400000 ![] bcast_S_S6400000 (constantI S_ 32 0#32)))
      (addi (srcV x1) (broadcastInDim S6400000 ![] bcast_S_S6400000 (constantI S_ 32 200000#32)))
      (srcV x1))

/-- The scatter's index column: the destination nodes. -/
def dstC (x1 : IVec S2x6400000 32) : IVec S6400000x1 32 :=
  broadcastInDim S6400000x1 ![0] bcast_S6400000_S6400000x1_0 (dstV x1)

end Cert.KernelIdeal.HostValue

end
-- ==== Proof.HostStretch.lean ====
/- The host stretches of @main read as pure terms.

   Between its three regions @main runs straight lines of tensor operations.  What a buffer holds after such a line,
   from ANY contents `W` before it, is a composition of the operations' functions applied to `W` at the buffers the
   line reads (one lemma per buffer a region later reads, proved once for a variable `W` and a variable float type, so
   that nothing of the surrounding run is unfolded), and a buffer that no operation of the line writes keeps its
   contents.  Chaining these through the run's boundary contents gives every array the regions read: the edge list's
   two rows `srcV`, `dstV` as index vectors, the gather's and the scatter's index columns `srcC`, `dstC`, the
   degree normalisation (one over the square root of one plus the number of edges arriving at a node), the two
   neighbour sums (a gather along the source column scattered and added along the destination column), and the bias
   vectors recast as one-row matrices. -/
import proofs.«127821_j22179211117042_2_alg».proof.Proof.Gen.KernelIdeal.Frame
import proofs.«127821_j22179211117042_2_alg».proof.Proof.EdgeIndex

set_option maxRecDepth 16384

noncomputable section

namespace Cert.KernelIdeal.HostValue

open Idealize.ShloMosaic Idealize.ShloMosaic.TcCoe Idealize.ShloMosaic.Tactic
open Cert.KernelIdeal.Gen

variable {F : FTy → Type} [FloatOps F]

/-! ## What each line leaves in the buffers the regions read, from any contents before it

The gather and the scatter are kept opaque here: an equation between two compositions of the same operations is
decided on the compositions, never on what six million updates amount to. -/

attribute [local irreducible] Host.gather Host.scatterAdd

/-- After the first line the source vector is the edge list's first row. -/
theorem hostOps0_v1 (W : Valuation τ sig (Elt F)) {x1 : IVec S2x6400000 32} (h1 : W (Proc.devRef .tc main_arg1) = x1) :
    StableHlo.after hostOps0 W (Proc.devRef .tc main_v1) = srcV x1 := by
  subst h1; after_results_simp; rfl

/-- After the first line the destination vector is the edge list's second row. -/
theorem hostOps0_v3 (W : Valuation τ sig (Elt F)) {x1 : IVec S2x6400000 32} (h1 : W (Proc.devRef .tc main_arg1) = x1) :
    StableHlo.after hostOps0 W (Proc.devRef .tc main_v3) = dstV x1 := by
  subst h1; after_results_simp; rfl

/-- After the first line the normalisation column: ones scattered and added along the destination column into zeros
    count the edges arriving at each node; one is added, the reciprocal square root taken, the vector recast as a column. -/
theorem hostOps0_v11 (W : Valuation τ sig (Elt F)) {x1 : IVec S2x6400000 32} (h1 : W (Proc.devRef .tc main_arg1) = x1) :
    StableHlo.after hostOps0 W (Proc.devRef .tc main_v11)
      = shapeCast S200000x1 (Host.rsqrt (addf (Host.scatterAdd scatter_S200000_S6400000x1_S6400000_n_0_0_1
            (broadcastInDim S200000 ![] bcast_S_S200000 (constant S_ .f32 0x00000000#32))
            (dstC x1)
            (broadcastInDim S6400000 ![] bcast_S_S6400000 (constant S_ .f32 0x3F800000#32)))
          (broadcastInDim S200000 ![] bcast_S_S200000 (constant S_ .f32 0x3F800000#32)))) shapeCasts_S200000_S200000x1 := by
  subst h1; after_results_simp; rfl

/-- After the second line the first neighbour sum: the rows of the first region's output gathered along the wrapped
    source column, scattered and added along the destination column into zeros. -/
theorem hostOps1_v22 (W : Valuation τ sig (Elt F)) {s d : IVec S6400000 32} {X : Vec F S200000x16 .f32}
    (hs : W (Proc.devRef .tc main_v1) = s) (hd : W (Proc.devRef .tc main_v3) = d) (hX : W (Proc.devRef .tc main_v12) = X) :
    StableHlo.after hostOps1 W (Proc.devRef .tc main_v22)
      = Host.scatterAdd scatter_S200000x16_S6400000x1_S6400000x16_1_0_0_1
          (broadcastInDim S200000x16 ![] bcast_S_S200000x16 (constant S_ .f32 0x00000000#32))
          (broadcastInDim S6400000x1 ![0] bcast_S6400000_S6400000x1_0 d)
          (Host.gather gather_S200000x16_S6400000x1_S6400000x16_1_0_n_n_0_1_116 X
            (broadcastInDim S6400000x1 ![0] bcast_S6400000_S6400000x1_0
              (select (cmpi .slt s (broadcastInDim S6400000 ![] bcast_S_S6400000 (constantI S_ 32 0#32)))
                (addi s (broadcastInDim S6400000 ![] bcast_S_S6400000 (constantI S_ 32 200000#32)))
                s))) := by
  subst hs hd hX; after_results_simp

/-- After the second line the first bias vector recast as a one-row matrix. -/
theorem hostOps1_v23 (W : Valuation τ sig (Elt F)) {b : Vec F S16 .f32} (hb : W (Proc.devRef .tc main_arg3) = b) :
    StableHlo.after hostOps1 W (Proc.devRef .tc main_v23) = shapeCast S1x16 b shapeCasts_S16_S1x16 := by
  subst hb; after_results_simp; rfl

/-- After the third line the second neighbour sum, as the first over the second region's output. -/
theorem hostOps2_v34 (W : Valuation τ sig (Elt F)) {s d : IVec S6400000 32} {X : Vec F S200000x8 .f32}
    (hs : W (Proc.devRef .tc main_v1) = s) (hd : W (Proc.devRef .tc main_v3) = d) (hX : W (Proc.devRef .tc main_v24) = X) :
    StableHlo.after hostOps2 W (Proc.devRef .tc main_v34)
      = Host.scatterAdd scatter_S200000x8_S6400000x1_S6400000x8_1_0_0_1
          (broadcastInDim S200000x8 ![] bcast_S_S200000x8 (constant S_ .f32 0x00000000#32))
          (broadcastInDim S6400000x1 ![0] bcast_S6400000_S6400000x1_0 d)
          (Host.gather gather_S200000x8_S6400000x1_S6400000x8_1_0_n_n_0_1_18 X
            (broadcastInDim S6400000x1 ![0] bcast_S6400000_S6400000x1_0
              (select (cmpi .slt s (broadcastInDim S6400000 ![] bcast_S_S6400000 (constantI S_ 32 0#32)))
                (addi s (broadcastInDim S6400000 ![] bcast_S_S6400000 (constantI S_ 32 200000#32)))
                s))) := by
  subst hs hd hX; after_results_simp

/-- After the third line the second bias vector recast as a one-row matrix. -/
theorem hostOps2_v35 (W : Valuation τ sig (Elt F)) {b : Vec F S8 .f32} (hb : W (Proc.devRef .tc main_arg5) = b) :
    StableHlo.after hostOps2 W (Proc.devRef .tc main_v35) = shapeCast S1x8 b shapeCasts_S8_S1x8 := by
  subst hb; after_results_simp; rfl

/-- After the third line the last bias recast as a one-by-one matrix. -/
theorem hostOps2_v36 (W : Valuation τ sig (Elt F)) {b : Vec F S1 .f32} (hb : W (Proc.devRef .tc main_arg7) = b) :
    StableHlo.after hostOps2 W (Proc.devRef .tc main_v36) = shapeCast S1x1 b shapeCasts_S1_S1x1 := by
  subst hb; after_results_simp; rfl

/-! ## What each line leaves unchanged: every buffer none of its operations writes -/

/-- The buffers the first line's operations write. -/
abbrev hostOps0_W : List (Ref sig .tc) :=
  [main_v0, main_v1, main_v2, main_v3, main_cst, main_v4, main_cst_0, main_v5, main_v6, main_v7, main_cst_1, main_v8, main_v9,
    main_v10, main_v11]
/-- The buffers the second line's operations write. -/
abbrev hostOps1_W : List (Ref sig .tc) :=
  [main_c, main_v13, main_v14, main_c_2, main_v15, main_v16, main_v17, main_v18, main_v19, main_cst_3, main_v20, main_v21,
    main_v22, main_v23]
/-- The buffers the third line's operations write. -/
abbrev hostOps2_W : List (Ref sig .tc) :=
  [main_c_4, main_v25, main_v26, main_c_5, main_v27, main_v28, main_v29, main_v30, main_v31, main_cst_6, main_v32, main_v33,
    main_v34, main_v35, main_v36]

theorem hostOps0_writes : (hostOps0 : List (HloOp τ sig (Elt F))).Forall fun op =>
    op.writes ⊆ (hostOps0_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem hostOps1_writes : (hostOps1 : List (HloOp τ sig (Elt F))).Forall fun op =>
    op.writes ⊆ (hostOps1_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem hostOps2_writes : (hostOps2 : List (HloOp τ sig (Elt F))).Forall fun op =>
    op.writes ⊆ (hostOps2_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps0_keeps (W : Valuation τ sig (Elt F)) (r : Ref sig .tc) (h : r ∉ hostOps0_W) :
    StableHlo.after hostOps0 W (Proc.devRef .tc r) = W (Proc.devRef .tc r) :=
  StableHlo.after_of_writes_sub hostOps0 W hostOps0_writes h
theorem hostOps1_keeps (W : Valuation τ sig (Elt F)) (r : Ref sig .tc) (h : r ∉ hostOps1_W) :
    StableHlo.after hostOps1 W (Proc.devRef .tc r) = W (Proc.devRef .tc r) :=
  StableHlo.after_of_writes_sub hostOps1 W hostOps1_writes h
theorem hostOps2_keeps (W : Valuation τ sig (Elt F)) (r : Ref sig .tc) (h : r ∉ hostOps2_W) :
    StableHlo.after hostOps2 W (Proc.devRef .tc r) = W (Proc.devRef .tc r) :=
  StableHlo.after_of_writes_sub hostOps2 W hostOps2_writes h

/-! ## The run's boundary contents at the buffers the regions read -/

variable (m : (ℓ : Loc nD τ sig) → Buf (Elt F) ℓ) (ρ : Dev nD → PrngReg)

/-- A buffer that neither the first line writes nor the first region has as an array is, at the first region's exit,
    as launched. -/
theorem W2_launch (c : Dev nD) (r : Ref sig .tc) (h0 : r ∉ hostOps0_W) (n0 : ∀ w, Pipeline.arrRef spec0 w ≠ r) :
    Gen.W2 m ρ c (Proc.devRef .tc r) = m ((c : Thread nD τ).loc r) :=
  (Gen.W2_of_ne m ρ c r n0).trans (hostOps0_keeps (Gen.W0 m ρ c) r h0)

/-- A buffer that neither of the first two lines writes nor either of the first two regions has as an array is, at the
    second region's exit, as launched. -/
theorem W4_launch (c : Dev nD) (r : Ref sig .tc) (h0 : r ∉ hostOps0_W) (n0 : ∀ w, Pipeline.arrRef spec0 w ≠ r)
    (h1 : r ∉ hostOps1_W) (n1 : ∀ w, Pipeline.arrRef spec1 w ≠ r) :
    Gen.W4 m ρ c (Proc.devRef .tc r) = m ((c : Thread nD τ).loc r) :=
  (Gen.W4_of_ne m ρ c r n1).trans ((hostOps1_keeps (Gen.W2 m ρ c) r h1).trans (W2_launch m ρ c r h0 n0))

/-! ### The first region's windows -/

theorem V1_arg0 (c : Dev nD) : Gen.V1 m ρ c main_arg0 = m ((c : Thread nD τ).loc main_arg0) :=
  hostOps0_keeps (Gen.W0 m ρ c) main_arg0 (by decide)
theorem V1_arg2 (c : Dev nD) : Gen.V1 m ρ c main_arg2 = m ((c : Thread nD τ).loc main_arg2) :=
  hostOps0_keeps (Gen.W0 m ρ c) main_arg2 (by decide)
theorem V1_v11 (c : Dev nD) :
    Gen.V1 m ρ c main_v11
      = shapeCast S200000x1 (Host.rsqrt (addf (Host.scatterAdd scatter_S200000_S6400000x1_S6400000_n_0_0_1
            (broadcastInDim S200000 ![] bcast_S_S200000 (constant S_ .f32 0x00000000#32))
            (dstC (m ((c : Thread nD τ).loc main_arg1)))
            (broadcastInDim S6400000 ![] bcast_S_S6400000 (constant S_ .f32 0x3F800000#32)))
          (broadcastInDim S200000 ![] bcast_S_S200000 (constant S_ .f32 0x3F800000#32)))) shapeCasts_S200000_S200000x1 :=
  hostOps0_v11 (Gen.W0 m ρ c) rfl

/-! ### The index vectors pass every later boundary unchanged -/

theorem W2_v1 (c : Dev nD) : Gen.W2 m ρ c (Proc.devRef .tc main_v1) = srcV (m ((c : Thread nD τ).loc main_arg1)) :=
  (Gen.W2_of_ne m ρ c main_v1 (by decide)).trans (hostOps0_v1 (Gen.W0 m ρ c) rfl)
theorem W2_v3 (c : Dev nD) : Gen.W2 m ρ c (Proc.devRef .tc main_v3) = dstV (m ((c : Thread nD τ).loc main_arg1)) :=
  (Gen.W2_of_ne m ρ c main_v3 (by decide)).trans (hostOps0_v3 (Gen.W0 m ρ c) rfl)
theorem W4_v1 (c : Dev nD) : Gen.W4 m ρ c (Proc.devRef .tc main_v1) = srcV (m ((c : Thread nD τ).loc main_arg1)) :=
  (Gen.W4_of_ne m ρ c main_v1 (by decide)).trans ((hostOps1_keeps (Gen.W2 m ρ c) main_v1 (by decide)).trans (W2_v1 m ρ c))
theorem W4_v3 (c : Dev nD) : Gen.W4 m ρ c (Proc.devRef .tc main_v3) = dstV (m ((c : Thread nD τ).loc main_arg1)) :=
  (Gen.W4_of_ne m ρ c main_v3 (by decide)).trans ((hostOps1_keeps (Gen.W2 m ρ c) main_v3 (by decide)).trans (W2_v3 m ρ c))

/-! ### The second region's windows -/

theorem V3_v22 (c : Dev nD) :
    Gen.V3 m ρ c main_v22
      = Host.scatterAdd scatter_S200000x16_S6400000x1_S6400000x16_1_0_0_1
          (broadcastInDim S200000x16 ![] bcast_S_S200000x16 (constant S_ .f32 0x00000000#32))
          (dstC (m ((c : Thread nD τ).loc main_arg1)))
          (Host.gather gather_S200000x16_S6400000x1_S6400000x16_1_0_n_n_0_1_116 (Gen.V2 m ρ c main_v12)
            (srcC (m ((c : Thread nD τ).loc main_arg1)))) :=
  hostOps1_v22 (Gen.W2 m ρ c) (W2_v1 m ρ c) (W2_v3 m ρ c) rfl
theorem V3_v12 (c : Dev nD) : Gen.V3 m ρ c main_v12 = Gen.V2 m ρ c main_v12 :=
  hostOps1_keeps (Gen.W2 m ρ c) main_v12 (by decide)
/-- The normalisation column is an input array of the first region: it leaves the region as it entered. -/
theorem W2_v11 (c : Dev nD) : Gen.W2 m ρ c (Proc.devRef .tc main_v11) = Gen.V1 m ρ c main_v11 :=
  (Gen.W2_arr m ρ c 2).trans (((Gen.dat0 (Gen.V1 m ρ) c).arrAt_in 2 rfl _).trans (Gen.A_eq0 (Gen.V1 m ρ) c 2))
theorem V3_v11 (c : Dev nD) : Gen.V3 m ρ c main_v11 = Gen.V1 m ρ c main_v11 :=
  (hostOps1_keeps (Gen.W2 m ρ c) main_v11 (by decide)).trans (W2_v11 m ρ c)
theorem V3_v23 (c : Dev nD) :
    Gen.V3 m ρ c main_v23 = shapeCast S1x16 (m ((c : Thread nD τ).loc main_arg3)) shapeCasts_S16_S1x16 :=
  hostOps1_v23 (Gen.W2 m ρ c) (W2_launch m ρ c main_arg3 (by decide) (by decide))
theorem V3_arg4 (c : Dev nD) : Gen.V3 m ρ c main_arg4 = m ((c : Thread nD τ).loc main_arg4) :=
  (hostOps1_keeps (Gen.W2 m ρ c) main_arg4 (by decide)).trans (W2_launch m ρ c main_arg4 (by decide) (by decide))

/-! ### The third region's windows -/

theorem V5_v34 (c : Dev nD) :
    Gen.V5 m ρ c main_v34
      = Host.scatterAdd scatter_S200000x8_S6400000x1_S6400000x8_1_0_0_1
          (broadcastInDim S200000x8 ![] bcast_S_S200000x8 (constant S_ .f32 0x00000000#32))
          (dstC (m ((c : Thread nD τ).loc main_arg1)))
          (Host.gather gather_S200000x8_S6400000x1_S6400000x8_1_0_n_n_0_1_18 (Gen.V4 m ρ c main_v24)
            (srcC (m ((c : Thread nD τ).loc main_arg1)))) :=
  hostOps2_v34 (Gen.W4 m ρ c) (W4_v1 m ρ c) (W4_v3 m ρ c) rfl
theorem V5_v24 (c : Dev nD) : Gen.V5 m ρ c main_v24 = Gen.V4 m ρ c main_v24 :=
  hostOps2_keeps (Gen.W4 m ρ c) main_v24 (by decide)
/-- The normalisation column is an input array of the second region too. -/
theorem W4_v11 (c : Dev nD) : Gen.W4 m ρ c (Proc.devRef .tc main_v11) = Gen.V1 m ρ c main_v11 :=
  (Gen.W4_arr m ρ c 2).trans ((((Gen.dat1 (Gen.V3 m ρ) c).arrAt_in 2 rfl _).trans (Gen.A_eq1 (Gen.V3 m ρ) c 2)).trans (V3_v11 m ρ c))
theorem V5_v11 (c : Dev nD) : Gen.V5 m ρ c main_v11 = Gen.V1 m ρ c main_v11 :=
  (hostOps2_keeps (Gen.W4 m ρ c) main_v11 (by decide)).trans (W4_v11 m ρ c)
theorem V5_v35 (c : Dev nD) :
    Gen.V5 m ρ c main_v35 = shapeCast S1x8 (m ((c : Thread nD τ).loc main_arg5)) shapeCasts_S8_S1x8 :=
  hostOps2_v35 (Gen.W4 m ρ c) (W4_launch m ρ c main_arg5 (by decide) (by decide) (by decide) (by decide))
theorem V5_arg6 (c : Dev nD) : Gen.V5 m ρ c main_arg6 = m ((c : Thread nD τ).loc main_arg6) :=
  (hostOps2_keeps (Gen.W4 m ρ c) main_arg6 (by decide)).trans (W4_launch m ρ c main_arg6 (by decide) (by decide) (by decide) (by decide))
theorem V5_v36 (c : Dev nD) :
    Gen.V5 m ρ c main_v36 = shapeCast S1x1 (m ((c : Thread nD τ).loc main_arg7)) shapeCasts_S1_S1x1 :=
  hostOps2_v36 (Gen.W4 m ρ c) (W4_launch m ρ c main_arg7 (by decide) (by decide) (by decide) (by decide))

end Cert.KernelIdeal.HostValue

end
-- ==== Proof.KerSpec.lean ====
/-
  The kernel program's result as a composition of named whole-array functions.

  The kernel computes the same two-layer graph convolution with the normalisation folded into the rows. With
  deg n = (number of edges into n) + 1 and dinv = 1 / sqrt (deg), kept as a column colK, a layer takes rows H, scales
  them to P = H * dinv (row n by dinv n), sums P along the edges into the targets (agg), adds the node's own row P,
  scales by dinv once more and adds the bias row:  dinv * (agg + P) + b.  The dense parts between the layers are
  products with the weights, a maximum with 0, and at the end the logistic function spelt 1 / (1 + exp (- z)).
-/
import proofs.«127821_j22179211117042_2_alg».proof.Proof.EdgeIndex
import proofs.«127821_j22179211117042_2_alg».proof.Proof.LibPlainDot
import Idealize.ShloMosaic.PureOps.Ideal
import Idealize.ShloMosaic.PureOps.Ideal.Laws

noncomputable section

namespace Cert.KernelIdeal.KerValue

open Cert.KernelIdeal Cert.KernelIdeal.Gen Cert.KernelIdeal.HostValue Idealize.ShloMosaic Idealize.ShloMosaic.TcCoe Idealize.SL.Sem

theorem colTo16 : S200000x1.BroadcastsInDim S200000x16 (![0, 1] : Fin 2 → Fin S200000x16.rank) := by decide
theorem colTo8 : S200000x1.BroadcastsInDim S200000x8 (![0, 1] : Fin 2 → Fin S200000x8.rank) := by decide
theorem rowTo16 : S1x16.BroadcastsInDim S200000x16 (![0, 1] : Fin 2 → Fin S200000x16.rank) := by decide
theorem rowTo8 : S1x8.BroadcastsInDim S200000x8 (![0, 1] : Fin 2 → Fin S200000x8.rank) := by decide
theorem rowTo1 : S1x1.BroadcastsInDim S200000x1 (![0, 1] : Fin 2 → Fin S200000x1.rank) := by decide
theorem splatTo1 : S_.BroadcastsInDim S200000x1 (![] : Fin 0 → Fin S200000x1.rank) := by decide

/-- 1 / sqrt (deg), deg n = (number of edges into n) + 1. -/
def dinvK (x1 : IVec S2x6400000 32) : FVec Ideal S200000 .f32 :=
  Host.rsqrt (addf (Host.scatterAdd scatter_S200000_S6400000x1_S6400000_n_0_0_1
      (broadcastInDim S200000 ![] bcast_S_S200000 (constant S_ .f32 0x00000000#32)) (dstC x1)
      (broadcastInDim S6400000 ![] bcast_S_S6400000 (constant S_ .f32 0x3F800000#32)))
    (broadcastInDim S200000 ![] bcast_S_S200000 (constant S_ .f32 0x3F800000#32)))
/-- The same as a column. -/
def colK (x1 : IVec S2x6400000 32) : FVec Ideal S200000x1 .f32 := shapeCast S200000x1 (dinvK x1) shapeCasts_S200000_S200000x1

/-- Rows of 16 summed along the edges into the target nodes. -/
def agg16 (P : FVec Ideal S200000x16 .f32) (x1 : IVec S2x6400000 32) : FVec Ideal S200000x16 .f32 :=
  Host.scatterAdd scatter_S200000x16_S6400000x1_S6400000x16_1_0_0_1
    (broadcastInDim S200000x16 ![] bcast_S_S200000x16 (constant S_ .f32 0x00000000#32)) (dstC x1)
    (Host.gather gather_S200000x16_S6400000x1_S6400000x16_1_0_n_n_0_1_116 P (srcC x1))
/-- Rows of 8 summed along the edges into the target nodes. -/
def agg8 (P : FVec Ideal S200000x8 .f32) (x1 : IVec S2x6400000 32) : FVec Ideal S200000x8 .f32 :=
  Host.scatterAdd scatter_S200000x8_S6400000x1_S6400000x8_1_0_0_1
    (broadcastInDim S200000x8 ![] bcast_S_S200000x8 (constant S_ .f32 0x00000000#32)) (dstC x1)
    (Host.gather gather_S200000x8_S6400000x1_S6400000x8_1_0_n_n_0_1_18 P (srcC x1))

/-- Rows of 16 scaled by their node's factor. -/
def scaled16 (H : FVec Ideal S200000x16 .f32) (x1 : IVec S2x6400000 32) : FVec Ideal S200000x16 .f32 :=
  mulf H (broadcastInDim S200000x16 ![0, 1] colTo16 (colK x1))
/-- Rows of 8 scaled by their node's factor. -/
def scaled8 (H : FVec Ideal S200000x8 .f32) (x1 : IVec S2x6400000 32) : FVec Ideal S200000x8 .f32 :=
  mulf H (broadcastInDim S200000x8 ![0, 1] colTo8 (colK x1))

/-- dinv * (agg + P) + b on rows of 16, from the scaled rows P and the summed rows A. -/
def combine16 (A P : FVec Ideal S200000x16 .f32) (x1 : IVec S2x6400000 32) (b : FVec Ideal S16 .f32) : FVec Ideal S200000x16 .f32 :=
  addf (mulf (broadcastInDim S200000x16 ![0, 1] colTo16 (colK x1)) (addf A P))
    (broadcastInDim S200000x16 ![0, 1] rowTo16 (shapeCast S1x16 b shapeCasts_S16_S1x16))
/-- dinv * (agg + P) + b on rows of 8. -/
def combine8 (A P : FVec Ideal S200000x8 .f32) (x1 : IVec S2x6400000 32) (b : FVec Ideal S8 .f32) : FVec Ideal S200000x8 .f32 :=
  addf (mulf (broadcastInDim S200000x8 ![0, 1] colTo8 (colK x1)) (addf A P))
    (broadcastInDim S200000x8 ![0, 1] rowTo8 (shapeCast S1x8 b shapeCasts_S8_S1x8))

/-- A layer on rows of 16. -/
def layerK16 (H : FVec Ideal S200000x16 .f32) (x1 : IVec S2x6400000 32) (b : FVec Ideal S16 .f32) : FVec Ideal S200000x16 .f32 :=
  combine16 (agg16 (scaled16 H x1) x1) (scaled16 H x1) x1 b
/-- A layer on rows of 8. -/
def layerK8 (H : FVec Ideal S200000x8 .f32) (x1 : IVec S2x6400000 32) (b : FVec Ideal S8 .f32) : FVec Ideal S200000x8 .f32 :=
  combine8 (agg8 (scaled8 H x1) x1) (scaled8 H x1) x1 b

/-- The rectified first layer's rows times the second weights. -/
def hidden2K (C1 : FVec Ideal S200000x16 .f32) (x4 : FVec Ideal S16x8 .f32) : FVec Ideal S200000x8 .f32 :=
  Host.dotGeneral (DotDims.plain 200000 16 8) none
    (maximumf C1 (broadcastInDim S200000x16 ![] bcast_S_S200000x16 (constant S_ .f32 0x00000000#32))) x4
/-- The head: rectify, weight column, bias, logistic. -/
def headK (C2 : FVec Ideal S200000x8 .f32) (x6 : FVec Ideal S8x1 .f32) (x7 : FVec Ideal S1 .f32) : FVec Ideal S200000x1 .f32 :=
  Host.divf (broadcastInDim S200000x1 ![] splatTo1 (constant S_ .f32 0x3F800000#32))
    (addf (broadcastInDim S200000x1 ![] splatTo1 (constant S_ .f32 0x3F800000#32))
      (Host.exp (Host.negf (addf
        (Host.dotGeneral (DotDims.plain 200000 8 1) none
          (maximumf C2 (broadcastInDim S200000x8 ![] bcast_S_S200000x8 (constant S_ .f32 0x00000000#32))) x6)
        (broadcastInDim S200000x1 ![0, 1] rowTo1 (shapeCast S1x1 x7 shapeCasts_S1_S1x1))))))

/-- The whole kernel program. -/
def kerTotal (x0 : FVec Ideal S200000x6 .f32) (x1 : IVec S2x6400000 32) (x2 : FVec Ideal S6x16 .f32) (x3 : FVec Ideal S16 .f32)
    (x4 : FVec Ideal S16x8 .f32) (x5 : FVec Ideal S8 .f32) (x6 : FVec Ideal S8x1 .f32) (x7 : FVec Ideal S1 .f32) : FVec Ideal S200000x1 .f32 :=
  headK (layerK8 (hidden2K (layerK16 (Host.dotGeneral (DotDims.plain 200000 6 16) none x0 x2) x1 x3) x4) x1 x5) x6 x7

end Cert.KernelIdeal.KerValue

end
-- ==== Proof.KerValue.lean ====
/- The kernel program's result as the named composition.

   The run leaves in the result buffer what the last region's write-backs fold to.  Each region's fold is a whole-array
   expression of the arrays the region finds; each of those arrays is either an argument as launched, a pure term the
   straight lines between the regions computed from the arguments, or an earlier region's fold.  Substituting inward,
   from the last region back to the first, turns the result into one expression of the eight arguments; that
   expression is the composition `kerTotal` once its named parts are unfolded — the two sides differ only in the names
   of the shape side conditions, which are proofs of the same propositions. -/
import proofs.«127821_j22179211117042_2_alg».proof.Proof.Region2
import proofs.«127821_j22179211117042_2_alg».proof.Proof.HostStretch
import proofs.«127821_j22179211117042_2_alg».proof.Proof.RunValue
import proofs.«127821_j22179211117042_2_alg».proof.Proof.KerSpec

set_option maxRecDepth 16384

noncomputable section

namespace Cert.KernelIdeal.KerRun

open Idealize.ShloMosaic Idealize.ShloMosaic.TcCoe Idealize.SL.Sem
open Cert.KernelIdeal.Gen Cert.KernelIdeal.HostValue Cert.KernelIdeal.RegionValue Cert.KernelIdeal.KerValue

variable (m : (ℓ : Loc nD τ sig) → Buf (Elt Ideal) ℓ) (ρ : Dev nD → PrngReg)

-- the gather and the scatter stay opaque: the two sides are compared as compositions, never on what six million
-- updates amount to
attribute [local irreducible] Host.gather Host.scatterAdd in
/-- At the end of the run the result buffer holds the named composition of the eight arguments as launched. -/
theorem kernel_value (c : Dev nD) :
    Gen.W6 (F := Ideal) m ρ c (Proc.devRef .tc main_v37)
      = kerTotal (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  rw [W6_result, region2_value (Gen.V5 m ρ) c, V5_v34, V5_v24, V5_v11, V5_v35, V5_arg6, V5_v36, V4_v24,
    region1_value (Gen.V3 m ρ) c, V3_v22, V3_v12, V3_v11, V3_v23, V3_arg4, V2_v12,
    region0_value (Gen.V1 m ρ) c, V1_arg0, V1_arg2, V1_v11]
  unfold kerTotal headK layerK8 combine8 agg8 scaled8 hidden2K layerK16 combine16 agg16 scaled16 colK dinvK
  rfl

end Cert.KernelIdeal.KerRun

end
-- ==== Proof.LibScatterForms.lean ====
/-
  The host's scatter-add in two spellings of one sum.

  Updates `u e`, one per edge `e`, are added onto the entries `dst e` of a node array. Spelt over vectors, the
  operand is `[N]` and the updates `[E]`; spelt with a trailing unit axis, the operand is `[N, 1]` and the updates
  are rows `[E, 1]` that land whole. In both, the start index of update `e` is read signed off the same index
  column and is NOT clamped, so update `e` lands on node `n` exactly when `dst e = n`; the two scattered arrays
  therefore agree entry by entry when the updates and the operands do.
-/
import Idealize.ShloMosaic.PureOps.Ideal.Laws
import Idealize.ShloMosaic.Lib.ValueIdx

noncomputable section

namespace Cert.ScatterForms

open Idealize.ShloMosaic Idealize.ShloMosaic.ValueIdx

/-- An update lands on operand entry `i` exactly when, on every axis, its unclamped start plus its window
    coordinate is `i`'s coordinate (being a coordinate of `i`, that sum is then in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro he a
      have h1 := congrArg (fun f => (f a).val) (Option.some.inj he)
      have h2 := (h a).1
      simp only at h1
      omega
    · intro he
      refine congrArg some (funext fun a => Fin.ext ?_)
      have h1 := he a
      have h2 := (h a).1
      show (d.start j idx a + (d.window j a : Int)).toNat = (i a).val
      omega
  · rename_i h
    constructor
    · intro he
      exact absurd he (by simp)
    · intro he
      exfalso
      apply h
      intro a
      have h1 := he a
      have h2 := (i a).isLt
      constructor <;> omega

/-! ## Over vectors -/

/-- The dimension numbers of `x.at[idx].add(u)` for `x : [N]`, `idx : [E]` given as a column `[E, 1]`, `u : [E]`. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_start {N E w : Nat} (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx 0 = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScatter_window {N E : Nat} (wf : ScatterDims.WF ⟨1, ![N]⟩ ⟨2, ![E, 1]⟩ ⟨1, ![E]⟩ [] [0] [0] 1) (e : Fin E) :
    (vecScatter N E wf).window (ix1 e) 0 = 0 := by
  unfold ScatterDims.window
  rw [dif_neg (show ¬ (0 : Fin 1) ∈ (vecScatter N E wf).sKept from
    fun h => (of_decide_eq_true (List.mem_filter.mp h).2) (List.mem_singleton.mpr rfl))]

/-- Update `e` lands on entry `n` exactly when its index, read signed, is `n`. -/
theorem vecScatter_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ (idx (ix2 e (0 : Fin 1))).toInt = (n.val : Int) := by
  rw [resultIdx?_eq_some_iff]
  constructor
  · intro h
    have h0 : (idx (ix2 e (0 : Fin 1))).toInt + ((0 : ℕ) : Int) = (n.val : Int) := by
      have := h 0
      rwa [vecScatter_start, vecScatter_window] at this
    simpa using h0
  · intro h a
    obtain rfl : a = 0 := Subsingleton.elim _ _
    show (vecScatter N E wf).start (ix1 e) idx 0 + ((vecScatter N E wf).window (ix1 e) 0 : Int) = (n.val : Int)
    rw [vecScatter_start, vecScatter_window]
    simpa using h

/-! ## With a trailing unit axis -/

/-- The dimension numbers of `x.at[idx].add(u)` for `x : [N, 1]`, `idx : [E]` given as a column `[E, 1]`, `u : [E, 1]`:
    update row `e` goes, whole, to operand row `idx[e]`. -/
abbrev colScatter (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

theorem colScatter_start0 {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) :
    (colScatter N E wf).start (ix2 e c) idx 0 = (idx (ix2 e (0 : Fin 1))).toInt := by
  unfold ScatterDims.start
  rw [dif_pos (show (0 : Fin 2) ∈ (colScatter N E wf).scatterDimsToOperandDims from List.mem_singleton.mpr rfl)]
  have hsi : (colScatter N E wf).siIdx (ix2 e c) ⟨List.idxOf (0 : Fin 2) (colScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem colScatter_window0 {N E : Nat} (wf : ScatterDims.WF ⟨2, ![N, 1]⟩ ⟨2, ![E, 1]⟩ ⟨2, ![E, 1]⟩ [1] [0] [0] 1)
    (e : Fin E) (c : Fin 1) : (colScatter N E wf).window (ix2 e c) 0 = 0 := by
  unfold ScatterDims.window
  rw [dif_neg (show ¬ (0 : Fin 2) ∈ (colScatter N E wf).sKept from
    fun h => (of_decide_eq_true (List.mem_filter.mp h).2) (List.mem_singleton.mpr rfl))]

/-- On the unit axis the window coordinate of update `(e, c)` is `c` itself. -/
theorem colScatter_window1 {N E : Nat} (wf : ScatterDims.WF ⟨2, ![N, 1]⟩ ⟨2, ![E, 1]⟩ ⟨2, ![E, 1]⟩ [1] [0] [0] 1)
    (e : Fin E) (c : Fin 1) : (colScatter N E wf).window (ix2 e c) 1 = c.val := by
  have hk : (1 : Fin 2) ∈ (colScatter N E wf).sKept := by
    simp [ScatterDims.sKept, Shape.kept, List.mem_filter, List.mem_finRange]
  have hoff : ∀ (k : Nat) (hk : k < (colScatter N E wf).updateWindowDims.length),
      (colScatter N E wf).updateWindowDims[k]'hk = (1 : Fin 2) := by
    intro k hk
    match k, hk with
    | 0, _ => rfl
  unfold ScatterDims.window
  rw [dif_pos hk]
  show ((ix2 e c) ((colScatter N E wf).updateWindowDims[List.idxOf (1 : Fin 2) (colScatter N E wf).sKept]'_)).val = c.val
  rw [hoff]

/-- The unit axis is not indexed: its start is 0. -/
theorem colScatter_start1 {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) : (colScatter N E wf).start (ix2 e c) idx 1 = 0 := by
  unfold ScatterDims.start
  rw [dif_neg (show ¬ (1 : Fin 2) ∈ (colScatter N E wf).scatterDimsToOperandDims from
    fun h => absurd (congrArg Fin.val (List.mem_singleton.mp h)) Nat.one_ne_zero)]

/-- Update row `e` lands on row `n` exactly when its index, read signed, is `n`. -/
theorem colScatter_lands {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) (n : Fin N) (z : Fin 1) :
    (colScatter N E wf).resultIdx? (ix2 e c) idx = some (ix2 n z) ↔ (idx (ix2 e (0 : Fin 1))).toInt = (n.val : Int) := by
  rw [resultIdx?_eq_some_iff]
  constructor
  · intro h
    have h0 : (idx (ix2 e (0 : Fin 1))).toInt + ((0 : ℕ) : Int) = (n.val : Int) := by
      have := h 0
      rwa [colScatter_start0, colScatter_window0] at this
    simpa using h0
  · intro h a
    match a with
    | ⟨0, _⟩ =>
      show (colScatter N E wf).start (ix2 e c) idx 0 + ((colScatter N E wf).window (ix2 e c) 0 : Int) = (n.val : Int)
      rw [colScatter_start0, colScatter_window0]
      simpa using h
    | ⟨1, _⟩ =>
      show (colScatter N E wf).start (ix2 e c) idx 1 + ((colScatter N E wf).window (ix2 e c) 1 : Int) = (z.val : Int)
      rw [colScatter_start1, colScatter_window1]
      have hc := c.isLt
      have hz := z.isLt
      omega

/-! ## The two spellings give one sum -/

/-- THE LAW that joins the two programs' scatters: with the same index column, operands that agree at node `n` and
    updates that agree edge by edge, the scattered vector at `n` is the scattered column at `(n, 0)` — the updates that
    land there are the same edges. -/
theorem scatterAdd_vec_eq_col {N E w : Nat}
    (wfK : ScatterDims.WF ⟨1, ![N]⟩ ⟨2, ![E, 1]⟩ ⟨1, ![E]⟩ [] [0] [0] 1)
    (wfR : ScatterDims.WF ⟨2, ![N, 1]⟩ ⟨2, ![E, 1]⟩ ⟨2, ![E, 1]⟩ [1] [0] [0] 1)
    (idx : IVec ⟨2, ![E, 1]⟩ w)
    (xK : (⟨1, ![N]⟩ : Shape).Idx → EReal) (xR : (⟨2, ![N, 1]⟩ : Shape).Idx → EReal)
    (uK : (⟨1, ![E]⟩ : Shape).Idx → EReal) (uR : (⟨2, ![E, 1]⟩ : Shape).Idx → EReal)
    (n : Fin N) (z : Fin 1) (hx : xK (ix1 n) = xR (ix2 n z))
    (hu : ∀ e : Fin E, uK (ix1 e) = uR (ix2 e (0 : Fin 1))) :
    Ideal.hostScatterAdd (vecScatter N E wfK) xK idx uK (ix1 n)
      = Ideal.hostScatterAdd (colScatter N E wfR) xR idx uR (ix2 n z) := by
  unfold Ideal.hostScatterAdd
  rw [hx]
  congr 1
  refine Finset.sum_bij' (fun j _ => ix2 (j 0) (0 : Fin 1)) (fun j _ => ix1 (j 0)) ?_ ?_ ?_ ?_ ?_
  · intro j hj
    obtain ⟨e, rfl⟩ : ∃ e, j = ix1 e := ⟨j 0, eq_ix1 j⟩
    rw [Finset.mem_filter] at hj ⊢
    exact ⟨Finset.mem_univ _, (colScatter_lands wfR idx e 0 n z).mpr ((vecScatter_lands wfK idx e n).mp hj.2)⟩
  · intro j hj
    obtain ⟨e, c, rfl⟩ : ∃ e c, j = ix2 e c := ⟨j 0, j 1, eq_ix2 j⟩
    rw [Finset.mem_filter] at hj ⊢
    exact ⟨Finset.mem_univ _, (vecScatter_lands wfK idx e n).mpr ((colScatter_lands wfR idx e c n z).mp hj.2)⟩
  · intro j _
    exact (eq_ix1 j).symm
  · intro j _
    funext a
    match a with
    | ⟨0, _⟩ => rfl
    | ⟨1, _⟩ =>
      refine Fin.ext ?_
      have := idx2_lt1 j
      show (0 : ℕ) = (j 1).val
      omega
  · intro j _
    obtain ⟨e, rfl⟩ : ∃ e, j = ix1 e := ⟨j 0, eq_ix1 j⟩
    exact hu e

end Cert.ScatterForms

end
-- ==== Proof.LibRows2.lean ====
/-
  Whole rows of a rank-2 array moved by an index column, read at an entry, and the host's accumulating scatter of
  rows written as a sum over the edges; a vector picked by an index column likewise.

  For an operand of shape [N, D], an index column [E, 1] and rows [E, D]:
  * jnp's x[idx] (a row gather) at entry (e, j) is the operand at row idx[e] — read signed and clamped into
    [0, N − 1] — and the same j;
  * update entry (e, j) of the row scatter lands on operand entry (n, j') exactly when idx[e], read signed and not
    clamped, is n and j = j';
  * hence the scattered sum at (n, j) is the operand entry plus the sum over the edges e with idx[e] = n of the
    update entry (e, j).
  For a vector [N] picked by a column [E, 1], entry e is the vector at idx[e] read signed and clamped.
  Nothing here mentions a program: the shapes are literal ranks with symbolic extents.
-/
import Idealize.ShloMosaic.PureOps.Ideal.Laws
import Idealize.ShloMosaic.Lib.ValueIdx
import proofs.«127821_j22179211117042_2_alg».proof.Proof.LibScatterForms

noncomputable section

namespace Cert.Rows2

open Idealize.ShloMosaic Idealize.ShloMosaic.ValueIdx

/-! ## The row gather of a rank-2 operand -/

/-- The dimension numbers of x[idx] for x : [N, D] and idx : [E] given as a column [E, 1]: whole rows. -/
abbrev pickRows2 (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry (e, j) of the gather is the operand at row idx[e, 0] — read signed and clamped into [0, N − 1] — and the
    same column j. -/
theorem gather_pickRows2_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (pickRows2 N D E wf) x idx (ix2 e j)
      = x (ix2 ⟨min (idx (ix2 e (0 : Fin 1))).toInt.toNat (N - 1), by omega⟩ j) := by
  unfold Host.gather
  congr 1
  funext c
  refine Fin.ext ?_
  have hnb : ∀ c : Fin 2, (pickRows2 N D E wf).batchCoord (ix2 e j) c = 0 := fun c =>
    GatherDims.batchCoord_eq_zero _ _ _ List.not_mem_nil
  have hs : ∀ c : Fin 2, c ≠ 0 → (pickRows2 N D E wf).start (ix2 e j) idx c = 0 := by
    intro c hc
    unfold GatherDims.start
    rw [dif_neg (show ¬ c ∈ (pickRows2 N D E wf).startIndexMap from fun h => hc (List.mem_singleton.mp h))]
  match c with
  | ⟨0, _⟩ =>
    show (pickRows2 N D E wf).start (ix2 e j) idx 0 + (pickRows2 N D E wf).batchCoord (ix2 e j) 0
      + (pickRows2 N D E wf).offCoord (ix2 e j) 0 = _
    rw [hnb, GatherDims.offCoord_eq_zero _ _ _ (fun h => ((GatherDims.mem_sKept _ _).mp h).1 (List.mem_singleton.mpr rfl))]
    simp only [Nat.add_zero]
    unfold GatherDims.start
    rw [dif_pos (show (0 : Fin 2) ∈ (pickRows2 N D E wf).startIndexMap from List.mem_singleton.mpr rfl)]
    have hsi : (pickRows2 N D E wf).siIdx (ix2 e j) ⟨List.idxOf (0 : Fin 2) (pickRows2 N D E wf).startIndexMap,
        List.idxOf_lt_length_iff.2 (List.mem_singleton.mpr rfl)⟩ = ix2 e (0 : Fin 1) := by
      funext q; refine Fin.ext ?_
      match q with
      | ⟨0, _⟩ => rfl
      | ⟨1, _⟩ => rfl
    rw [hsi]
    rfl
  | ⟨1, _⟩ =>
    show (pickRows2 N D E wf).start (ix2 e j) idx 1 + (pickRows2 N D E wf).batchCoord (ix2 e j) 1
      + (pickRows2 N D E wf).offCoord (ix2 e j) 1 = j.val
    rw [hs 1 (by decide), hnb]
    have hk : (1 : Fin 2) ∈ (pickRows2 N D E wf).sKept :=
      (GatherDims.mem_sKept _ _).mpr
        ⟨fun h => absurd (congrArg Fin.val (List.mem_singleton.mp h)) Nat.one_ne_zero, List.not_mem_nil⟩
    unfold GatherDims.offCoord
    rw [dif_pos hk, Nat.zero_add]
    rfl

/-! ## A vector picked by an index column -/

/-- The dimension numbers of x[idx] for x : [N] and idx : [E] given as a column [E, 1]: single entries. -/
abbrev pick1 (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gather is the vector at idx[e, 0], read signed and clamped into [0, N − 1]. -/
theorem gather_pick1_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (pick1 N E wf) x idx (ix1 e)
      = x (ix1 ⟨min (idx (ix2 e (0 : Fin 1))).toInt.toNat (N - 1), by omega⟩) := by
  unfold Host.gather
  congr 1
  funext c
  refine Fin.ext ?_
  have hnb : ∀ c : Fin 1, (pick1 N E wf).batchCoord (ix1 e) c = 0 := fun c =>
    GatherDims.batchCoord_eq_zero _ _ _ List.not_mem_nil
  match c with
  | ⟨0, _⟩ =>
    show (pick1 N E wf).start (ix1 e) idx 0 + (pick1 N E wf).batchCoord (ix1 e) 0
      + (pick1 N E wf).offCoord (ix1 e) 0 = _
    rw [hnb, GatherDims.offCoord_eq_zero _ _ _ (fun h => ((GatherDims.mem_sKept _ _).mp h).1 (List.mem_singleton.mpr rfl))]
    simp only [Nat.add_zero]
    unfold GatherDims.start
    rw [dif_pos (show (0 : Fin 1) ∈ (pick1 N E wf).startIndexMap from List.mem_singleton.mpr rfl)]
    have hsi : (pick1 N E wf).siIdx (ix1 e) ⟨List.idxOf (0 : Fin 1) (pick1 N E wf).startIndexMap,
        List.idxOf_lt_length_iff.2 (List.mem_singleton.mpr rfl)⟩ = ix2 e (0 : Fin 1) := by
      funext q; refine Fin.ext ?_
      match q with
      | ⟨0, _⟩ => rfl
      | ⟨1, _⟩ => rfl
    rw [hsi]
    rfl

/-! ## The row scatter of a rank-2 operand -/

/-- The dimension numbers of x.at[idx].add(u) for x : [N, D], idx : [E] as a column [E, 1] and u : [E, D]: update
    row e goes, whole, to operand row idx[e]. -/
abbrev rowScatter2 (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section
variable {N D E w : Nat} (wf : ScatterDims.WF ⟨2, ![N, D]⟩ ⟨2, ![E, 1]⟩ ⟨2, ![E, D]⟩ [1] [0] [0] 1)
  (idx : IVec ⟨2, ![E, 1]⟩ w) (e : Fin E) (j : Fin D)

theorem rowScatter2_start0 : (rowScatter2 N D E wf).start (ix2 e j) idx 0 = (idx (ix2 e (0 : Fin 1))).toInt := by
  unfold ScatterDims.start
  rw [dif_pos (show (0 : Fin 2) ∈ (rowScatter2 N D E wf).scatterDimsToOperandDims from List.mem_singleton.mpr rfl)]
  have hsi : (rowScatter2 N D E wf).siIdx (ix2 e j) ⟨List.idxOf (0 : Fin 2) (rowScatter2 N D E wf).scatterDimsToOperandDims,
      List.idxOf_lt_length_iff.2 (List.mem_singleton.mpr rfl)⟩ = ix2 e (0 : Fin 1) := by
    funext q; refine Fin.ext ?_
    match q with
    | ⟨0, _⟩ => rfl
    | ⟨1, _⟩ => rfl
  rw [hsi]

theorem rowScatter2_start1 : (rowScatter2 N D E wf).start (ix2 e j) idx 1 = 0 := by
  unfold ScatterDims.start
  rw [dif_neg (show ¬ (1 : Fin 2) ∈ (rowScatter2 N D E wf).scatterDimsToOperandDims from
    fun h => absurd (congrArg Fin.val (List.mem_singleton.mp h)) Nat.one_ne_zero)]

theorem rowScatter2_window0 : (rowScatter2 N D E wf).window (ix2 e j) 0 = 0 := by
  unfold ScatterDims.window
  rw [dif_neg (show ¬ (0 : Fin 2) ∈ (rowScatter2 N D E wf).sKept from
    fun h => (of_decide_eq_true (List.mem_filter.mp h).2) (List.mem_singleton.mpr rfl))]

theorem rowScatter2_window1 : (rowScatter2 N D E wf).window (ix2 e j) 1 = j.val := by
  have hk : (1 : Fin 2) ∈ (rowScatter2 N D E wf).sKept := by
    simp [ScatterDims.sKept, Shape.kept, List.mem_filter, List.mem_finRange]
  unfold ScatterDims.window
  rw [dif_pos hk]
  rfl

/-- Update entry (e, j) lands on operand entry (n, j') exactly when its row index, read signed, is n and the
    columns agree. -/
theorem rowScatter2_lands (n : Fin N) (j' : Fin D) :
    (rowScatter2 N D E wf).resultIdx? (ix2 e j) idx = some (ix2 n j')
      ↔ (idx (ix2 e (0 : Fin 1))).toInt = (n.val : Int) ∧ j = j' := by
  rw [Cert.ScatterForms.resultIdx?_eq_some_iff]
  constructor
  · intro h
    have h0 : (idx (ix2 e (0 : Fin 1))).toInt + ((0 : ℕ) : Int) = (n.val : Int) := by
      have := h 0
      rwa [rowScatter2_start0, rowScatter2_window0] at this
    have h1 : (0 : Int) + ((j.val : ℕ) : Int) = (j'.val : Int) := by
      have := h 1
      rwa [rowScatter2_start1, rowScatter2_window1] at this
    refine ⟨by simpa using h0, Fin.ext ?_⟩
    omega
  · rintro ⟨h0, rfl⟩ c
    match c with
    | ⟨0, _⟩ =>
      show (rowScatter2 N D E wf).start (ix2 e j) idx 0 + ((rowScatter2 N D E wf).window (ix2 e j) 0 : Int) = (n.val : Int)
      rw [rowScatter2_start0, rowScatter2_window0]
      simpa using h0
    | ⟨1, _⟩ =>
      show (rowScatter2 N D E wf).start (ix2 e j) idx 1 + ((rowScatter2 N D E wf).window (ix2 e j) 1 : Int) = (j.val : Int)
      rw [rowScatter2_start1, rowScatter2_window1]
      simp

end

/-- The scattered sum at entry (n, j): the operand entry plus, over the edges whose row index read signed is n, the
    update entry (e, j). -/
theorem hostScatterAdd_rows2_apply {N D E w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (u : (⟨2, ![E, D]⟩ : Shape).Idx → EReal)
    (n : Fin N) (j : Fin D) :
    Ideal.hostScatterAdd (rowScatter2 N D E wf) x idx u (ix2 n j)
      = x (ix2 n j) + ∑ e : Fin E, if (idx (ix2 e (0 : Fin 1))).toInt = (n.val : Int) then u (ix2 e j) else 0 := by
  unfold Ideal.hostScatterAdd
  congr 1
  rw [← Finset.sum_filter]
  refine Finset.sum_bij' (fun i _ => i 0) (fun e _ => ix2 e j) ?_ ?_ ?_ ?_ ?_
  · intro i hi
    obtain ⟨e, j1, rfl⟩ : ∃ e j1, i = ix2 e j1 := ⟨i 0, i 1, eq_ix2 i⟩
    exact Finset.mem_filter.mpr ⟨Finset.mem_univ _,
      ((rowScatter2_lands wf idx e j1 n j).mp (Finset.mem_filter.mp hi).2).1⟩
  · intro e he
    exact Finset.mem_filter.mpr ⟨Finset.mem_univ _,
      (rowScatter2_lands wf idx e j n j).mpr ⟨(Finset.mem_filter.mp he).2, rfl⟩⟩
  · intro i hi
    obtain ⟨e, j1, rfl⟩ : ∃ e j1, i = ix2 e j1 := ⟨i 0, i 1, eq_ix2 i⟩
    obtain ⟨_, rfl⟩ := (rowScatter2_lands wf idx e j1 n j).mp (Finset.mem_filter.mp hi).2
    rfl
  · intro e _
    rfl
  · intro i hi
    obtain ⟨e, j1, rfl⟩ : ∃ e j1, i = ix2 e j1 := ⟨i 0, i 1, eq_ix2 i⟩
    obtain ⟨_, rfl⟩ := (rowScatter2_lands wf idx e j1 n j).mp (Finset.mem_filter.mp hi).2
    rfl

end Cert.Rows2

end
-- ==== Proof.LibNormPush.lean ====
/-
  Pulling the target node's normalisation out of the neighbour sum.

  A graph convolution with symmetric normalisation sends node n to
      sum over the edges e that point at n of  xw[src e] * (dinv[src e] * dinv[n])   (+ bias).
  The factor dinv[n] is the same for every edge of the sum, so it may be applied once, after the sum, to rows that
  were scaled by dinv[src e] beforehand:
      dinv[n] * (sum over the edges e that point at n of  (xw * dinv)[src e])          (+ bias).
  On the extended reals a factor distributes over a sum when it is nonnegative and not +inf; nothing is asked of xw.
  An edge points at n when its target index, read signed and not clamped, is n; the per-edge factor dinv[dst e] is
  read through a second index column (the targets after negative indices were wrapped) that is clamped into range:
  all that is needed of it is that it reads node n for every edge that points at n.

  The arrays are [N, D] (rows per node), [N] / [N, 1] (one factor per node) and columns [E, 1] of edge indices;
  the extents are symbolic.
-/
import Idealize.ShloMosaic.PureOps.Ideal.Laws
import Idealize.ShloMosaic.PureOps.Contract
import Idealize.ShloMosaic.Lib.ValueIdx
import Idealize.ShloMosaic.Lib.Pipeline.Value
import proofs.«127821_j22179211117042_2_alg».proof.Proof.LibRows2

noncomputable section

namespace Cert.NormPush

open Idealize.ShloMosaic Idealize.ShloMosaic.ValueIdx Cert.Rows2
open scoped BigOperators

/-- A nonnegative factor that is not +inf distributes over a finite sum of extended reals. -/
theorem mul_sum_of_nonneg_ne_top {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- At the ideal values the host's accumulating scatter is the exact sum. -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

theorem mulf_ideal_apply {s : Shape} {φ : FTy} (a b : FVec Ideal s φ) (i : s.Idx) : mulf a b i = a i * b i := rfl

theorem addf_ideal_apply {s : Shape} {φ : FTy} (a b : FVec Ideal s φ) (i : s.Idx) : addf a b i = a i + b i := rfl

variable {N D E : Nat}

/-- A column [N, 1] stretched across D columns reads, at (n, j), the column at (n, 0). -/
theorem stretchCol_apply {α : Type} (h : (⟨2, ![N, 1]⟩ : Shape).BroadcastsInDim ⟨2, ![N, D]⟩ ![0, 1])
    (M : (⟨2, ![N, 1]⟩ : Shape).Idx → α) (n : Fin N) (j : Fin D) :
    broadcastInDim ⟨2, ![N, D]⟩ ![0, 1] h M (ix2 n j) = M (ix2 n (0 : Fin 1)) :=
  broadcastInDim_apply ![0, 1] h M (ix2 n j) (ix2 n (0 : Fin 1)) (fun a => by
    match a with
    | ⟨0, _⟩ =>
      show n.val = if N = 1 then 0 else n.val
      have hn := n.isLt
      split_ifs with hN
      · omega
      · rfl
    | ⟨1, _⟩ => exact (if_pos rfl).symm)

/-- A vector [E] laid out as a column [E, 1] reads, at (e, 0), the vector at e. -/
theorem vecCol_apply {α : Type} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) :=
  broadcastInDim_apply ![0] h v (ix2 e z) (ix1 e) (fun a => by
    match a with
    | ⟨0, _⟩ =>
      show e.val = if E = 1 then 0 else e.val
      have he := e.isLt
      split_ifs with hE
      · omega
      · rfl)

/-- THE LAW. Rows scaled by their own node's factor, gathered along the edges, summed into the target nodes and
    scaled once more by the target's factor, are the rows gathered unscaled, each multiplied by the product of the
    two factors of its edge, and summed. -/
theorem scale_sum_scale (hN : 0 < N)
    (gR : GatherDims ⟨2, ![N, D]⟩ ⟨2, ![E, 1]⟩ ⟨2, ![E, D]⟩)
    (wfg : GatherDims.WF ⟨2, ![N, D]⟩ ⟨2, ![E, 1]⟩ ⟨2, ![E, D]⟩ [1] [0] [] [0] [] 1 ![1, D])
    (hgR : gR = pickRows2 N D E wfg)
    (g1 : GatherDims ⟨1, ![N]⟩ ⟨2, ![E, 1]⟩ ⟨1, ![E]⟩)
    (wf1 : GatherDims.WF ⟨1, ![N]⟩ ⟨2, ![E, 1]⟩ ⟨1, ![E]⟩ [] [0] [] [0] [] 1 ![1])
    (hg1 : g1 = pick1 N E wf1)
    (sc : ScatterDims ⟨2, ![N, D]⟩ ⟨2, ![E, 1]⟩ ⟨2, ![E, D]⟩)
    (wfs : ScatterDims.WF ⟨2, ![N, D]⟩ ⟨2, ![E, 1]⟩ ⟨2, ![E, D]⟩ [1] [0] [0] 1)
    (hsc : sc = rowScatter2 N D E wfs)
    (hbM : (⟨2, ![N, 1]⟩ : Shape).BroadcastsInDim ⟨2, ![N, D]⟩ ![0, 1])
    (hbE1 : (⟨1, ![E]⟩ : Shape).BroadcastsInDim ⟨2, ![E, 1]⟩ ![0])
    (hbED : (⟨2, ![E, 1]⟩ : Shape).BroadcastsInDim ⟨2, ![E, D]⟩ ![0, 1])
    (XW Z B : FVec Ideal ⟨2, ![N, D]⟩ .f32) (M : FVec Ideal ⟨2, ![N, 1]⟩ .f32) (dinv : FVec Ideal ⟨1, ![N]⟩ .f32)
    (srcI dstI dstN : IVec ⟨2, ![E, 1]⟩ 32)
    (hdinv : ∀ n : Fin N, 0 ≤ dinv (ix1 n) ∧ dinv (ix1 n) ≠ ⊤)
    (hM : ∀ n : Fin N, M (ix2 n (0 : Fin 1)) = dinv (ix1 n))
    (hZ : ∀ i, Z i = 0)
    (hdst : ∀ (e : Fin E) (n : Fin N), (dstI (ix2 e (0 : Fin 1))).toInt = (n.val : Int) →
      min (dstN (ix2 e (0 : Fin 1))).toInt.toNat (N - 1) = n.val) :
    addf (mulf (broadcastInDim ⟨2, ![N, D]⟩ ![0, 1] hbM M)
        (Host.scatterAdd sc Z dstI
          (Host.gather gR (mulf XW (broadcastInDim ⟨2, ![N, D]⟩ ![0, 1] hbM M)) srcI))) B
      = addf (Host.scatterAdd sc Z dstI
          (mulf (Host.gather gR XW srcI)
            (broadcastInDim ⟨2, ![E, D]⟩ ![0, 1] hbED (broadcastInDim ⟨2, ![E, 1]⟩ ![0] hbE1
              (mulf (Host.gather g1 dinv srcI) (Host.gather g1 dinv dstN)))))) B := by
  subst hgR hg1 hsc
  funext i
  obtain ⟨n, j, rfl⟩ : ∃ (n : Fin N) (j : Fin D), i = ix2 n j := ⟨i 0, i 1, eq_ix2 i⟩
  obtain ⟨h0, ht⟩ := hdinv n
  rw [addf_ideal_apply, addf_ideal_apply, mulf_ideal_apply, scatterAdd_ideal, scatterAdd_ideal,
    hostScatterAdd_rows2_apply, hostScatterAdd_rows2_apply, stretchCol_apply, hM, hZ, zero_add, zero_add,
    mul_sum_of_nonneg_ne_top _ _ h0 ht]
  congr 1
  refine Finset.sum_congr rfl (fun e _ => ?_)
  split_ifs with hl
  · have hn : (⟨min (dstN (ix2 e (0 : Fin 1))).toInt.toNat (N - 1), by omega⟩ : Fin N) = n := Fin.ext (hdst e n hl)
    rw [gather_pickRows2_apply hN, mulf_ideal_apply, mulf_ideal_apply, gather_pickRows2_apply hN, stretchCol_apply,
      stretchCol_apply, hM, vecCol_apply, mulf_ideal_apply, gather_pick1_apply hN, gather_pick1_apply hN, hn]
    ac_rfl
  · exact mul_zero _

end Cert.NormPush

end
-- ==== Proof.LibDegreeNorm.lean ====
/-
  Three small facts about the normalisation of a graph convolution, each read entry by entry.

  * The factor dinv = where(deg > 0, rsqrt(deg), 0) is a nonnegative real number at every node, whatever extended
    real deg is: for deg <= 0 (or -inf) it is 0, for deg = +inf it is 1/sqrt(+inf) = 0, and for a positive real
    it is the positive real 1/sqrt(deg).
  * Wrapping negative indices (i < 0 becomes i + N) changes no index that is already a node: an edge whose target
    word, read signed, is the node n still reads n after the wrap, and clamping n into [0, N - 1] keeps it.
  * A vector [N] recast as a column [N, 1] reads, at (n, 0), the vector at n.
-/
import Idealize.ShloMosaic.PureOps.Ideal.Laws
import Idealize.ShloMosaic.Lib.ValueIdx
import Idealize.ShloMosaic.Lib.Pipeline.Value
import proofs.«127821_j22179211117042_2_alg».proof.Proof.LibNormPush

noncomputable section

namespace Cert.NormPush

open Idealize.ShloMosaic Idealize.ShloMosaic.ValueIdx

/-- where(deg > 0, rsqrt(deg), 0) is nonnegative and not +inf, at every entry and for every extended real deg. -/
theorem invSqrt_nonneg_ne_top {s : Shape} (deg zs zs' : FVec Ideal s .f32) (hz : ∀ i, zs i = 0) (hz' : ∀ i, zs' i = 0)
    (i : s.Idx) :
    0 ≤ select (cmpf .ogt deg zs) (Host.rsqrt deg) zs' i ∧ select (cmpf .ogt deg zs) (Host.rsqrt deg) zs' i ≠ ⊤ := by
  have e : select (cmpf .ogt deg zs) (Host.rsqrt deg) zs' i
      = if (0 : EReal) < deg i then Ideal.rsqrt (deg i) else 0 := by
    show Scalar.select (Ideal.cmp .ogt (deg i) (zs i)) (Ideal.rsqrt (deg i)) (zs' i) = _
    rw [hz, hz']
    unfold Scalar.select Ideal.cmp
    by_cases h : (0 : EReal) < deg i
    · simp [h]
    · simp [h]
  rw [e]
  generalize deg i = d
  split_ifs with h
  · induction d using EReal.rec with
    | bot => exact absurd h (by simp)
    | top => exact ⟨le_of_eq Ideal.rsqrt_top.symm, by rw [Ideal.rsqrt_top]; exact EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · exact ⟨le_refl _, EReal.zero_ne_top⟩

variable {N E : Nat}

/-- An edge whose target word reads, signed, the node n reads n again after negative words were wrapped by + N
    and the result clamped into [0, N - 1]. -/
theorem wrapped_target (hb : (⟨1, ![E]⟩ : Shape).BroadcastsInDim ⟨2, ![E, 1]⟩ ![0])
    (T c0 cN : IVec ⟨1, ![E]⟩ 32) (h0 : ∀ i, c0 i = 0#32) (e : Fin E) (n : Fin N)
    (h : (broadcastInDim ⟨2, ![E, 1]⟩ ![0] hb T (ix2 e (0 : Fin 1))).toInt = (n.val : Int)) :
    min (broadcastInDim ⟨2, ![E, 1]⟩ ![0] hb (select (cmpi .slt T c0) (addi T cN) T) (ix2 e (0 : Fin 1))).toInt.toNat
      (N - 1) = n.val := by
  rw [vecCol_apply] at h ⊢
  have hslt : (T (ix1 e)).slt 0#32 = false := by
    simp [BitVec.slt, h]
  have hsel : select (cmpi .slt T c0) (addi T cN) T (ix1 e) = T (ix1 e) := by
    show Scalar.select (IntOp.cmpi .slt (T (ix1 e)) (c0 (ix1 e))) _ _ = _
    rw [h0]
    unfold Scalar.select IntOp.cmpi
    simp [hslt]
  rw [hsel, h]
  have hn := n.isLt
  omega

/-- A vector [N] recast as a column [N, 1] reads, at (n, 0), the vector at n. -/
theorem castCol_apply {α : Type} (hc : (⟨1, ![N]⟩ : Shape).ShapeCasts ⟨2, ![N, 1]⟩)
    (v : (⟨1, ![N]⟩ : Shape).Idx → α) (n : Fin N) :
    shapeCast ⟨2, ![N, 1]⟩ v hc (ix2 n (0 : Fin 1)) = v (ix1 n) :=
  shapeCast_apply v hc (ix2 n (0 : Fin 1)) (ix1 n) (by
    rw [Shape.rowMajor_val_one, Shape.rowMajor_val_two]
    show n.val = n.val * 1 + 0
    omega)

/-- The f32 pattern of 0.0, broadcast over any shape, is 0 everywhere. -/
theorem splat_zero (s : Shape) (h : (⟨0, ![]⟩ : Shape).BroadcastsInDim s ![]) (i : s.Idx) :
    broadcastInDim s ![] h (constant (F := Ideal) ⟨0, ![]⟩ .f32 0x00000000#32) i = 0 := by
  show Ideal.ofBits .f32 0x00000000#32 = 0
  exact Ideal.ofBits_zero_f32

end Cert.NormPush

end
-- ==== Proof.LibGcnSelfLoops.lean ====
/-
  One graph-convolution layer with symmetric normalisation and a self-loop at every node, computed two ways.

  The graph has N nodes and E edges; edge e goes from node src e to node dst e. With one loop added at every node the
  edge list has T = E + N entries: the E edges first, then the loop of node 0, of node 1, … The degree of node n counts
  the entries of the long list whose target is n, that is, its incoming edges and its own loop:
      deg n = #{e | dst e = n} + 1,        dinv n = 1 / sqrt (deg n).
  A layer sends rows H (one row per node) to
      out (n, j) = sum over the entries t of the long list with target n of  H (source t, j) * (dinv (source t) * dinv n)
                 = sum over the edges e with dst e = n of  H (src e, j) * (dinv (src e) * dinv n)   +   H (n, j) * (dinv n * dinv n).
  The factor dinv n is common to every term, so the same number is
      dinv n * ( (sum over the edges e with dst e = n of (H * dinv) (src e, j))  +  (H * dinv) (n, j) ),
  the rows scaled by their own node's factor once, summed along the edges, the node's own scaled row added, and the
  result scaled by the target's factor. On the extended reals a factor distributes over a sum when it is nonnegative
  and not +inf, which dinv n is whatever the data; nothing is asked of H.

  An entry of an edge list has target n when its index word, read signed and not clamped, is n; sources (and the
  targets where the factor dinv is looked up) are read through index columns that were wrapped (negative words + N)
  and are clamped into [0, N - 1]. All arrays have symbolic extents.
-/
import Mathlib.Algebra.BigOperators.Fin
import Idealize.ShloMosaic.PureOps.Ideal.Laws
import Idealize.ShloMosaic.Lib.ValueIdx
import Idealize.ShloMosaic.Lib.Pipeline.Value
import proofs.«127821_j22179211117042_2_alg».proof.Proof.LibDegreeNorm

noncomputable section

namespace Cert.Gcn

open Idealize.ShloMosaic Idealize.ShloMosaic.ValueIdx Cert.Rows2 Cert.NormPush Cert.ScatterForms
open scoped BigOperators

/-! ## A vector scattered by an index column, at an entry -/

/-- The scattered sum of a vector at entry n: the operand's entry plus the updates of the edges whose index word
    reads signed as n. -/
theorem hostScatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (u : (⟨1, ![E]⟩ : Shape).Idx → EReal) (n : Fin N) :
    Ideal.hostScatterAdd (vecScatter N E wf) x idx u (ix1 n)
      = x (ix1 n) + ∑ e : Fin E, if (idx (ix2 e (0 : Fin 1))).toInt = (n.val : Int) then u (ix1 e) else 0 := by
  unfold Ideal.hostScatterAdd
  congr 1
  rw [← Finset.sum_filter]
  refine Finset.sum_bij' (fun i _ => i 0) (fun e _ => ix1 e) ?_ ?_ ?_ ?_ ?_
  · intro i hi
    obtain ⟨e, rfl⟩ : ∃ e, i = ix1 e := ⟨i 0, eq_ix1 i⟩
    exact Finset.mem_filter.mpr ⟨Finset.mem_univ _, (vecScatter_lands wf idx e n).mp (Finset.mem_filter.mp hi).2⟩
  · intro e he
    exact Finset.mem_filter.mpr ⟨Finset.mem_univ _, (vecScatter_lands wf idx e n).mpr (Finset.mem_filter.mp he).2⟩
  · intro i _
    exact (eq_ix1 i).symm
  · intro e _
    rfl
  · intro i _
    obtain ⟨e, rfl⟩ : ∃ e, i = ix1 e := ⟨i 0, eq_ix1 i⟩
    rfl

/-! ## The algebra at one node -/

/-- The target's factor pulled out of the sum over the incoming edges and the node's own loop. -/
theorem pull_target_factor {E : ℕ} (p : Fin E → Prop) [DecidablePred p] (a ds : Fin E → EReal) (dn hn : EReal)
    (h0 : 0 ≤ dn) (ht : dn ≠ ⊤) :
    dn * ((0 + ∑ e, if p e then a e * ds e else 0) + hn * dn)
      = 0 + ((∑ e, if p e then a e * (ds e * dn) else 0) + hn * (dn * dn)) := by
  rw [zero_add, zero_add, EReal.left_distrib_of_nonneg_of_ne_top h0 ht, mul_sum_of_nonneg_ne_top _ _ h0 ht]
  congr 1
  · refine Finset.sum_congr rfl (fun e _ => ?_)
    split_ifs
    · ac_rfl
    · exact mul_zero _
  · ac_rfl

/-- A sum over the long edge list is the sum over the edges plus the sum over the loops. -/
theorem sum_edges_loops {E N : ℕ} (f : Fin (E + N) → EReal) :
    ∑ t : Fin (E + N), f t = ∑ e : Fin E, f (Fin.castAdd N e) + ∑ n : Fin N, f (Fin.natAdd E n) :=
  Fin.sum_univ_add f

/-- Among the loops only node n's own has target n. -/
theorem sum_own_loop {N : ℕ} (n : Fin N) (w : Fin N → BitVec 32) (hw : ∀ k : Fin N, (w k).toInt = (k.val : Int))
    (g : Fin N → EReal) :
    (∑ k : Fin N, if (w k).toInt = (n.val : Int) then g k else 0) = g n := by
  have : ∀ k : Fin N, ((w k).toInt = (n.val : Int)) ↔ k = n := fun k => by
    rw [hw k]
    constructor
    · intro h; exact Fin.ext (by exact_mod_cast h)
    · rintro rfl; rfl
  simp only [this]
  rw [Finset.sum_ite_eq' Finset.univ n g, if_pos (Finset.mem_univ _)]

/-! ## The degree normalisation, computed over the edges (+ 1) and over the long list -/

section Degree

variable {N E : Nat}

/-- The factor 1 / sqrt (deg) agrees in the two computations of the degree, and is a nonnegative real. The short
    computation adds the loop as the constant 1 after summing a 1 per incoming edge; the long one sums a 1 per entry
    of the long list and guards the reciprocal root by deg > 0, which always holds. -/
theorem dinv_agree
    (scK : ScatterDims ⟨1, ![N]⟩ ⟨2, ![E, 1]⟩ ⟨1, ![E]⟩)
    (wfK : ScatterDims.WF ⟨1, ![N]⟩ ⟨2, ![E, 1]⟩ ⟨1, ![E]⟩ [] [0] [0] 1) (hscK : scK = vecScatter N E wfK)
    (scR : ScatterDims ⟨1, ![N]⟩ ⟨2, ![E + N, 1]⟩ ⟨1, ![E + N]⟩)
    (wfR : ScatterDims.WF ⟨1, ![N]⟩ ⟨2, ![E + N, 1]⟩ ⟨1, ![E + N]⟩ [] [0] [0] 1) (hscR : scR = vecScatter N (E + N) wfR)
    (Z1 Za Zb onesN : FVec Ideal ⟨1, ![N]⟩ .f32) (onesE : FVec Ideal ⟨1, ![E]⟩ .f32) (onesT : FVec Ideal ⟨1, ![E + N]⟩ .f32)
    (dstC : IVec ⟨2, ![E, 1]⟩ 32) (dstT : IVec ⟨2, ![E + N, 1]⟩ 32)
    (hZ1 : ∀ i, Z1 i = 0) (hZa : ∀ i, Za i = 0) (hZb : ∀ i, Zb i = 0)
    (h1N : ∀ i, onesN i = 1) (h1E : ∀ i, onesE i = 1) (h1T : ∀ i, onesT i = 1)
    (hedge : ∀ e : Fin E, dstT (ix2 (Fin.castAdd N e) (0 : Fin 1)) = dstC (ix2 e (0 : Fin 1)))
    (hloop : ∀ k : Fin N, (dstT (ix2 (Fin.natAdd E k) (0 : Fin 1))).toInt = (k.val : Int))
    (n : Fin N) :
    select (cmpf .ogt (Host.scatterAdd scR Z1 dstT onesT) Za) (Host.rsqrt (Host.scatterAdd scR Z1 dstT onesT)) Zb (ix1 n)
        = Host.rsqrt (addf (Host.scatterAdd scK Z1 dstC onesE) onesN) (ix1 n)
      ∧ 0 ≤ Host.rsqrt (addf (Host.scatterAdd scK Z1 dstC onesE) onesN) (ix1 n)
      ∧ Host.rsqrt (addf (Host.scatterAdd scK Z1 dstC onesE) onesN) (ix1 n) ≠ ⊤ := by
  subst hscK hscR
  -- the number of incoming edges
  set cnt : EReal := ∑ e : Fin E, if (dstC (ix2 e (0 : Fin 1))).toInt = (n.val : Int) then (1 : EReal) else 0 with hcnt
  have hcnt0 : 0 ≤ cnt := Finset.sum_nonneg (fun e _ => by split_ifs <;> simp)
  have hK : addf (Host.scatterAdd (vecScatter N E wfK) Z1 dstC onesE) onesN (ix1 n) = (0 + cnt) + 1 := by
    rw [addf_ideal_apply, scatterAdd_ideal, hostScatterAdd_vec_apply, hZ1, h1N]
    simp only [h1E]
    rfl
  have hR : Host.scatterAdd (vecScatter N (E + N) wfR) Z1 dstT onesT (ix1 n) = 0 + (cnt + 1) := by
    rw [scatterAdd_ideal, hostScatterAdd_vec_apply, hZ1, sum_edges_loops]
    simp only [h1T, hedge]
    rw [sum_own_loop n (fun k => dstT (ix2 (Fin.natAdd E k) (0 : Fin 1))) hloop (fun _ => (1 : EReal))]
  have hdeg : Host.scatterAdd (vecScatter N (E + N) wfR) Z1 dstT onesT (ix1 n)
      = addf (Host.scatterAdd (vecScatter N E wfK) Z1 dstC onesE) onesN (ix1 n) := by
    rw [hK, hR, zero_add, zero_add]
  have hpos : (0 : EReal) < Host.scatterAdd (vecScatter N (E + N) wfR) Z1 dstT onesT (ix1 n) := by
    rw [hR, zero_add]
    exact lt_of_lt_of_le zero_lt_one (le_add_of_nonneg_left hcnt0)
  have hsel : select (cmpf .ogt (Host.scatterAdd (vecScatter N (E + N) wfR) Z1 dstT onesT) Za)
        (Host.rsqrt (Host.scatterAdd (vecScatter N (E + N) wfR) Z1 dstT onesT)) Zb (ix1 n)
      = Host.rsqrt (addf (Host.scatterAdd (vecScatter N E wfK) Z1 dstC onesE) onesN) (ix1 n) := by
    show Scalar.select (Ideal.cmp .ogt (Host.scatterAdd (vecScatter N (E + N) wfR) Z1 dstT onesT (ix1 n)) (Za (ix1 n)))
        (Ideal.rsqrt (Host.scatterAdd (vecScatter N (E + N) wfR) Z1 dstT onesT (ix1 n))) (Zb (ix1 n))
      = Ideal.rsqrt (addf (Host.scatterAdd (vecScatter N E wfK) Z1 dstC onesE) onesN (ix1 n))
    rw [hZa, hZb, ← hdeg]
    unfold Scalar.select Ideal.cmp
    simp [hpos]
  refine ⟨hsel, ?_⟩
  rw [← hsel]
  exact invSqrt_nonneg_ne_top _ Za Zb hZa hZb (ix1 n)

end Degree

/-! ## The layer -/

section Layer

variable {N D E : Nat}

/-- THE LAW. Rows scaled by their node's factor (P = H * dinv), gathered along the edges and summed into the target
    nodes, the node's own scaled row added, the sum scaled by the target's factor: these are the rows gathered unscaled
    along the LONG list (edges, then a loop per node), each multiplied by the product of the two factors of its entry,
    and summed. Same added array B on both sides. -/
theorem layer_eq (hN : 0 < N)
    (gK : GatherDims ⟨2, ![N, D]⟩ ⟨2, ![E, 1]⟩ ⟨2, ![E, D]⟩)
    (wfgK : GatherDims.WF ⟨2, ![N, D]⟩ ⟨2, ![E, 1]⟩ ⟨2, ![E, D]⟩ [1] [0] [] [0] [] 1 ![1, D]) (hgK : gK = pickRows2 N D E wfgK)
    (scK : ScatterDims ⟨2, ![N, D]⟩ ⟨2, ![E, 1]⟩ ⟨2, ![E, D]⟩)
    (wfsK : ScatterDims.WF ⟨2, ![N, D]⟩ ⟨2, ![E, 1]⟩ ⟨2, ![E, D]⟩ [1] [0] [0] 1) (hscK : scK = rowScatter2 N D E wfsK)
    (gR : GatherDims ⟨2, ![N, D]⟩ ⟨2, ![E + N, 1]⟩ ⟨2, ![E + N, D]⟩)
    (wfgR : GatherDims.WF ⟨2, ![N, D]⟩ ⟨2, ![E + N, 1]⟩ ⟨2, ![E + N, D]⟩ [1] [0] [] [0] [] 1 ![1, D])
    (hgR : gR = pickRows2 N D (E + N) wfgR)
    (g1 : GatherDims ⟨1, ![N]⟩ ⟨2, ![E + N, 1]⟩ ⟨1, ![E + N]⟩)
    (wf1 : GatherDims.WF ⟨1, ![N]⟩ ⟨2, ![E + N, 1]⟩ ⟨1, ![E + N]⟩ [] [0] [] [0] [] 1 ![1]) (hg1 : g1 = pick1 N (E + N) wf1)
    (scR : ScatterDims ⟨2, ![N, D]⟩ ⟨2, ![E + N, 1]⟩ ⟨2, ![E + N, D]⟩)
    (wfsR : ScatterDims.WF ⟨2, ![N, D]⟩ ⟨2, ![E + N, 1]⟩ ⟨2, ![E + N, D]⟩ [1] [0] [0] 1)
    (hscR : scR = rowScatter2 N D (E + N) wfsR)
    (hbM : (⟨2, ![N, 1]⟩ : Shape).BroadcastsInDim ⟨2, ![N, D]⟩ ![0, 1])
    (hbT1 : (⟨1, ![E + N]⟩ : Shape).BroadcastsInDim ⟨2, ![E + N, 1]⟩ ![0])
    (hbTD : (⟨2, ![E + N, 1]⟩ : Shape).BroadcastsInDim ⟨2, ![E + N, D]⟩ ![0, 1])
    (H ZK ZR B : FVec Ideal ⟨2, ![N, D]⟩ .f32) (M : FVec Ideal ⟨2, ![N, 1]⟩ .f32) (dinvK dinvR : FVec Ideal ⟨1, ![N]⟩ .f32)
    (srcC dstC : IVec ⟨2, ![E, 1]⟩ 32) (srcT dstT dstW : IVec ⟨2, ![E + N, 1]⟩ 32)
    (hdinv : ∀ n : Fin N, 0 ≤ dinvK (ix1 n) ∧ dinvK (ix1 n) ≠ ⊤)
    (hRK : ∀ n : Fin N, dinvR (ix1 n) = dinvK (ix1 n))
    (hM : ∀ n : Fin N, M (ix2 n (0 : Fin 1)) = dinvK (ix1 n))
    (hZK : ∀ i, ZK i = 0) (hZR : ∀ i, ZR i = 0)
    -- the long list's first E entries are the edges
    (hdst_e : ∀ e : Fin E, dstT (ix2 (Fin.castAdd N e) (0 : Fin 1)) = dstC (ix2 e (0 : Fin 1)))
    (hsrc_e : ∀ e : Fin E, srcT (ix2 (Fin.castAdd N e) (0 : Fin 1)) = srcC (ix2 e (0 : Fin 1)))
    (hdw_e : ∀ (e : Fin E) (n : Fin N), (dstC (ix2 e (0 : Fin 1))).toInt = (n.val : Int) →
      min (dstW (ix2 (Fin.castAdd N e) (0 : Fin 1))).toInt.toNat (N - 1) = n.val)
    -- its last N entries are the loops
    (hdst_l : ∀ k : Fin N, (dstT (ix2 (Fin.natAdd E k) (0 : Fin 1))).toInt = (k.val : Int))
    (hsrc_l : ∀ k : Fin N, min (srcT (ix2 (Fin.natAdd E k) (0 : Fin 1))).toInt.toNat (N - 1) = k.val)
    (hdw_l : ∀ k : Fin N, min (dstW (ix2 (Fin.natAdd E k) (0 : Fin 1))).toInt.toNat (N - 1) = k.val) :
    addf (mulf (broadcastInDim ⟨2, ![N, D]⟩ ![0, 1] hbM M)
        (addf (Host.scatterAdd scK ZK dstC (Host.gather gK (mulf H (broadcastInDim ⟨2, ![N, D]⟩ ![0, 1] hbM M)) srcC))
          (mulf H (broadcastInDim ⟨2, ![N, D]⟩ ![0, 1] hbM M)))) B
      = addf (Host.scatterAdd scR ZR dstT
          (mulf (Host.gather gR H srcT)
            (broadcastInDim ⟨2, ![E + N, D]⟩ ![0, 1] hbTD (broadcastInDim ⟨2, ![E + N, 1]⟩ ![0] hbT1
              (mulf (Host.gather g1 dinvR srcT) (Host.gather g1 dinvR dstW)))))) B := by
  subst hgK hscK hgR hg1 hscR
  funext i
  obtain ⟨n, j, rfl⟩ : ∃ (n : Fin N) (j : Fin D), i = ix2 n j := ⟨i 0, i 1, eq_ix2 i⟩
  obtain ⟨h0, ht⟩ := hdinv n
  -- the short side at (n, j)
  have hK : addf (mulf (broadcastInDim ⟨2, ![N, D]⟩ ![0, 1] hbM M)
        (addf (Host.scatterAdd (rowScatter2 N D E wfsK) ZK dstC
            (Host.gather (pickRows2 N D E wfgK) (mulf H (broadcastInDim ⟨2, ![N, D]⟩ ![0, 1] hbM M)) srcC))
          (mulf H (broadcastInDim ⟨2, ![N, D]⟩ ![0, 1] hbM M)))) B (ix2 n j)
      = dinvK (ix1 n) * ((0 + ∑ e : Fin E, if (dstC (ix2 e (0 : Fin 1))).toInt = (n.val : Int) then
            H (ix2 ⟨min (srcC (ix2 e (0 : Fin 1))).toInt.toNat (N - 1), by omega⟩ j)
              * dinvK (ix1 ⟨min (srcC (ix2 e (0 : Fin 1))).toInt.toNat (N - 1), by omega⟩) else 0)
          + H (ix2 n j) * dinvK (ix1 n)) + B (ix2 n j) := by
    rw [addf_ideal_apply, mulf_ideal_apply, stretchCol_apply, hM, addf_ideal_apply, scatterAdd_ideal,
      hostScatterAdd_rows2_apply, hZK, mulf_ideal_apply, stretchCol_apply, hM]
    refine congrArg (fun s : EReal => dinvK (ix1 n) * ((0 + s) + H (ix2 n j) * dinvK (ix1 n)) + B (ix2 n j)) ?_
    refine Finset.sum_congr rfl (fun e _ => ?_)
    rw [gather_pickRows2_apply hN, mulf_ideal_apply, stretchCol_apply, hM]
  -- the long side at (n, j)
  have hR : addf (Host.scatterAdd (rowScatter2 N D (E + N) wfsR) ZR dstT
          (mulf (Host.gather (pickRows2 N D (E + N) wfgR) H srcT)
            (broadcastInDim ⟨2, ![E + N, D]⟩ ![0, 1] hbTD (broadcastInDim ⟨2, ![E + N, 1]⟩ ![0] hbT1
              (mulf (Host.gather (pick1 N (E + N) wf1) dinvR srcT) (Host.gather (pick1 N (E + N) wf1) dinvR dstW)))))) B (ix2 n j)
      = (0 + ((∑ e : Fin E, if (dstC (ix2 e (0 : Fin 1))).toInt = (n.val : Int) then
            H (ix2 ⟨min (srcC (ix2 e (0 : Fin 1))).toInt.toNat (N - 1), by omega⟩ j)
              * (dinvK (ix1 ⟨min (srcC (ix2 e (0 : Fin 1))).toInt.toNat (N - 1), by omega⟩) * dinvK (ix1 n)) else 0)
          + H (ix2 n j) * (dinvK (ix1 n) * dinvK (ix1 n)))) + B (ix2 n j) := by
    rw [addf_ideal_apply, scatterAdd_ideal, hostScatterAdd_rows2_apply, hZR, sum_edges_loops]
    refine congrArg₂ (fun s t : EReal => (0 + (s + t)) + B (ix2 n j)) ?_ ?_
    · refine Finset.sum_congr rfl (fun e _ => ?_)
      beta_reduce
      rw [hdst_e]
      split_ifs with hl
      · have hn : (⟨min (dstW (ix2 (Fin.castAdd N e) (0 : Fin 1))).toInt.toNat (N - 1), by omega⟩ : Fin N) = n :=
          Fin.ext (hdw_e e n hl)
        have hs : (⟨min (srcT (ix2 (Fin.castAdd N e) (0 : Fin 1))).toInt.toNat (N - 1), by omega⟩ : Fin N)
            = ⟨min (srcC (ix2 e (0 : Fin 1))).toInt.toNat (N - 1), by omega⟩ :=
          Fin.ext (by
            show min (srcT (ix2 (Fin.castAdd N e) (0 : Fin 1))).toInt.toNat (N - 1)
              = min (srcC (ix2 e (0 : Fin 1))).toInt.toNat (N - 1)
            rw [hsrc_e])
        rw [mulf_ideal_apply, gather_pickRows2_apply hN, stretchCol_apply, vecCol_apply, mulf_ideal_apply,
          gather_pick1_apply hN, gather_pick1_apply hN, hn, hs, hRK, hRK]
      · rfl
    · beta_reduce
      rw [sum_own_loop n (fun k => dstT (ix2 (Fin.natAdd E k) (0 : Fin 1))) hdst_l
        (fun k => mulf (Host.gather (pickRows2 N D (E + N) wfgR) H srcT)
          (broadcastInDim ⟨2, ![E + N, D]⟩ ![0, 1] hbTD (broadcastInDim ⟨2, ![E + N, 1]⟩ ![0] hbT1
            (mulf (Host.gather (pick1 N (E + N) wf1) dinvR srcT) (Host.gather (pick1 N (E + N) wf1) dinvR dstW))))
          (ix2 (Fin.natAdd E k) j))]
      have hs : (⟨min (srcT (ix2 (Fin.natAdd E n) (0 : Fin 1))).toInt.toNat (N - 1), by omega⟩ : Fin N) = n :=
        Fin.ext (hsrc_l n)
      have hd : (⟨min (dstW (ix2 (Fin.natAdd E n) (0 : Fin 1))).toInt.toNat (N - 1), by omega⟩ : Fin N) = n :=
        Fin.ext (hdw_l n)
      rw [mulf_ideal_apply, gather_pickRows2_apply hN, stretchCol_apply, vecCol_apply, mulf_ideal_apply,
        gather_pick1_apply hN, gather_pick1_apply hN, hs, hd, hRK]
  rw [hK, hR, pull_target_factor _ _ _ _ _ h0 ht]

end Layer

end Cert.Gcn

end
-- ==== Proof.LibEdgeLoopList.lean ====
/-
  The long edge list read entry by entry.

  The long list is the E edges followed by one loop per node: an index vector v of length E joined with the vector
  0, 1, …, N − 1. Its entry at position e < E is v e, and at position E + k it is the word of k, which reads signed as
  k because N is below 2^31. Wrapping negative words (+ N) commutes with taking an entry and changes no word that already
  reads as a node; an index column is the vector read at its row.
-/
import Idealize.ShloMosaic.Lib.DynamicIndex
import Idealize.ShloMosaic.Lib.Pipeline.Value
import proofs.«127821_j22179211117042_2_alg».proof.Proof.LibDegreeNorm

noncomputable section

namespace Cert.Gcn

open Idealize.ShloMosaic Idealize.ShloMosaic.ValueIdx Cert.NormPush

variable {E N : Nat}

/-- The join of an E-vector and an N-vector at a position below E. -/
theorem cat_edge {α : Type} (hc : Shape.Concatenates [(⟨1, ![E]⟩ : Shape), ⟨1, ![N]⟩] ⟨1, ![E + N]⟩ 0)
    (v : (⟨1, ![E]⟩ : Shape).Idx → α) (w : (⟨1, ![N]⟩ : Shape).Idx → α) (e : Fin E) :
    concatenate ⟨1, ![E + N]⟩ 0 [⟨⟨1, ![E]⟩, v⟩, ⟨⟨1, ![N]⟩, w⟩] hc (ix1 (Fin.castAdd N e)) = v (ix1 e) :=
  concatenate_pair_apply_left 0 v w hc (ix1 (Fin.castAdd N e)) rfl (ix1 e) (fun b => by
    match b with
    | ⟨0, _⟩ => rfl)

/-- The join at position E + k. -/
theorem cat_loop {α : Type} (hc : Shape.Concatenates [(⟨1, ![E]⟩ : Shape), ⟨1, ![N]⟩] ⟨1, ![E + N]⟩ 0)
    (v : (⟨1, ![E]⟩ : Shape).Idx → α) (w : (⟨1, ![N]⟩ : Shape).Idx → α) (k : Fin N) :
    concatenate ⟨1, ![E + N]⟩ 0 [⟨⟨1, ![E]⟩, v⟩, ⟨⟨1, ![N]⟩, w⟩] hc (ix1 (Fin.natAdd E k)) = w (ix1 k) :=
  concatenate_pair_apply_right 0 v w hc (ix1 (Fin.natAdd E k)) rfl rfl (ix1 k)
    (fun b hb => absurd (Subsingleton.elim _ _) hb)
    (by show k.val + E = E + k.val; omega)

/-- Wrapping negative words, at an entry. -/
theorem wrap_at {s : Shape} (v c0 cN : IVec s 32) (i : s.Idx) :
    select (cmpi .slt v c0) (addi v cN) v i
      = Scalar.select (IntOp.cmpi .slt (v i) (c0 i)) (IntOp.addi (v i) (cN i)) (v i) := rfl

section Columns

variable (hc : Shape.Concatenates [(⟨1, ![E]⟩ : Shape), ⟨1, ![N]⟩] ⟨1, ![E + N]⟩ 0)
  (hbT : (⟨1, ![E + N]⟩ : Shape).BroadcastsInDim ⟨2, ![E + N, 1]⟩ ![0])
  (hbE : (⟨1, ![E]⟩ : Shape).BroadcastsInDim ⟨2, ![E, 1]⟩ ![0])
  (v : IVec ⟨1, ![E]⟩ 32)

/-- The long list's column at an edge is the edges' column there. -/
theorem col_edge (w : IVec ⟨1, ![N]⟩ 32) (e : Fin E) :
    broadcastInDim ⟨2, ![E + N, 1]⟩ ![0] hbT
        (concatenate ⟨1, ![E + N]⟩ 0 [⟨⟨1, ![E]⟩, v⟩, ⟨⟨1, ![N]⟩, w⟩] hc) (ix2 (Fin.castAdd N e) (0 : Fin 1))
      = broadcastInDim ⟨2, ![E, 1]⟩ ![0] hbE v (ix2 e (0 : Fin 1)) := by
  rw [vecCol_apply, vecCol_apply, cat_edge]

/-- The long list's wrapped column at an edge is the edges' wrapped column there. -/
theorem wrapped_col_edge (w : IVec ⟨1, ![N]⟩ 32) (c0T cNT : IVec ⟨1, ![E + N]⟩ 32) (c0E cNE : IVec ⟨1, ![E]⟩ 32) (z n : BitVec 32)
    (h0T : ∀ i, c0T i = z) (h0E : ∀ i, c0E i = z) (hNT : ∀ i, cNT i = n) (hNE : ∀ i, cNE i = n) (e : Fin E) :
    broadcastInDim ⟨2, ![E + N, 1]⟩ ![0] hbT
        (select (cmpi .slt (concatenate ⟨1, ![E + N]⟩ 0 [⟨⟨1, ![E]⟩, v⟩, ⟨⟨1, ![N]⟩, w⟩] hc) c0T)
          (addi (concatenate ⟨1, ![E + N]⟩ 0 [⟨⟨1, ![E]⟩, v⟩, ⟨⟨1, ![N]⟩, w⟩] hc) cNT)
          (concatenate ⟨1, ![E + N]⟩ 0 [⟨⟨1, ![E]⟩, v⟩, ⟨⟨1, ![N]⟩, w⟩] hc)) (ix2 (Fin.castAdd N e) (0 : Fin 1))
      = broadcastInDim ⟨2, ![E, 1]⟩ ![0] hbE (select (cmpi .slt v c0E) (addi v cNE) v) (ix2 e (0 : Fin 1)) := by
  rw [vecCol_apply, vecCol_apply, wrap_at, wrap_at, cat_edge, h0T, h0E, hNT, hNE]

/-- At an edge whose target reads as node n, the wrapped and clamped target of the long list reads n. -/
theorem wrapped_col_edge_target (w : IVec ⟨1, ![N]⟩ 32) (c0T cNT : IVec ⟨1, ![E + N]⟩ 32) (h0T : ∀ i, c0T i = 0#32)
    (e : Fin E) (n : Fin N)
    (h : (broadcastInDim ⟨2, ![E, 1]⟩ ![0] hbE v (ix2 e (0 : Fin 1))).toInt = (n.val : Int)) :
    min (broadcastInDim ⟨2, ![E + N, 1]⟩ ![0] hbT
        (select (cmpi .slt (concatenate ⟨1, ![E + N]⟩ 0 [⟨⟨1, ![E]⟩, v⟩, ⟨⟨1, ![N]⟩, w⟩] hc) c0T)
          (addi (concatenate ⟨1, ![E + N]⟩ 0 [⟨⟨1, ![E]⟩, v⟩, ⟨⟨1, ![N]⟩, w⟩] hc) cNT)
          (concatenate ⟨1, ![E + N]⟩ 0 [⟨⟨1, ![E]⟩, v⟩, ⟨⟨1, ![N]⟩, w⟩] hc)) (ix2 (Fin.castAdd N e) (0 : Fin 1))).toInt.toNat
      (N - 1) = n.val :=
  wrapped_target hbT _ c0T cNT h0T (Fin.castAdd N e) n (by rw [col_edge hc hbT hbE v w e]; exact h)

/-- The long list's column at the loop of node k reads signed as k. -/
theorem col_loop (hN31 : N ≤ 2 ^ 31) (k : Fin N) :
    (broadcastInDim ⟨2, ![E + N, 1]⟩ ![0] hbT
        (concatenate ⟨1, ![E + N]⟩ 0 [⟨⟨1, ![E]⟩, v⟩, ⟨⟨1, ![N]⟩, iotaInDim ⟨1, ![N]⟩ 32 0⟩] hc)
        (ix2 (Fin.natAdd E k) (0 : Fin 1))).toInt = (k.val : Int) := by
  rw [vecCol_apply, cat_loop]
  show (BitVec.ofNat 32 k.val).toInt = (k.val : Int)
  exact toInt_ofNat_of_lt (by have := k.isLt; omega)

/-- At the loop of node k the wrapped and clamped column of the long list reads k. -/
theorem wrapped_col_loop (hN31 : N ≤ 2 ^ 31) (c0T cNT : IVec ⟨1, ![E + N]⟩ 32) (h0T : ∀ i, c0T i = 0#32) (k : Fin N) :
    min (broadcastInDim ⟨2, ![E + N, 1]⟩ ![0] hbT
        (select (cmpi .slt (concatenate ⟨1, ![E + N]⟩ 0 [⟨⟨1, ![E]⟩, v⟩, ⟨⟨1, ![N]⟩, iotaInDim ⟨1, ![N]⟩ 32 0⟩] hc) c0T)
          (addi (concatenate ⟨1, ![E + N]⟩ 0 [⟨⟨1, ![E]⟩, v⟩, ⟨⟨1, ![N]⟩, iotaInDim ⟨1, ![N]⟩ 32 0⟩] hc) cNT)
          (concatenate ⟨1, ![E + N]⟩ 0 [⟨⟨1, ![E]⟩, v⟩, ⟨⟨1, ![N]⟩, iotaInDim ⟨1, ![N]⟩ 32 0⟩] hc))
        (ix2 (Fin.natAdd E k) (0 : Fin 1))).toInt.toNat (N - 1) = k.val :=
  wrapped_target hbT _ c0T cNT h0T (Fin.natAdd E k) k (col_loop hc hbT v hN31 k)

end Columns

end Cert.Gcn

end
-- ==== Proof.Bridge.lean ====
/-
  The kernel's layers are the reference's layers.

  Both programs read the same edge array. The reference's long edge list is the kernel's edges followed by a loop per
  node, so the degree it counts is the kernel's count plus one, and the two normalisations 1 / sqrt (deg) agree and are
  nonnegative reals; a layer of the reference is then the kernel's layer by pulling the target's factor out of the sum
  over the incoming edges and the node's own loop.
-/
import proofs.«127821_j22179211117042_2_alg».proof.Proof.KerSpec
import proofs.«127821_j22179211117042_2_alg».proof.Proof.RefSpec
import proofs.«127821_j22179211117042_2_alg».proof.Proof.LibGcnSelfLoops
import proofs.«127821_j22179211117042_2_alg».proof.Proof.LibEdgeLoopList
import proofs.«127821_j22179211117042_2_alg».proof.Proof.LibBlockOfWhole

noncomputable section

namespace Cert.GcnBridge

open Cert.KernelIdeal Cert.KernelIdeal.KerValue Cert.KernelIdeal.HostValue
open Idealize.ShloMosaic Idealize.ShloMosaic.ValueIdx Cert.Rows2 Cert.NormPush Cert.ScatterForms Cert.Gcn
open Cert.ReferenceIdeal (RefValue.srcV RefValue.dstV RefValue.catS RefValue.catD RefValue.wrapT RefValue.colT RefValue.degR
  RefValue.dinvR RefValue.normR RefValue.layerR16 RefValue.layerR8 RefValue.hidden2 RefValue.headR RefValue.refTotal)

/-- Both programs cut the same source words out of the edge array. -/
theorem srcV_eq (x1 : IVec S2x6400000 32) : RefValue.srcV x1 = srcV x1 := rfl
/-- And the same target words. -/
theorem dstV_eq (x1 : IVec S2x6400000 32) : RefValue.dstV x1 = dstV x1 := rfl

/-! ## The long list's columns at an edge and at a loop -/

theorem dst_edge (x1 : IVec S2x6400000 32) (e : Fin 6400000) :
    RefValue.colT (RefValue.catD x1) (ix2 (Fin.castAdd 200000 e) (0 : Fin 1)) = dstC x1 (ix2 e (0 : Fin 1)) := by
  unfold RefValue.colT RefValue.catD dstC
  rw [dstV_eq]
  exact col_edge (E := 6400000) (N := 200000) _ _ _ (dstV x1) _ e

theorem dst_loop (x1 : IVec S2x6400000 32) (k : Fin 200000) :
    (RefValue.colT (RefValue.catD x1) (ix2 (Fin.natAdd 6400000 k) (0 : Fin 1))).toInt = (k.val : Int) := by
  unfold RefValue.colT RefValue.catD
  exact col_loop (E := 6400000) (N := 200000) _ _ (RefValue.dstV x1) (by norm_num) k

theorem src_edge (x1 : IVec S2x6400000 32) (e : Fin 6400000) :
    RefValue.colT (RefValue.wrapT (RefValue.catS x1)) (ix2 (Fin.castAdd 200000 e) (0 : Fin 1)) = srcC x1 (ix2 e (0 : Fin 1)) := by
  unfold RefValue.colT RefValue.wrapT RefValue.catS srcC
  rw [srcV_eq]
  exact wrapped_col_edge (E := 6400000) (N := 200000) _ _ _ (srcV x1) _ _ _ _ _ 0#32 200000#32
    (fun _ => rfl) (fun _ => rfl) (fun _ => rfl) (fun _ => rfl) e

theorem dstw_edge (x1 : IVec S2x6400000 32) (e : Fin 6400000) (n : Fin 200000)
    (h : (dstC x1 (ix2 e (0 : Fin 1))).toInt = (n.val : Int)) :
    min (RefValue.colT (RefValue.wrapT (RefValue.catD x1)) (ix2 (Fin.castAdd 200000 e) (0 : Fin 1))).toInt.toNat (200000 - 1) = n.val := by
  unfold RefValue.colT RefValue.wrapT RefValue.catD
  rw [dstV_eq]
  exact wrapped_col_edge_target (E := 6400000) (N := 200000) _ _ Cert.KernelIdeal.Gen.bcast_S6400000_S6400000x1_0 (dstV x1) _ _ _ (fun _ => rfl) e n h

theorem src_loop (x1 : IVec S2x6400000 32) (k : Fin 200000) :
    min (RefValue.colT (RefValue.wrapT (RefValue.catS x1)) (ix2 (Fin.natAdd 6400000 k) (0 : Fin 1))).toInt.toNat (200000 - 1) = k.val := by
  unfold RefValue.colT RefValue.wrapT RefValue.catS
  exact wrapped_col_loop (E := 6400000) (N := 200000) _ _ (RefValue.srcV x1) (by norm_num) _ _ (fun _ => rfl) k

theorem dstw_loop (x1 : IVec S2x6400000 32) (k : Fin 200000) :
    min (RefValue.colT (RefValue.wrapT (RefValue.catD x1)) (ix2 (Fin.natAdd 6400000 k) (0 : Fin 1))).toInt.toNat (200000 - 1) = k.val := by
  unfold RefValue.colT RefValue.wrapT RefValue.catD
  exact wrapped_col_loop (E := 6400000) (N := 200000) _ _ (RefValue.dstV x1) (by norm_num) _ _ (fun _ => rfl) k

/-! ## The normalisation -/

/-- The f32 pattern of 1.0, broadcast over any shape, is 1 everywhere. -/
theorem splat_one (s : Shape) (h : (⟨0, ![]⟩ : Shape).BroadcastsInDim s ![]) (i : s.Idx) :
    broadcastInDim s ![] h (constant (F := Ideal) ⟨0, ![]⟩ .f32 0x3F800000#32) i = 1 := by
  show Ideal.ofBits .f32 0x3F800000#32 = 1
  exact Cert.Blocks.ofBits_one_f32

/-- The two programs' factors 1 / sqrt (deg) agree at every node and are nonnegative reals. -/
theorem dinv_facts (x1 : IVec S2x6400000 32) (n : Fin 200000) :
    RefValue.dinvR x1 (ix1 n) = dinvK x1 (ix1 n) ∧ 0 ≤ dinvK x1 (ix1 n) ∧ dinvK x1 (ix1 n) ≠ ⊤ := by
  unfold RefValue.dinvR RefValue.degR dinvK
  exact dinv_agree (N := 200000) (E := 6400000)
    scatter_S200000_S6400000x1_S6400000_n_0_0_1 scatter_S200000_S6400000x1_S6400000_n_0_0_1.wf rfl
    Cert.ReferenceIdeal.scatter_S200000_S6600000x1_S6600000_n_0_0_1 Cert.ReferenceIdeal.scatter_S200000_S6600000x1_S6600000_n_0_0_1.wf rfl
    _ _ _ _ _ _ (dstC x1) (RefValue.colT (RefValue.catD x1))
    (fun i => splat_zero _ _ i) (fun i => splat_zero _ _ i) (fun i => splat_zero _ _ i)
    (fun i => splat_one _ _ i) (fun i => splat_one _ _ i) (fun i => splat_one _ _ i)
    (dst_edge x1) (dst_loop x1) n

/-! ## The layers -/

/-- The kernel's column of factors at (n, 0) is the factor of node n. -/
theorem colK_apply (x1 : IVec S2x6400000 32) (n : Fin 200000) : colK x1 (ix2 n (0 : Fin 1)) = dinvK x1 (ix1 n) := by
  unfold colK
  exact castCol_apply _ (dinvK x1) n

/-- A layer on rows of 16: the kernel's  dinv * (agg (H * dinv) + H * dinv) + b  is the reference's sum over the long list. -/
theorem layer16_eq (H : FVec Ideal S200000x16 .f32) (x1 : IVec S2x6400000 32) (b : FVec Ideal S16 .f32) :
    layerK16 H x1 b = RefValue.layerR16 H x1 b := by
  unfold layerK16 combine16 agg16 scaled16 RefValue.layerR16 RefValue.normR
  rw [Cert.Bridge.reshapeRow_eq b _ Cert.ReferenceIdeal.Gen.bcast_S16_S1x16_1]
  exact layer_eq (N := 200000) (D := 16) (E := 6400000) (by norm_num)
    gather_S200000x16_S6400000x1_S6400000x16_1_0_n_n_0_1_116 gather_S200000x16_S6400000x1_S6400000x16_1_0_n_n_0_1_116.wf rfl
    scatter_S200000x16_S6400000x1_S6400000x16_1_0_0_1 scatter_S200000x16_S6400000x1_S6400000x16_1_0_0_1.wf rfl
    Cert.ReferenceIdeal.gather_S200000x16_S6600000x1_S6600000x16_1_0_n_n_0_1_116
      Cert.ReferenceIdeal.gather_S200000x16_S6600000x1_S6600000x16_1_0_n_n_0_1_116.wf rfl
    Cert.ReferenceIdeal.gather_S200000_S6600000x1_S6600000_n_0_n_n_0_1_1
      Cert.ReferenceIdeal.gather_S200000_S6600000x1_S6600000_n_0_n_n_0_1_1.wf rfl
    Cert.ReferenceIdeal.scatter_S200000x16_S6600000x1_S6600000x16_1_0_0_1
      Cert.ReferenceIdeal.scatter_S200000x16_S6600000x1_S6600000x16_1_0_0_1.wf rfl
    _ _ _ H _ _ _ (colK x1) (dinvK x1) (RefValue.dinvR x1) (srcC x1) (dstC x1)
    (RefValue.colT (RefValue.wrapT (RefValue.catS x1))) (RefValue.colT (RefValue.catD x1))
    (RefValue.colT (RefValue.wrapT (RefValue.catD x1)))
    (fun n => (dinv_facts x1 n).2) (fun n => (dinv_facts x1 n).1) (colK_apply x1)
    (fun i => splat_zero _ _ i) (fun i => splat_zero _ _ i)
    (dst_edge x1) (src_edge x1) (dstw_edge x1) (dst_loop x1) (src_loop x1) (dstw_loop x1)

/-- A layer on rows of 8. -/
theorem layer8_eq (H : FVec Ideal S200000x8 .f32) (x1 : IVec S2x6400000 32) (b : FVec Ideal S8 .f32) :
    layerK8 H x1 b = RefValue.layerR8 H x1 b := by
  unfold layerK8 combine8 agg8 scaled8 RefValue.layerR8 RefValue.normR
  rw [Cert.Bridge.reshapeRow_eq b _ Cert.ReferenceIdeal.Gen.bcast_S8_S1x8_1]
  exact layer_eq (N := 200000) (D := 8) (E := 6400000) (by norm_num)
    gather_S200000x8_S6400000x1_S6400000x8_1_0_n_n_0_1_18 gather_S200000x8_S6400000x1_S6400000x8_1_0_n_n_0_1_18.wf rfl
    scatter_S200000x8_S6400000x1_S6400000x8_1_0_0_1 scatter_S200000x8_S6400000x1_S6400000x8_1_0_0_1.wf rfl
    Cert.ReferenceIdeal.gather_S200000x8_S6600000x1_S6600000x8_1_0_n_n_0_1_18
      Cert.ReferenceIdeal.gather_S200000x8_S6600000x1_S6600000x8_1_0_n_n_0_1_18.wf rfl
    Cert.ReferenceIdeal.gather_S200000_S6600000x1_S6600000_n_0_n_n_0_1_1
      Cert.ReferenceIdeal.gather_S200000_S6600000x1_S6600000_n_0_n_n_0_1_1.wf rfl
    Cert.ReferenceIdeal.scatter_S200000x8_S6600000x1_S6600000x8_1_0_0_1
      Cert.ReferenceIdeal.scatter_S200000x8_S6600000x1_S6600000x8_1_0_0_1.wf rfl
    _ _ _ H _ _ _ (colK x1) (dinvK x1) (RefValue.dinvR x1) (srcC x1) (dstC x1)
    (RefValue.colT (RefValue.wrapT (RefValue.catS x1))) (RefValue.colT (RefValue.catD x1))
    (RefValue.colT (RefValue.wrapT (RefValue.catD x1)))
    (fun n => (dinv_facts x1 n).2) (fun n => (dinv_facts x1 n).1) (colK_apply x1)
    (fun i => splat_zero _ _ i) (fun i => splat_zero _ _ i)
    (dst_edge x1) (src_edge x1) (dstw_edge x1) (dst_loop x1) (src_loop x1) (dstw_loop x1)

/-! ## The dense parts, and the whole -/

/-- The rectified rows times the second weights: one product in both programs. -/
theorem hidden2_eq (C1 : FVec Ideal S200000x16 .f32) (x4 : FVec Ideal S16x8 .f32) :
    hidden2K C1 x4 = RefValue.hidden2 C1 x4 := rfl

/-- The head: both programs rectify, multiply by the weight column, add the bias and apply 1 / (1 + exp (- z)). -/
theorem head_eq (C2 : FVec Ideal S200000x8 .f32) (x6 : FVec Ideal S8x1 .f32) (x7 : FVec Ideal S1 .f32) :
    headK C2 x6 x7 = RefValue.headR C2 x6 x7 := by
  unfold headK RefValue.headR
  rw [Cert.Bridge.reshapeRow_eq x7 _ Cert.ReferenceIdeal.Gen.bcast_S1_S1x1_1]
  rfl

/-- The two programs compute one function of their arguments. -/
theorem total_eq (x0 : FVec Ideal S200000x6 .f32) (x1 : IVec S2x6400000 32) (x2 : FVec Ideal S6x16 .f32) (x3 : FVec Ideal S16 .f32)
    (x4 : FVec Ideal S16x8 .f32) (x5 : FVec Ideal S8 .f32) (x6 : FVec Ideal S8x1 .f32) (x7 : FVec Ideal S1 .f32) :
    kerTotal x0 x1 x2 x3 x4 x5 x6 x7 = RefValue.refTotal x0 x1 x2 x3 x4 x5 x6 x7 := by
  unfold kerTotal RefValue.refTotal
  rw [layer16_eq, hidden2_eq, layer8_eq, head_eq]
  rfl

end Cert.GcnBridge

end
-- ==== Proof.lean ====
/-
  Two programs for a two-layer graph convolution on 200000 nodes and 6400000 edges (symmetric normalisation, a loop at
  every node, a rectifier after each layer, a logistic head) compute the same function on the extended reals.

  The reference appends a loop per node to the edge list, counts the degree over the long list, and sums
  H (source) * (dinv (source) * dinv (target)) over the entries of the long list with a given target. The kernel keeps
  the edges, adds the loop as the constant 1 in the degree and as the node's own row in the sum, and pulls the target's
  factor dinv (target) out of the sum: dinv * (agg (H * dinv) + H * dinv) + b, computed in row blocks of 4000 by three
  grid kernels with the gather and the scatter-add between them on the host. The factor is a nonnegative real whatever
  the data, so it distributes over the sum of extended reals; nothing is assumed of the inputs.

  The frames of the two printed kernel programs are the generated ones; the reference's frame is its run with the
  result dropped. The rewriting pass changed no operation, so the preservation claim is trivial. The algebraic claim
  joins the kernel's run (its result named, read region by region as a whole-array expression) and the reference's run
  (its composed term) by the equality of the two compositions.
-/
import proofs.«127821_j22179211117042_2_alg».proof.Defs
import proofs.«127821_j22179211117042_2_alg».proof.Proof.Gen.Kernel
import proofs.«127821_j22179211117042_2_alg».proof.Proof.Gen.Kernel.Frame
import proofs.«127821_j22179211117042_2_alg».proof.Proof.Gen.KernelIdeal
import proofs.«127821_j22179211117042_2_alg».proof.Proof.Gen.KernelIdeal.Frame
import proofs.«127821_j22179211117042_2_alg».proof.Proof.Gen.ReferenceIdeal
import proofs.«127821_j22179211117042_2_alg».proof.Proof.Gen.Pre_finite_inputs
import proofs.«127821_j22179211117042_2_alg».proof.Proof.RefRun
import proofs.«127821_j22179211117042_2_alg».proof.Proof.RefSpec
import proofs.«127821_j22179211117042_2_alg».proof.Proof.RunValue
import proofs.«127821_j22179211117042_2_alg».proof.Proof.KerValue
import proofs.«127821_j22179211117042_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with their result at one function of the arguments:
    the kernel's composition of its three regions and the host operations between them, which is the reference's
    composition of its operations. -/
theorem algebraic : Cert.algebraic_KernelIdeal_ReferenceIdeal := by
  intro m ρ m' ρ' _ hagree
  refine ⟨fun c => Cert.KernelIdeal.KerValue.kerTotal (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KerRun.kernel_value m ρ c), (h c).2⟩)
      (Cert.KernelIdeal.HostValue.run_value (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.GcnBridge.total_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
